-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x1024x64 : Shape := ⟨3, ![1024, 1024, 64]⟩
abbrev S16x64 : Shape := ⟨2, ![16, 64]⟩
abbrev S16 : Shape := ⟨1, ![16]⟩
abbrev S16x64x1024 : Shape := ⟨3, ![16, 64, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x1024x64 : S_.BroadcastsInDim S1024x1024x64 (![] : Fin 0 → Fin S1024x1024x64.rank)
  reducesTo_S1024x1024x64_S_d0_1_2 : S1024x1024x64.ReducesTo [0, 1, 2] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S16x64x1024 : S_.BroadcastsInDim S16x64x1024 (![] : Fin 0 → Fin S16x64x1024.rank)
  reducesTo_S16x64x1024_S_d0_1_2 : S16x64x1024.ReducesTo [0, 1, 2] S_

variable [Facts]

def fn_part2 {F : FTy → Type} [FloatOps F] (main_arg7 : FVec F S16x64 .f32) (main_arg8 : FVec F S16x64x1024 .f32) (main_arg9 : FVec F S16x64 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16x64x1024 .f32 := Host.absf main_arg8
  let main_cst_14 : FVec F S_ .f32 := constant S_ .f32 0x7F800000#32
  let main_v40 : FVec F S16x64x1024 .f32 := broadcastInDim S16x64x1024 ![] bcast_S_S16x64x1024 main_cst_14
  let main_v41 : IVec S16x64x1024 1 := cmpf .olt main_v39 main_v40
  let main_c_15 : IVec S_ 1 := constantI S_ 1 1#1
  let main_v42 : IVec S_ 1 := (fun x v => Host.reduce IntOp.andi x v reducesTo_S16x64x1024_S_d0_1_2 h_S_) main_v41 main_c_15
  let main_v43 : IVec S_ 1 := andi main_v38 main_v42
  let main_v44 : FVec F S16x64 .f32 := Host.absf main_arg9
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  main_v48

def fn_part1 {F : FTy → Type} [FloatOps F] (main_arg4 : FVec F S16x64x1024 .f32) (main_arg5 : FVec F S16x64 .f32) (main_arg6 : FVec F S16x64x1024 .f32) (main_arg7 : FVec F S16x64 .f32) (main_arg8 : FVec F S16x64x1024 .f32) (main_arg9 : FVec F S16x64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64x1024 .f32 := Host.absf main_arg4
  let main_cst_6 : FVec F S_ .f32 := constant S_ .f32 0x7F800000#32
  let main_v20 : FVec F S16x64x1024 .f32 := broadcastInDim S16x64x1024 ![] bcast_S_S16x64x1024 main_cst_6
  let main_v21 : IVec S16x64x1024 1 := cmpf .olt main_v19 main_v20
  let main_c_7 : IVec S_ 1 := constantI S_ 1 1#1
  let main_v22 : IVec S_ 1 := (fun x v => Host.reduce IntOp.andi x v reducesTo_S16x64x1024_S_d0_1_2 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16x64x1024 .f32 := Host.absf main_arg6
  let main_cst_10 : FVec F S_ .f32 := constant S_ .f32 0x7F800000#32
  let main_v30 : FVec F S16x64x1024 .f32 := broadcastInDim S16x64x1024 ![] bcast_S_S16x64x1024 main_cst_10
  let main_v31 : IVec S16x64x1024 1 := cmpf .olt main_v29 main_v30
  let main_c_11 : IVec S_ 1 := constantI S_ 1 1#1
  let main_v32 : IVec S_ 1 := (fun x v => Host.reduce IntOp.andi x v reducesTo_S16x64x1024_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S1024x1024 .f32) (main_arg1 : FVec F S1024x1024x64 .f32) (main_arg2 : FVec F S16x64 .f32) (main_arg3 : FVec F S16 .f32) (main_arg4 : FVec F S16x64x1024 .f32) (main_arg5 : FVec F S16x64 .f32) (main_arg6 : FVec F S16x64x1024 .f32) (main_arg7 : FVec F S16x64 .f32) (main_arg8 : FVec F S16x64x1024 .f32) (main_arg9 : FVec F S16x64 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024x64 .f32 := Host.absf main_arg1
  let main_cst_0 : FVec F S_ .f32 := constant S_ .f32 0x7F800000#32
  let main_v5 : FVec F S1024x1024x64 .f32 := broadcastInDim S1024x1024x64 ![] bcast_S_S1024x1024x64 main_cst_0
  let main_v6 : IVec S1024x1024x64 1 := cmpf .olt main_v4 main_v5
  let main_c_1 : IVec S_ 1 := constantI S_ 1 1#1
  let main_v7 : IVec S_ 1 := (fun x v => Host.reduce IntOp.andi x v reducesTo_S1024x1024x64_S_d0_1_2 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_v13 main_v16
-- ==== Kernel.lean ====
abbrev S1024x1024 : Shape := ⟨2, ![1024, 1024]⟩
abbrev S1024x1024x64 : Shape := ⟨3, ![1024, 1024, 64]⟩
abbrev S16x64 : Shape := ⟨2, ![16, 64]⟩
abbrev S16 : Shape := ⟨1, ![16]⟩
abbrev S16x64x1024 : Shape := ⟨3, ![16, 64, 1024]⟩
abbrev S3072x1024 : Shape := ⟨2, ![3072, 1024]⟩
abbrev S1024x3072 : Shape := ⟨2, ![1024, 3072]⟩
abbrev S1024 : Shape := ⟨1, ![1024]⟩
abbrev S3072 : Shape := ⟨1, ![3072]⟩
abbrev S1x3072 : Shape := ⟨2, ![1, 3072]⟩
abbrev S256x1024 : Shape := ⟨2, ![256, 1024]⟩
abbrev S1x1024 : Shape := ⟨2, ![1, 1024]⟩
abbrev S1024x16x64 : Shape := ⟨3, ![1024, 16, 64]⟩
abbrev S16x1024x64 : Shape := ⟨3, ![16, 1024, 64]⟩
abbrev S16x1 : Shape := ⟨2, ![16, 1]⟩
abbrev S128x128x64 : Shape := ⟨3, ![128, 128, 64]⟩
abbrev S16x128x64 : Shape := ⟨3, ![16, 128, 64]⟩
abbrev S128x1024 : Shape := ⟨2, ![128, 1024]⟩
abbrev S16x128x1 : Shape := ⟨3, ![16, 128, 1]⟩
abbrev S16384x64 : Shape := ⟨2, ![16384, 64]⟩
abbrev S16x16384 : Shape := ⟨2, ![16, 16384]⟩
abbrev S16x128x128 : Shape := ⟨3, ![16, 128, 128]⟩
abbrev S16x128 : Shape := ⟨2, ![16, 128]⟩
abbrev S128x16x64 : Shape := ⟨3, ![128, 16, 64]⟩

abbrev nBuf : Space → Nat
  | .hbm => 32
  | .vmem => 25
  | .smem => 0
  | _ => 0

abbrev bufTy : (tb : Table) → Fin (tcTables nBuf tb) → BufTy
  | .hbm, ⟨0, _⟩ => ⟨S1024x1024, .f32⟩
  | .hbm, ⟨1, _⟩ => ⟨S1024x1024x64, .f32⟩
  | .hbm, ⟨2, _⟩ => ⟨S16x64, .f32⟩
  | .hbm, ⟨3, _⟩ => ⟨S16, .f32⟩
  | .hbm, ⟨4, _⟩ => ⟨S16x64x1024, .f32⟩
  | .hbm, ⟨5, _⟩ => ⟨S16x64, .f32⟩
  | .hbm, ⟨6, _⟩ => ⟨S16x64x1024, .f32⟩
  | .hbm, ⟨7, _⟩ => ⟨S16x64, .f32⟩
  | .hbm, ⟨8, _⟩ => ⟨S16x64x1024, .f32⟩
  | .hbm, ⟨9, _⟩ => ⟨S16x64, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S3072x1024, .f32⟩
  | .hbm, ⟨14, _⟩ => ⟨S1024x3072, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S3072, .f32⟩
  | .hbm, ⟨19, _⟩ => ⟨S1x3072, .f32⟩
  | .hbm, ⟨20, _⟩ => ⟨S1024x3072, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x16x64, .bf16⟩
  | .hbm, ⟨25, _⟩ => ⟨S16x1024x64, .bf16⟩
  | .hbm, ⟨26, _⟩ => ⟨S1024x16x64, .bf16⟩
  | .hbm, ⟨27, _⟩ => ⟨S16x1024x64, .bf16⟩
  | .hbm, ⟨28, _⟩ => ⟨S1024x16x64, .bf16⟩
  | .hbm, ⟨29, _⟩ => ⟨S16x1024x64, .bf16⟩
  | .hbm, ⟨30, _⟩ => ⟨S16x1, .f32⟩
  | .hbm, ⟨31, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S128x128x64, .f32⟩
  | .local _ .vmem, ⟨9, _⟩ => ⟨S128x128x64, .f32⟩
  | .local _ .vmem, ⟨10, _⟩ => ⟨S16x128x64, .bf16⟩
  | .local _ .vmem, ⟨11, _⟩ => ⟨S16x128x64, .bf16⟩
  | .local _ .vmem, ⟨12, _⟩ => ⟨S16x128x64, .bf16⟩
  | .local _ .vmem, ⟨13, _⟩ => ⟨S16x128x64, .bf16⟩
  | .local _ .vmem, ⟨14, _⟩ => ⟨S16x128x64, .bf16⟩
  | .local _ .vmem, ⟨15, _⟩ => ⟨S16x128x64, .bf16⟩
  | .local _ .vmem, ⟨16, _⟩ => ⟨S16x64, .f32⟩
  | .local _ .vmem, ⟨17, _⟩ => ⟨S16x1, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S16x128x1, .f32⟩
  | .local _ .vmem, ⟨23, _⟩ => ⟨S16x128x1, .f32⟩
  | .local _ .vmem, ⟨24, _⟩ => ⟨S16x128x64, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_43 : BitVec 32 := 0#32
  let v58 : BitVec 1 := Scalar.cmpi .ne v57 c0_i32_43
  v58

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S16x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S16x64x1024_S1024x1024 : S16x64x1024.ShapeCasts S1024x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  shapeCasts_S16x64_S1024 : S16x64.ShapeCasts S1024
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  shapeCasts_S1024x1024_S1024x16x64 : S1024x1024.ShapeCasts S1024x16x64
  transposes_S1024x16x64_S16x1024x64_1_0_2 : S1024x16x64.Transposes [1, 0, 2] S16x1024x64
  shapeCasts_S16_S16x1 : S16.ShapeCasts S16x1
  inb_S16x128x1_S16x128x1_0_0_0 : ∀ a, (![0, 0, 0] : Fin 3 → Nat) a + S16x128x1.size a ≤ S16x128x1.size a
  h_S16x128x1 : 0 < S16x128x1.numel
  shapeCasts_S16x128x1_S16x128x1 : S16x128x1.ShapeCasts S16x128x1
  inb_S16x128x64_S16x128x64_0_0_0 : ∀ a, (![0, 0, 0] : Fin 3 → Nat) a + S16x128x64.size a ≤ S16x128x64.size a
  h_S16x128x64 : 0 < S16x128x64.numel
  shapeCasts_S16x128x64_S16x128x64 : S16x128x64.ShapeCasts S16x128x64
  inb_S128x128x64_S128x128x64_0_0_0 : ∀ a, (![0, 0, 0] : Fin 3 → Nat) a + S128x128x64.size a ≤ S128x128x64.size a
  h_S128x128x64 : 0 < S128x128x64.numel
  shapeCasts_S128x128x64_S16384x64 : S128x128x64.ShapeCasts S16384x64
  inb_S16x64_S16x64_0_0 : ∀ a, (![0, 0] : Fin 2 → Nat) a + S16x64.size a ≤ S16x64.size a
  h_S16x64 : 0 < S16x64.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x16384 : S16x1.Broadcasts S16x16384
  shapeCasts_S16x16384_S16x128x128 : S16x16384.ShapeCasts S16x128x128
  reduces_S16x128x128_S16x128 : S16x128x128.Reduces [2] S16x128
  shapeCasts_S16x128_S16x128x1 : S16x128.ShapeCasts S16x128x1
  broadcasts_S16x128x1_S16x128x128 : S16x128x1.Broadcasts S16x128x128
  broadcasts_S16x128x1_S16x128x64 : S16x128x1.Broadcasts S16x128x64
  transposes_S16x128x64_p1_0_2_S128x16x64 : S16x128x64.Transposes [1, 0, 2] S128x16x64
  shapeCasts_S128x16x64_S128x1024 : S128x16x64.ShapeCasts S128x1024
  inb_S128x1024_S128x1024_0_0 : ∀ a, (![0, 0] : Fin 2 → Nat) a + S128x1024.size a ≤ S128x1024.size a
  h_S128x1024 : 0 < S128x1024.numel
  dot_S256x1024_S1024x1024_S256x1024_1_0_0_1_n_n_wf : DotDims.WF S256x1024 S1024x1024 S256x1024 [1] [0] [0] [1] [] []
  dot_S16x64_S16384x64_S16x16384_1_1_0_0_n_n_wf : DotDims.WF S16x64 S16384x64 S16x16384 [1] [1] [0] [0] [] []
  dot_S16x128x64_S16x128x64_S16x128x128_2_2_1_1_0_0_wf : DotDims.WF S16x128x64 S16x128x64 S16x128x128 [2] [2] [1] [1] [0] [0]
  dot_S16x128x128_S16x128x64_S16x128x64_2_1_1_2_0_0_wf : DotDims.WF S16x128x128 S16x128x64 S16x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x3072.size a
  hwx0_3 : ∀ i : grid0.Coords, EltTy.bits .bf16 = 32 ∨ (Rect.block (s := S1024x3072) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128x64.size a ≤ S1024x1024x64.size a
  hwx1_0 : ∀ i : grid1.Coords, EltTy.bits .f32 = 32 ∨ (Rect.block (s := S1024x1024x64) S128x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x64.size a ≤ S16x1024x64.size a
  hwx1_1 : ∀ i : grid1.Coords, EltTy.bits .bf16 = 32 ∨ (Rect.block (s := S16x1024x64) S16x128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128x64.size a ≤ S16x1024x64.size a
  hwx1_2 : ∀ i : grid1.Coords, EltTy.bits .bf16 = 32 ∨ (Rect.block (s := S16x1024x64) S16x128x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x128x64.size a ≤ S16x1024x64.size a
  hwx1_3 : ∀ i : grid1.Coords, EltTy.bits .bf16 = 32 ∨ (Rect.block (s := S16x1024x64) S16x128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1024.size a ≤ S1024x1024.size a
  hwx1_6 : ∀ i : grid1.Coords, EltTy.bits .f32 = 32 ∨ (Rect.block (s := S1024x1024) S128x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S1024x1024.size a
  hwx1_7 : ∀ i : grid1.Coords, EltTy.bits .f32 = 32 ∨ (Rect.block (s := S1024x1024) S128x1024.size (cc1_transform_7 i) (hinb1_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S16x64_S16384x64_S16x16384_1_1_0_0_n_n : DotDims S16x64 S16384x64 S16x16384 where
  lhsContracting := [1]
  rhsContracting := [1]
  lhsNonContracting := [0]
  rhsNonContracting := [0]
  lhsBatch := []
  rhsBatch := []
  wf := dot_S16x64_S16384x64_S16x16384_1_1_0_0_n_n_wf
def dot_S16x128x64_S16x128x64_S16x128x128_2_2_1_1_0_0 : DotDims S16x128x64 S16x128x64 S16x128x128 where
  lhsContracting := [2]
  rhsContracting := [2]
  lhsNonContracting := [1]
  rhsNonContracting := [1]
  lhsBatch := [0]
  rhsBatch := [0]
  wf := dot_S16x128x64_S16x128x64_S16x128x128_2_2_1_1_0_0_wf
def dot_S16x128x128_S16x128x64_S16x128x64_2_1_1_2_0_0 : DotDims S16x128x128 S16x128x64 S16x128x64 where
  lhsContracting := [2]
  rhsContracting := [1]
  lhsNonContracting := [1]
  rhsNonContracting := [2]
  lhsBatch := [0]
  rhsBatch := [0]
  wf := dot_S16x128x128_S16x128x64_S16x128x64_2_1_1_2_0_0_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S128x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S16x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S16x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S16x128x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S16x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S128x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21) S128x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S1024x1024 : Shape := ⟨2, ![1024, 1024]⟩
abbrev S1024x1024x64 : Shape := ⟨3, ![1024, 1024, 64]⟩
abbrev S16x64 : Shape := ⟨2, ![16, 64]⟩
abbrev S16 : Shape := ⟨1, ![16]⟩
abbrev S16x64x1024 : Shape := ⟨3, ![16, 64, 1024]⟩
abbrev S1048576x64 : Shape := ⟨2, ![1048576, 64]⟩
abbrev S16x1048576 : Shape := ⟨2, ![16, 1048576]⟩
abbrev S16x1 : Shape := ⟨2, ![16, 1]⟩
abbrev S_ : Shape := ⟨0, ![]⟩
abbrev S16x1024x1024 : Shape := ⟨3, ![16, 1024, 1024]⟩
abbrev S16x1024x64 : Shape := ⟨3, ![16, 1024, 64]⟩
abbrev S16x1x64 : Shape := ⟨3, ![16, 1, 64]⟩
abbrev S16x1024 : Shape := ⟨2, ![16, 1024]⟩
abbrev S16x1024x1 : Shape := ⟨3, ![16, 1024, 1]⟩
abbrev S1024x16x64 : Shape := ⟨3, ![1024, 16, 64]⟩

abbrev nBuf : Space → Nat
  | .hbm => 63
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024x64, .f32⟩
  | .hbm, ⟨2, _⟩ => ⟨S16x64, .f32⟩
  | .hbm, ⟨3, _⟩ => ⟨S16, .f32⟩
  | .hbm, ⟨4, _⟩ => ⟨S16x64x1024, .f32⟩
  | .hbm, ⟨5, _⟩ => ⟨S16x64, .f32⟩
  | .hbm, ⟨6, _⟩ => ⟨S16x64x1024, .f32⟩
  | .hbm, ⟨7, _⟩ => ⟨S16x64, .f32⟩
  | .hbm, ⟨8, _⟩ => ⟨S16x64x1024, .f32⟩
  | .hbm, ⟨9, _⟩ => ⟨S16x64, .f32⟩
  | .hbm, ⟨10, _⟩ => ⟨S1048576x64, .f32⟩
  | .hbm, ⟨11, _⟩ => ⟨S16x1048576, .f32⟩
  | .hbm, ⟨12, _⟩ => ⟨S16x1, .f32⟩
  | .hbm, ⟨13, _⟩ => ⟨S16x1048576, .f32⟩
  | .hbm, ⟨14, _⟩ => ⟨S16x1048576, .f32⟩
  | .hbm, ⟨15, _⟩ => ⟨S_, .f32⟩
  | .hbm, ⟨16, _⟩ => ⟨S16x1048576, .f32⟩
  | .hbm, ⟨17, _⟩ => ⟨S16x1048576, .f32⟩
  | .hbm, ⟨18, _⟩ => ⟨S16x1024x1024, .f32⟩
  | .hbm, ⟨19, _⟩ => ⟨S16x64x1024, .f32⟩
  | .hbm, ⟨20, _⟩ => ⟨S16x1024x64, .f32⟩
  | .hbm, ⟨21, _⟩ => ⟨S16x1x64, .f32⟩
  | .hbm, ⟨22, _⟩ => ⟨S16x1024x64, .f32⟩
  | .hbm, ⟨23, _⟩ => ⟨S16x1024x64, .f32⟩
  | .hbm, ⟨24, _⟩ => ⟨S16x64x1024, .f32⟩
  | .hbm, ⟨25, _⟩ => ⟨S16x1024x64, .f32⟩
  | .hbm, ⟨26, _⟩ => ⟨S16x1x64, .f32⟩
  | .hbm, ⟨27, _⟩ => ⟨S16x1024x64, .f32⟩
  | .hbm, ⟨28, _⟩ => ⟨S16x1024x64, .f32⟩
  | .hbm, ⟨29, _⟩ => ⟨S16x64x1024, .f32⟩
  | .hbm, ⟨30, _⟩ => ⟨S16x1024x64, .f32⟩
  | .hbm, ⟨31, _⟩ => ⟨S16x1x64, .f32⟩
  | .hbm, ⟨32, _⟩ => ⟨S16x1024x64, .f32⟩
  | .hbm, ⟨33, _⟩ => ⟨S16x1024x64, .f32⟩
  | .hbm, ⟨34, _⟩ => ⟨S16x1024x1024, .f32⟩
  | .hbm, ⟨35, _⟩ => ⟨S_, .f32⟩
  | .hbm, ⟨36, _⟩ => ⟨S_, .f32⟩
  | .hbm, ⟨37, _⟩ => ⟨S16x1024x1024, .f32⟩
  | .hbm, ⟨38, _⟩ => ⟨S16x1024x1024, .f32⟩
  | .hbm, ⟨39, _⟩ => ⟨S_, .f32⟩
  | .hbm, ⟨40, _⟩ => ⟨S_, .f32⟩
  | .hbm, ⟨41, _⟩ => ⟨S16x1024x1024, .f32⟩
  | .hbm, ⟨42, _⟩ => ⟨S16x1024x1024, .f32⟩
  | .hbm, ⟨43, _⟩ => ⟨S16x1024x1024, .f32⟩
  | .hbm, ⟨44, _⟩ => ⟨S16x1024x1024, .f32⟩
  | .hbm, ⟨45, _⟩ => ⟨S_, .f32⟩
  | .hbm, ⟨46, _⟩ => ⟨S16x1024, .f32⟩
  | .hbm, ⟨47, _⟩ => ⟨S_, .f32⟩
  | .hbm, ⟨48, _⟩ => ⟨S16x1024, .f32⟩
  | .hbm, ⟨49, _⟩ => ⟨S16x1024, .f32⟩
  | .hbm, ⟨50, _⟩ => ⟨S16x1024x1, .f32⟩
  | .hbm, ⟨51, _⟩ => ⟨S16x1024x1024, .f32⟩
  | .hbm, ⟨52, _⟩ => ⟨S16x1024x1024, .f32⟩
  | .hbm, ⟨53, _⟩ => ⟨S16x1024x1024, .f32⟩
  | .hbm, ⟨54, _⟩ => ⟨S_, .f32⟩
  | .hbm, ⟨55, _⟩ => ⟨S16x1024, .f32⟩
  | .hbm, ⟨56, _⟩ => ⟨S16x1024x1, .f32⟩
  | .hbm, ⟨57, _⟩ => ⟨S16x1024x1024, .f32⟩
  | .hbm, ⟨58, _⟩ => ⟨S16x1024x1024, .f32⟩
  | .hbm, ⟨59, _⟩ => ⟨S16x1024x64, .f32⟩
  | .hbm, ⟨60, _⟩ => ⟨S1024x16x64, .f32⟩
  | .hbm, ⟨61, _⟩ => ⟨S1024x1024, .f32⟩
  | .hbm, ⟨62, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  shapeCasts_S1024x1024x64_S1048576x64 : S1024x1024x64.ShapeCasts S1048576x64
  bcast_S16_S16x1_0 : S16.BroadcastsInDim S16x1 (![0] : Fin 1 → Fin S16x1.rank)
  bcast_S16x1_S16x1048576_0_1 : S16x1.BroadcastsInDim S16x1048576 (![0, 1] : Fin 2 → Fin S16x1048576.rank)
  bcast_S_S16x1048576 : S_.BroadcastsInDim S16x1048576 (![] : Fin 0 → Fin S16x1048576.rank)
  shapeCasts_S16x1048576_S16x1024x1024 : S16x1048576.ShapeCasts S16x1024x1024
  transposes_S16x64x1024_S16x1024x64_0_2_1 : S16x64x1024.Transposes [0, 2, 1] S16x1024x64
  bcast_S16x64_S16x1x64_0_2 : S16x64.BroadcastsInDim S16x1x64 (![0, 2] : Fin 2 → Fin S16x1x64.rank)
  bcast_S16x1x64_S16x1024x64_0_1_2 : S16x1x64.BroadcastsInDim S16x1024x64 (![0, 1, 2] : Fin 3 → Fin S16x1024x64.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  transposes_S16x1024x64_S1024x16x64_1_0_2 : S16x1024x64.Transposes [1, 0, 2] S1024x16x64
  shapeCasts_S1024x16x64_S1024x1024 : S1024x16x64.ShapeCasts S1024x1024
  dot_S16x64_S1048576x64_S16x1048576_1_1_0_0_n_n_wf : DotDims.WF S16x64 S1048576x64 S16x1048576 [1] [1] [0] [0] [] []
  dot_S16x64x1024_S1024x1024_S16x64x1024_2_1_01_0_n_n_wf : DotDims.WF S16x64x1024 S1024x1024 S16x64x1024 [2] [1] [0, 1] [0] [] []
  dot_S16x1024x64_S16x1024x64_S16x1024x1024_2_2_1_1_0_0_wf : DotDims.WF S16x1024x64 S16x1024x64 S16x1024x1024 [2] [2] [1] [1] [0] [0]
  dot_S16x1024x1024_S16x1024x64_S16x1024x64_2_1_1_2_0_0_wf : DotDims.WF S16x1024x1024 S16x1024x64 S16x1024x64 [2] [1] [1] [2] [0] [0]

variable [Facts₀]

def dot_S16x64_S1048576x64_S16x1048576_1_1_0_0_n_n : DotDims S16x64 S1048576x64 S16x1048576 where
  lhsContracting := [1]
  rhsContracting := [1]
  lhsNonContracting := [0]
  rhsNonContracting := [0]
  lhsBatch := []
  rhsBatch := []
  wf := dot_S16x64_S1048576x64_S16x1048576_1_1_0_0_n_n_wf
def dot_S16x64x1024_S1024x1024_S16x64x1024_2_1_01_0_n_n : DotDims S16x64x1024 S1024x1024 S16x64x1024 where
  lhsContracting := [2]
  rhsContracting := [1]
  lhsNonContracting := [0, 1]
  rhsNonContracting := [0]
  lhsBatch := []
  rhsBatch := []
  wf := dot_S16x64x1024_S1024x1024_S16x64x1024_2_1_01_0_n_n_wf
def dot_S16x1024x64_S16x1024x64_S16x1024x1024_2_2_1_1_0_0 : DotDims S16x1024x64 S16x1024x64 S16x1024x1024 where
  lhsContracting := [2]
  rhsContracting := [2]
  lhsNonContracting := [1]
  rhsNonContracting := [1]
  lhsBatch := [0]
  rhsBatch := [0]
  wf := dot_S16x1024x64_S16x1024x64_S16x1024x1024_2_2_1_1_0_0_wf
def dot_S16x1024x1024_S16x1024x64_S16x1024x64_2_1_1_2_0_0 : DotDims S16x1024x1024 S16x1024x64 S16x1024x64 where
  lhsContracting := [2]
  rhsContracting := [1]
  lhsNonContracting := [1]
  rhsNonContracting := [2]
  lhsBatch := [0]
  rhsBatch := [0]
  wf := dot_S16x1024x1024_S16x1024x64_S16x1024x64_2_1_1_2_0_0_wf

class Facts : Prop extends Facts₀ where

variable [Facts]
-- ==== Proof.K.Region0.lean ====
/-
  The projection call (pipeline 0): one grid point multiplies a band of 256 rows of the activations by a
  band of 1024 columns of the stacked weights and adds the matching band of the stacked bias. Stated here, for
  any float instance and at a PARAMETER `V` (what the TensorCore's buffers hold when the call is entered):
  each window's block at a point, what one run of the body leaves in the output block as a function of the
  three input blocks, the body's Hoare triple, and the pipeline's proof data with its body obligation.
-/
import proofs.«150398_j60060822667746_2_alg».proof.Proof.Gen.Kernel.Launch
import proofs.«150398_j60060822667746_2_alg».proof.Proof.Gen.Kernel.Skeleton
import proofs.«150398_j60060822667746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it
    is not fetched its block index has not moved since the last fetch. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body reads and writes whole blocks. -/
abbrev wholeRows : Rect S256x1024 := Rect.unit (s := S256x1024) ![0, 0] S256x1024.size inb_S256x1024_S256x1024_0_0
abbrev wholeWeights : Rect S1024x1024 := Rect.unit (s := S1024x1024) ![0, 0] S1024x1024.size inb_S1024x1024_S1024x1024_0_0
abbrev wholeBias : Rect S1x1024 := Rect.unit (s := S1x1024) ![0, 0] S1x1024.size inb_S1x1024_S1x1024_0_0

/-- The output block after the body, from the three input blocks: one store of the whole block. -/
def projected (a : Vec F S256x1024 .f32) (w : Vec F S1024x1024 .f32) (b : Vec F S1x1024 .f32) : Vec F S256x1024 .bf16 :=
  View.canon [⟨wholeRows, k0_pay1 (View.ld a wholeRows) (View.ld w wholeWeights) (View.ld b wholeBias)⟩]

theorem projected_cover (p0 : Vec F S256x1024 .bf16) (y : S256x1024.Idx) :
    ∃ pc ∈ ([⟨wholeRows, p0⟩] : List (View.Piece (Elt F) S256x1024 .bf16)), y ∈ pc.1.set :=
  View.cover_of_tiled [⟨wholeRows, p0⟩] S256x1024.size (by rfl) y

set_option maxHeartbeats 1000000 in
/-- The body on whole staging buffers, the inputs' at contents `a`, `w`, `b` and the output's at anything, runs to
    the continuation with the inputs' as they were and the output's at `projected a w b`. -/
theorem body_triple0 (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x1024 .bf16) (harg5 : arg5.IsWhole)
    (a : Vec F S256x1024 .f32) (w : Vec F S1024x1024 .f32) (b : Vec F S1x1024 .f32) (K : PUnit → sProp 𝕄) :
    iprop(owns (c : Thread nD τ) arg2 fullShare a ∗ owns (c : Thread nD τ) arg3 fullShare w ∗ owns (c : Thread nD τ) arg4 fullShare b
        ∗ (∃ d, owns (c : Thread nD τ) arg5 fullShare d)
        ∗ (iprop(owns (c : Thread nD τ) arg2 fullShare a ∗ owns (c : Thread nD τ) arg3 fullShare w ∗ owns (c : Thread nD τ) arg4 fullShare b
            ∗ owns (c : Thread nD τ) arg5 fullShare (projected a w b)) -∗ K ⟨⟩))
      ⊢ wp frame (wpE (defs₀ (F := F)) Variants.none c none) E (cc0_qkv_kernel i arg2 harg2 arg3 harg3 arg4 harg4 arg5 harg5) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projected_cover _)

/-- The proof data of pipeline 0 on core `c`: the arrays as the call finds them; after the body at point `t` each
    input's buffer at its block and the output's at `projected` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => projected (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = projected (blk0 V c 0 t) (blk0 V c 1 t) (blk0 V c 2 t) := by dsimp only [dat0]

theorem before0_0 (c : Dev nD) (t : Fin cfg0.N) (d) : (dat0 V c).before 0 t d = blk0 V c 0 t :=
  held0_0 V (dat0 V c) (A_eq0 V c 0) (after0_0 V c) t d
theorem before0_1 (c : Dev nD) (t : Fin cfg0.N) (d) : (dat0 V c).before 1 t d = blk0 V c 1 t :=
  held0_1 V (dat0 V c) (A_eq0 V c 1) (after0_1 V c) t d
theorem before0_2 (c : Dev nD) (t : Fin cfg0.N) (d) : (dat0 V c).before 2 t d = blk0 V c 2 t :=
  held0_2 V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body_triple0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Bounds.lean ====
/-
  What every unscoped buffer holds when the projection call is entered, when it is left, and when the attention
  call is entered: a fold from the launch memory (a host stretch applies its operations; the call leaves its
  arrays at what its write-backs fold to and every other buffer alone).
-/
import proofs.«150398_j60060822667746_2_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev atLaunch : Dev nD → Valuation τ sig (Elt F) := fun c b => (s₀ m ρ).mem ((c : Dev nD), b)
/-- After the first host stretch (the projection call's entry). -/
abbrev atProj : Dev nD → Valuation τ sig (Elt F) := fun c => StableHlo.after hostOps0 (atLaunch m ρ c)
abbrev Vproj : (c : Dev nD) → (b : Ref sig .tc) → Buf (Elt F) ((c : Thread nD τ).loc b) := fun c b => atProj m ρ c b
/-- At the projection call's exit: its arrays at what the pipeline leaves, every other buffer as entered. -/
def afterProj (c : Dev nD) : Valuation τ sig (Elt F) :=
  Pipeline.withArrays spec0 c (atProj m ρ c) fun w => (dat0 (Vproj m ρ) c).arrAt w cfg0.N
theorem afterProj_arr (c : Dev nD) (w : Fin cfg0.W) :
    afterProj m ρ c (Proc.devRef .tc (Pipeline.arrRef spec0 w)) = (dat0 (Vproj m ρ) c).arrAt w cfg0.N := by
  unfold afterProj; exact Pipeline.withArrays_arr spec0 launch0.win.arr_inj c _ _ w
theorem afterProj_of_ne (c : Dev nD) (b : Ref sig .tc) (hb : ∀ w, Pipeline.arrRef spec0 w ≠ b) :
    afterProj m ρ c (Proc.devRef .tc b) = atProj m ρ c (Proc.devRef .tc b) := by
  unfold afterProj; exact Pipeline.withArrays_of_ne spec0 c _ _ b hb
abbrev VafterProj : (c : Dev nD) → (b : Ref sig .tc) → Buf (Elt F) ((c : Thread nD τ).loc b) := fun c b => afterProj m ρ c b
theorem proj_leaves (c : Dev nD) (w : Fin cfg0.W) : (dat0 (Vproj m ρ) c).arrAt w cfg0.N = VafterProj m ρ c (Pipeline.arrRef spec0 w) :=
  (afterProj_arr m ρ c w).symm
theorem proj_keeps (c : Dev nD) : ∀ b, b ∉ Finset.univ.image (Pipeline.arrRef spec0) → VafterProj m ρ c b = Vproj m ρ c b :=
  fun b hb => afterProj_of_ne m ρ c b fun w e => hb (Finset.mem_image.mpr ⟨w, Finset.mem_univ _, e⟩)

/-- After the second host stretch (the attention call's entry). -/
abbrev atAttn : Dev nD → Valuation τ sig (Elt F) := fun c => StableHlo.after hostOps1 (afterProj m ρ c)
abbrev Vattn : (c : Dev nD) → (b : Ref sig .tc) → Buf (Elt F) ((c : Thread nD τ).loc b) := fun c b => atAttn m ρ c b

end Cert.Kernel.Hand

end
-- ==== Proof.K.AttnShared.lean ====
import proofs.«150398_j60060822667746_2_alg».proof.Proof.Gen.Kernel.Launch
import proofs.«150398_j60060822667746_2_alg».proof.Proof.Gen.Kernel.Skeleton
import proofs.«150398_j60060822667746_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1): what its three control cases share

The grid is 8 × 8; point `t` is row `t / 8` (a block of 128 proposals on the row side of the scores), column `t % 8` (a block of 128 proposals on the column side).
Along a row the body carries three accumulators in scratch memory: the running maximum of the scores, the
running sum of the weights and the running weighted sum of the values. At a row's first column they are
reset, at its last column the row's output block is formed from them; elsewhere the output's staging buffer
is left as found. -/

/-! ## The two conditions on the column, decided over the grid -/

/-- "this is the row's first column": the accumulators are reset. -/
abbrev condF (i : grid1.Coords) : Prop :=
  (Scalar.cmpi .ne (Scalar.extui (Scalar.cmpi .eq (BitVec.ofNat 32 (i 1).val) 0#32)) 0#32) = 1#1
theorem hcondF : ∀ t : Fin cfg1.N, condF (grid1.coords t) ↔ t.val % 8 = 0 :=
  (by decide +kernel : ∀ t : Fin grid1.N, condF (grid1.coords t) ↔ t.val % 8 = 0)

/-- "this is the row's last column": the output block is formed. -/
abbrev condL (i : grid1.Coords) : Prop := k1_cond2 i = 1#1
theorem hcondL : ∀ t : Fin cfg1.N, condL (grid1.coords t) ↔ t.val % 8 = 7 :=
  (by decide +kernel : ∀ t : Fin grid1.N, condL (grid1.coords t) ↔ t.val % 8 = 7)

/-! ## Where the output window is idle -/

/-- Off a row's last column the output window is idle, -/
theorem idleAt7 : ∀ t : Fin cfg1.N, ¬condL (grid1.coords t) → cfg1.idle 7 (grid1.coords t) = true := by decide +kernel
/-- and its block is not written back there; -/
theorem noFlush7 : ∀ t : Fin cfg1.N, ¬condL (grid1.coords t) → (cfg1.win 7).flush t = false := by decide +kernel
/-- on the last column it is live. -/
theorem liveAt7 : ∀ t : Fin cfg1.N, condL (grid1.coords t) → cfg1.idle 7 (grid1.coords t) = false := by decide +kernel

/-! ## The memrefs the body is called with -/

abbrev ms0 (t : Fin cfg1.N) : Memref sig .tc .vmem S128x128x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S16x128x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x128x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S16x128x64 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S16x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S16x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S128x1024 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S128x1024 .f32 := win1_7.stage (cfg1.slots t 7)
abbrev hs7 (t : Fin cfg1.N) : (ms7 t).IsWhole := hstage1_7 ((cfg1.slots t 7).cast nbuf1_7)

/-- The three accumulators: running maximum, running sum, running weighted sum. -/
abbrev scM0 : Memref sig .tc .vmem S16x128x1 .f32 := Memref.whole cc1_scratch0
abbrev scM1 : Memref sig .tc .vmem S16x128x1 .f32 := Memref.whole cc1_scratch1
abbrev scM2 : Memref sig .tc .vmem S16x128x64 .f32 := Memref.whole cc1_scratch2
abbrev VS0 : View sig .tc .vmem S16x128x1 .f32 := scM0.view
abbrev VS1 : View sig .tc .vmem S16x128x1 .f32 := scM1.view
abbrev VS2 : View sig .tc .vmem S16x128x64 .f32 := scM2.view
/-- One staging buffer of the output window, through which its contents are stated. -/
abbrev VO7 : View sig .tc .vmem S128x1024 .f32 := (Memref.whole cc1_stg7_0 : Memref sig .tc .vmem S128x1024 .f32).view

/-! ## The region's invariant, split -/

/-- The scoped buffers the attention kernel never touches (the first kernel's staging buffers), each at some contents. -/
def oth1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) scM0 fullShare d) ∗ (∃ d, owns (c : Thread nD τ) scM1 fullShare d) ∗ (∃ d, owns (c : Thread nD τ) scM2 fullShare d))
        ∗ (∃ r, prngReg c r)) := by
  unfold Pipeline.ΦA; rw [scopedRest1_eq]; simp only [scM0, scM1, scM2, owns_whole]; try rfl

/-- The invariant with the accumulators at contents `P0`, `P1`, `P2` (each a proposition about one buffer). -/
def inv1 (c : Dev nD) (P0 P1 P2 : sProp 𝕄) : sProp 𝕄 :=
  iprop(oth1 (F := F) c ∗ P0 ∗ P1 ∗ P2 ∗ (∃ r, prngReg c r))

/-- What the launch hands the region is the invariant with every accumulator at anything, -/
theorem PhiA1_open (c : Dev nD) :
    (Pipeline.ΦA spec1 c : sProp 𝕄) ⊢ inv1 c iprop(∃ d, owns (c : Thread nD τ) scM0 fullShare d)
      iprop(∃ d, owns (c : Thread nD τ) scM1 fullShare d) iprop(∃ d, owns (c : Thread nD τ) scM2 fullShare d) := by
  rw [PhiA1_eq]; unfold inv1 oth1
  iintro ⟨⟨R0, R1, R2, R3, R4, R5, R6, R7, HS0, HS1, HS2⟩, Hg⟩
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [HS0]; · iexact HS0
  isplitl [HS1]; · iexact HS1
  isplitl [HS2]; · iexact HS2
  iexact Hg

/-- and conversely. -/
theorem PhiA1_close (c : Dev nD) :
    inv1 c iprop(∃ d, owns (c : Thread nD τ) scM0 fullShare d)
      iprop(∃ d, owns (c : Thread nD τ) scM1 fullShare d) iprop(∃ d, owns (c : Thread nD τ) scM2 fullShare d)
      ⊢ (Pipeline.ΦA spec1 c : sProp 𝕄) := by
  rw [PhiA1_eq]; unfold inv1 oth1
  iintro ⟨⟨R0, R1, R2, R3, R4, R5, R6, R7⟩, HS0, HS1, HS2, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HS0]; · iexact HS0
    isplitl [HS1]; · iexact HS1
    iexact HS2
  iexact Hg

/-! ## The windows' blocks, read off the arrays as the region finds them -/

section Blocks

variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where it
is not fetched the block index has not moved since the point before, and the body leaves the buffer as found. -/

theorem before_in0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before_in1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before_in2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before_in3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before_in4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before_in5 {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before_in6 {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.AttnRunFirst.lean ====
import proofs.«150398_j60060822667746_2_alg».proof.Proof.K.AttnShared

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- THE BODY AT A ROW'S FIRST COLUMN. On whole memrefs — the seven inputs at their blocks `x·`, the output's staging
    buffer at contents `xi7` which the body does not store into, the three accumulators at anything (each is reset
    before it is read) — the body runs to the continuation holding the inputs and the output's buffer as they
    were and each accumulator with the found pieces written: first the reset, then the column's update. -/
noncomputable def runFirst (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole) (hc0 : condF i) (hc1 : ¬condL i)
    (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32) :
    Σ' (LS0 : List (View.Piece (Elt F) S16x128x1 .f32)) (LS1 : List (View.Piece (Elt F) S16x128x1 .f32)), { LS2 : List (View.Piece (Elt F) S16x128x64 .f32) //
      ∀ (xi7 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Hand

end
-- ==== Proof.K.AttnRunMiddle.lean ====
import proofs.«150398_j60060822667746_2_alg».proof.Proof.K.AttnShared

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- THE BODY AT AN INNER COLUMN. As at the first column, but no reset: the accumulators enter at what the column
    before left (`xs·`) and leave with the column's update written. -/
noncomputable def runMiddle (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole) (hc0 : ¬condF i) (hc1 : ¬condL i)
    (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32) (xs0 : Vec F S16x128x1 .f32) (xs1 : Vec F S16x128x1 .f32) (xs2 : Vec F S16x128x64 .f32) :
    Σ' (LS0 : List (View.Piece (Elt F) S16x128x1 .f32)) (LS1 : List (View.Piece (Elt F) S16x128x1 .f32)), { LS2 : List (View.Piece (Elt F) S16x128x64 .f32) //
      ∀ (xi7 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Hand

end
-- ==== Proof.K.AttnRunLast.lean ====
import proofs.«150398_j60060822667746_2_alg».proof.Proof.K.AttnShared

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- THE BODY AT A ROW'S LAST COLUMN. The accumulators enter at what the column before left (`xs·`); after the
    column's update the output block — the weighted sum divided by the sum of the weights, relations laid side by
    side, plus the residual input — is stored whole into the output's staging buffer, which enters at anything. -/
noncomputable def runLast (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole) (hc0 : ¬condF i) (hc1 : condL i)
    (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32) (xs0 : Vec F S16x128x1 .f32) (xs1 : Vec F S16x128x1 .f32) (xs2 : Vec F S16x128x64 .f32) :
    Σ' (L7 : List (View.Piece (Elt F) S128x1024 .f32)) (LS0 : List (View.Piece (Elt F) S16x128x1 .f32)) (LS1 : List (View.Piece (Elt F) S16x128x1 .f32)), { LS2 : List (View.Piece (Elt F) S16x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    iexists _; iexact HS2

end Cert.Kernel.Hand

end
-- ==== Proof.K.Region1.lean ====
import proofs.«150398_j60060822667746_2_alg».proof.Proof.K.AttnRunFirst
import proofs.«150398_j60060822667746_2_alg».proof.Proof.K.AttnRunMiddle
import proofs.«150398_j60060822667746_2_alg».proof.Proof.K.AttnRunLast

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1): its proof data and its body obligation

What the three accumulators and the output's staging buffer hold after each grid point is defined by
recursion along the grid from the pieces the three runs found; the region's invariant carries the
accumulators from one point to the next; the body obligation is the run of the point's case. -/

/-! ## Which case a point is in -/

theorem notL_of_first (t : Fin cfg1.N) (h0 : t.val % 8 = 0) : ¬condL (grid1.coords t) :=
  fun h => by have := (hcondL t).mp h; omega
theorem notF_of (t : Fin cfg1.N) (h0 : ¬t.val % 8 = 0) : ¬condF (grid1.coords t) := fun h => h0 ((hcondF t).mp h)
theorem notL_of (t : Fin cfg1.N) (h1 : ¬t.val % 8 = 7) : ¬condL (grid1.coords t) := fun h => h1 ((hcondL t).mp h)

/-- The launch's invariant opened, the conjunction written out. -/
theorem PhiA1_open' (c : Dev nD) :
    (Pipeline.ΦA spec1 c : sProp 𝕄) ⊢ iprop(oth1 (F := F) c ∗ (∃ d, owns (c : Thread nD τ) scM0 fullShare d)
      ∗ (∃ d, owns (c : Thread nD τ) scM1 fullShare d) ∗ (∃ d, owns (c : Thread nD τ) scM2 fullShare d) ∗ (∃ r, prngReg c r)) :=
  PhiA1_open c

/-- and closed again. -/
theorem PhiA1_close' (c : Dev nD) :
    iprop(oth1 (F := F) c ∗ (∃ d, owns (c : Thread nD τ) scM0 fullShare d)
      ∗ (∃ d, owns (c : Thread nD τ) scM1 fullShare d) ∗ (∃ d, owns (c : Thread nD τ) scM2 fullShare d) ∗ (∃ r, prngReg c r))
      ⊢ (Pipeline.ΦA spec1 c : sProp 𝕄) :=
  PhiA1_close c

/-! ## The found pieces cover their buffers, and what they leave -/

section Found

variable (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole)
variable (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32)

/-! At a row's first column: each accumulator is covered (by its reset and again by its update). -/
theorem coverF0 (hc0 : condF i) (hc1 : ¬condL i) (y : S16x128x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1 S16x128x1.size (by sl_kernel_rfl) y

theorem coverF1 (hc0 : condF i) (hc1 : ¬condL i) (y : S16x128x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1 S16x128x1.size (by sl_kernel_rfl) y

theorem coverF2 (hc0 : condF i) (hc1 : ¬condL i) (y : S16x128x64.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S16x128x64.size (by sl_kernel_rfl) y

/-- What a row's first column leaves: the output's buffer is not stored into (a placeholder nothing consults);
    each accumulator at its pieces read back. -/
def leftF (hc0 : condF i) (hc1 : ¬condL i) : Vec F S128x1024 .f32 × Vec F S16x128x1 .f32 × Vec F S16x128x1 .f32 × Vec F S16x128x64 .f32 :=
  (View.canon ([] : List (View.Piece (Elt F) S128x1024 .f32)),
   VS0.read (Elt F) (VS0.writes (Elt F) VS0.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1),
   VS1.read (Elt F) (VS1.writes (Elt F) VS1.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1),
   VS2.read (Elt F) (VS2.writes (Elt F) VS2.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1))

/-! At an inner column: each accumulator is covered by its update. -/
theorem coverM0 (hc0 : ¬condF i) (hc1 : ¬condL i) (xs0 : Vec F S16x128x1 .f32) (xs1 : Vec F S16x128x1 .f32) (xs2 : Vec F S16x128x64 .f32) (y : S16x128x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S16x128x1.size (by sl_kernel_rfl) y

theorem coverM1 (hc0 : ¬condF i) (hc1 : ¬condL i) (xs0 : Vec F S16x128x1 .f32) (xs1 : Vec F S16x128x1 .f32) (xs2 : Vec F S16x128x64 .f32) (y : S16x128x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S16x128x1.size (by sl_kernel_rfl) y

theorem coverM2 (hc0 : ¬condF i) (hc1 : ¬condL i) (xs0 : Vec F S16x128x1 .f32) (xs1 : Vec F S16x128x1 .f32) (xs2 : Vec F S16x128x64 .f32) (y : S16x128x64.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1 S16x128x64.size (by sl_kernel_rfl) y

/-- What an inner column leaves, from what the column before left in the accumulators. -/
def leftM (hc0 : ¬condF i) (hc1 : ¬condL i) (xs0 : Vec F S16x128x1 .f32) (xs1 : Vec F S16x128x1 .f32) (xs2 : Vec F S16x128x64 .f32) : Vec F S128x1024 .f32 × Vec F S16x128x1 .f32 × Vec F S16x128x1 .f32 × Vec F S16x128x64 .f32 :=
  (View.canon ([] : List (View.Piece (Elt F) S128x1024 .f32)),
   VS0.read (Elt F) (VS0.writes (Elt F) VS0.junk (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1),
   VS1.read (Elt F) (VS1.writes (Elt F) VS1.junk (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1),
   VS2.read (Elt F) (VS2.writes (Elt F) VS2.junk (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1))

/-! At a row's last column: the output's buffer and each accumulator are covered. -/
theorem coverL7 (hc0 : ¬condF i) (hc1 : condL i) (xs0 : Vec F S16x128x1 .f32) (xs1 : Vec F S16x128x1 .f32) (xs2 : Vec F S16x128x64 .f32) (y : S128x1024.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S128x1024.size (by sl_kernel_rfl) y

theorem coverL0 (hc0 : ¬condF i) (hc1 : condL i) (xs0 : Vec F S16x128x1 .f32) (xs1 : Vec F S16x128x1 .f32) (xs2 : Vec F S16x128x64 .f32) (y : S16x128x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S16x128x1.size (by sl_kernel_rfl) y

theorem coverL1 (hc0 : ¬condF i) (hc1 : condL i) (xs0 : Vec F S16x128x1 .f32) (xs1 : Vec F S16x128x1 .f32) (xs2 : Vec F S16x128x64 .f32) (y : S16x128x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1 S16x128x1.size (by sl_kernel_rfl) y

theorem coverL2 (hc0 : ¬condF i) (hc1 : condL i) (xs0 : Vec F S16x128x1 .f32) (xs1 : Vec F S16x128x1 .f32) (xs2 : Vec F S16x128x64 .f32) (y : S16x128x64.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.2.1 S16x128x64.size (by sl_kernel_rfl) y

/-- What a row's last column leaves: the row's output block, and the accumulators. -/
def leftL (hc0 : ¬condF i) (hc1 : condL i) (xs0 : Vec F S16x128x1 .f32) (xs1 : Vec F S16x128x1 .f32) (xs2 : Vec F S16x128x64 .f32) : Vec F S128x1024 .f32 × Vec F S16x128x1 .f32 × Vec F S16x128x1 .f32 × Vec F S16x128x64 .f32 :=
  (VO7.read (Elt F) (VO7.writes (Elt F) VO7.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1),
   VS0.read (Elt F) (VS0.writes (Elt F) VS0.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1),
   VS1.read (Elt F) (VS1.writes (Elt F) VS1.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1),
   VS2.read (Elt F) (VS2.writes (Elt F) VS2.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.2.1))

end Found

section Region

variable (V : (c : Dev nD) → (b : Ref sig .tc) → Buf (Elt F) ((c : Thread nD τ).loc b))

/-! ## Point by point -/

/-- A first column `t`: the case run on the point's memrefs and input blocks. -/
def atF (c : Dev nD) (t : Fin cfg1.N) (h0 : t.val % 8 = 0) : Vec F S128x1024 .f32 × Vec F S16x128x1 .f32 × Vec F S16x128x1 .f32 × Vec F S16x128x64 .f32 :=
  leftF c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) ((hcondF t).mpr h0) (notL_of_first t h0)

/-- An inner column `t`, over what the point before left (`p`). -/
def atM (c : Dev nD) (t : Fin cfg1.N) (h0 : ¬t.val % 8 = 0) (h1 : ¬t.val % 8 = 7) (p : Vec F S128x1024 .f32 × Vec F S16x128x1 .f32 × Vec F S16x128x1 .f32 × Vec F S16x128x64 .f32) : Vec F S128x1024 .f32 × Vec F S16x128x1 .f32 × Vec F S16x128x1 .f32 × Vec F S16x128x64 .f32 :=
  leftM c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) (notL_of t h1) p.2.1 p.2.2.1 p.2.2.2

/-- A last column `t`, over what the point before left (`p`). -/
def atL (c : Dev nD) (t : Fin cfg1.N) (h0 : ¬t.val % 8 = 0) (h1 : t.val % 8 = 7) (p : Vec F S128x1024 .f32 × Vec F S16x128x1 .f32 × Vec F S16x128x1 .f32 × Vec F S16x128x64 .f32) : Vec F S128x1024 .f32 × Vec F S16x128x1 .f32 × Vec F S16x128x1 .f32 × Vec F S16x128x64 .f32 :=
  leftL c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) ((hcondL t).mpr h1) p.2.1 p.2.2.1 p.2.2.2

/-- THE RECURRENCE ALONG THE GRID. After the body at position `n`: the output window's staging buffer, the running
    maximum, the running sum, the running weighted sum. A first column starts afresh; every other column continues
    from the point before (the accumulators are not touched between two points). -/
def carried1 (c : Dev nD) : (n : ℕ) → n < cfg1.N → Vec F S128x1024 .f32 × Vec F S16x128x1 .f32 × Vec F S16x128x1 .f32 × Vec F S16x128x64 .f32
  | 0, hn => atF V c ⟨0, hn⟩ (Nat.zero_mod _)
  | n + 1, hn =>
    if h0 : (n + 1) % 8 = 0 then atF V c ⟨n + 1, hn⟩ h0
    else if h1 : (n + 1) % 8 = 7 then atL V c ⟨n + 1, hn⟩ h0 h1 (carried1 c n (Nat.lt_of_succ_lt hn))
    else atM V c ⟨n + 1, hn⟩ h0 h1 (carried1 c n (Nat.lt_of_succ_lt hn))

theorem carried1_F (c : Dev nD) (t : Fin cfg1.N) (h0 : t.val % 8 = 0) :
    carried1 V c t.val t.isLt = atF V c t h0 := by
  obtain ⟨n, hn⟩ := t
  cases n with
  | zero => exact rfl
  | succ n => exact (dif_pos h0).trans rfl

theorem carried1_M (c : Dev nD) (t : Fin cfg1.N) (h0 : ¬t.val % 8 = 0) (h1 : ¬t.val % 8 = 7) :
    carried1 V c t.val t.isLt = atM V c t h0 h1 (carried1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem carried1_L (c : Dev nD) (t : Fin cfg1.N) (h0 : ¬t.val % 8 = 0) (h1 : t.val % 8 = 7) :
    carried1 V c t.val t.isLt = atL V c t h0 h1 (carried1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point what the launch hands over (every accumulator at anything); before any other point the
    accumulators at what the point before left. -/
def PhiS1 (c : Dev nD) : (n : ℕ) → n ≤ cfg1.N → sProp 𝕄
  | 0, _ => Pipeline.ΦA spec1 c
  | n + 1, hn => inv1 c (owns (c : Thread nD τ) scM0 fullShare (carried1 V c n hn).2.1)
      (owns (c : Thread nD τ) scM1 fullShare (carried1 V c n hn).2.2.1) (owns (c : Thread nD τ) scM2 fullShare (carried1 V c n hn).2.2.2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = inv1 c (owns (c : Thread nD τ) scM0 fullShare (carried1 V c n hn).2.1)
      (owns (c : Thread nD τ) scM1 fullShare (carried1 V c n hn).2.2.1) (owns (c : Thread nD τ) scM2 fullShare (carried1 V c n hn).2.2.2) := rfl

theorem PhiS1_pos (c : Dev nD) (n : ℕ) (h : n ≤ cfg1.N) (hz : n ≠ 0) :
    PhiS1 V c n h = inv1 c (owns (c : Thread nD τ) scM0 fullShare (carried1 V c (n - 1) (by omega)).2.1)
      (owns (c : Thread nD τ) scM1 fullShare (carried1 V c (n - 1) (by omega)).2.2.1) (owns (c : Thread nD τ) scM2 fullShare (carried1 V c (n - 1) (by omega)).2.2.2) := by
  cases n with
  | zero => exact absurd rfl hz
  | succ n => rfl

/-! ## The proof data -/

/-- Pipeline 1's proof data on core `c`, at the contents `V` the region is entered with: each input's buffer keeps
    its block; the output's buffer after point `t` is the recurrence's first component (it matters at last columns
    only: elsewhere the window is idle); the invariant as above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (carried1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (carried1 V c t.val t.isLt).1 := by dsimp only [dat1]

theorem before1_0 (c : Dev nD) (t : Fin cfg1.N) (d) : (dat1 V c).before 0 t d = iblk1 V c 0 t :=
  before_in0 V (dat1 V c) (A_eq1 V c 0) (after1_0 V c) t d
theorem before1_1 (c : Dev nD) (t : Fin cfg1.N) (d) : (dat1 V c).before 1 t d = iblk1 V c 1 t :=
  before_in1 V (dat1 V c) (A_eq1 V c 1) (after1_1 V c) t d
theorem before1_2 (c : Dev nD) (t : Fin cfg1.N) (d) : (dat1 V c).before 2 t d = iblk1 V c 2 t :=
  before_in2 V (dat1 V c) (A_eq1 V c 2) (after1_2 V c) t d
theorem before1_3 (c : Dev nD) (t : Fin cfg1.N) (d) : (dat1 V c).before 3 t d = iblk1 V c 3 t :=
  before_in3 V (dat1 V c) (A_eq1 V c 3) (after1_3 V c) t d
theorem before1_4 (c : Dev nD) (t : Fin cfg1.N) (d) : (dat1 V c).before 4 t d = iblk1 V c 4 t :=
  before_in4 V (dat1 V c) (A_eq1 V c 4) (after1_4 V c) t d
theorem before1_5 (c : Dev nD) (t : Fin cfg1.N) (d) : (dat1 V c).before 5 t d = iblk1 V c 5 t :=
  before_in5 V (dat1 V c) (A_eq1 V c 5) (after1_5 V c) t d
theorem before1_6 (c : Dev nD) (t : Fin cfg1.N) (d) : (dat1 V c).before 6 t d = iblk1 V c 6 t :=
  before_in6 V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d))
    ∗ (∃ d, owns (c : Thread nD τ) (ms7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the column decides the case; the invariant hands the
    body the accumulators (at anything before the grid's first point, else at what the point before left — a first
    column resets them whatever they hold) and takes them back at this point's contents, each read back through its
    covering pieces; off a last column the output's buffer is handed back as found, on it the row's block is in it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms0 t) fullShare ((dat1 V c).after 0 t) from rfl, after1_0]
  rw [show (dat1 V c).leavesExact 1 t = owns (c : Thread nD τ) (ms1 t) fullShare ((dat1 V c).after 1 t) from rfl, after1_1]
  rw [show (dat1 V c).leavesExact 2 t = owns (c : Thread nD τ) (ms2 t) fullShare ((dat1 V c).after 2 t) from rfl, after1_2]
  rw [show (dat1 V c).leavesExact 3 t = owns (c : Thread nD τ) (ms3 t) fullShare ((dat1 V c).after 3 t) from rfl, after1_3]
  rw [show (dat1 V c).leavesExact 4 t = owns (c : Thread nD τ) (ms4 t) fullShare ((dat1 V c).after 4 t) from rfl, after1_4]
  rw [show (dat1 V c).leavesExact 5 t = owns (c : Thread nD τ) (ms5 t) fullShare ((dat1 V c).after 5 t) from rfl, after1_5]
  rw [show (dat1 V c).leavesExact 6 t = owns (c : Thread nD τ) (ms6 t) fullShare ((dat1 V c).after 6 t) from rfl, after1_6]
  by_cases h0 : t.val % 8 = 0
  · have hcF := (hcondF t).mpr h0
    have hcL := notL_of_first t h0
    rw [Dat.leavesExact_idle (dat1 V c) 7 t (idleAt7 t hcL) (noFlush7 t hcL)]
    rw [carried1_F V c t h0]
    unfold atF leftF; (try dsimp only)
    by_cases hz : t.val = 0
    · rw [PhiS1_castSucc V c t, PhiS1_zero V c _ _ hz]
      unfold inv1
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := PhiA1_open' c $$ HΦ
      icases HΦ' with ⟨Ro, HS0, HS1, HS2, Hg⟩
      iapply ((runFirst c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverF0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF2 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

    · rw [PhiS1_castSucc V c t, PhiS1_pos V c _ _ hz]
      unfold inv1
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      icases HΦ with ⟨Ro, HS0, HS1, HS2, Hg⟩
      iapply ((runFirst c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, H5, H6, H7, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverF0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF2 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

  · have hz : t.val ≠ 0 := fun e => h0 (by rw [e])
    have hcF := notF_of t h0
    rw [PhiS1_castSucc V c t, PhiS1_pos V c _ _ hz]
    by_cases h1 : t.val % 8 = 7
    · have hcL := (hcondL t).mpr h1
      rw [show (dat1 V c).leavesExact 7 t = owns (c : Thread nD τ) (ms7 t) fullShare ((dat1 V c).after 7 t) from by
        unfold Dat.leavesExact; rw [liveAt7 t hcL], after1_7]
      rw [carried1_L V c t h0 h1]
      unfold atL leftL inv1; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      icases HΦ with ⟨Ro, HS0, HS1, HS2, Hg⟩
      iapply ((runLast c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, ⟨%e7, H7⟩, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverL0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverL1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverL2 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverL7 c _ _ _ _ _ _ _ _ _ _ _ _ _ _ _ _ _ _ _ _ _ _ _ _ _ _ _ _ _ _ _ _ _ _ _)

    · have hcL := notL_of t h1
      rw [Dat.leavesExact_idle (dat1 V c) 7 t (idleAt7 t hcL) (noFlush7 t hcL)]
      rw [carried1_M V c t h0 h1]
      unfold atM leftM inv1; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      icases HΦ with ⟨Ro, HS0, HS1, HS2, Hg⟩
      iapply ((runMiddle c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverM0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverM1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverM2 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the launch's back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  unfold inv1
  iintro ⟨Ro, HS0, HS1, HS2, Hg⟩
  iapply (PhiA1_close' c)
  isplitl [Ro]; · iexact Ro
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.Kernel.Hand

end
-- ==== Proof.K.MainRun.lean ====
/-
  The whole program as four items — the host lines that stack the weights and the bias, the projection call,
  the host lines that cut the projection into keys, queries and values, the attention call — run from the
  launch memory: what every unscoped buffer holds at each boundary (a fold from the launch memory: a host
  stretch applies its operations, a call leaves its arrays at what its write-backs fold to and every other
  buffer alone), each call as a segment entered from one boundary's contents and left at the next, and the run:
  every weakly fair execution terminates with every unscoped buffer at the last boundary's contents. The
  argument arrays are written by no item, so they end as launched.
-/
import proofs.«150398_j60060822667746_2_alg».proof.Proof.K.Bounds
import proofs.«150398_j60060822667746_2_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last boundary -/

/-- At the attention call's exit. -/
def atEnd (c : Dev nD) : Valuation τ sig (Elt F) :=
  Pipeline.withArrays spec1 c (atAttn m ρ c) fun w => (dat1 (Vattn m ρ) c).arrAt w cfg1.N
theorem atEnd_arr (c : Dev nD) (w : Fin cfg1.W) :
    atEnd m ρ c (Proc.devRef .tc (Pipeline.arrRef spec1 w)) = (dat1 (Vattn m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atAttn m ρ c (Proc.devRef .tc b) := by
  unfold atEnd; exact Pipeline.withArrays_of_ne spec1 c _ _ b hb
abbrev Vend : (c : Dev nD) → (b : Ref sig .tc) → Buf (Elt F) ((c : Thread nD τ).loc b) := fun c b => atEnd m ρ c b
theorem attn_leaves (c : Dev nD) (w : Fin cfg1.W) : (dat1 (Vattn m ρ) c).arrAt w cfg1.N = Vend m ρ c (Pipeline.arrRef spec1 w) :=
  (atEnd_arr m ρ c w).symm
theorem attn_keeps (c : Dev nD) : ∀ b, b ∉ Finset.univ.image (Pipeline.arrRef spec1) → Vend m ρ c b = Vattn m ρ c b :=
  fun b hb => atEnd_of_ne m ρ c b fun w e => hb (Finset.mem_image.mpr ⟨w, Finset.mem_univ _, e⟩)

/-! ## The arguments end as launched -/

theorem atEnd_main_arg0 (c : Dev nD) : atEnd m ρ c (Proc.devRef .tc main_arg0) = m ((c : Thread nD τ).loc main_arg0) :=
  calc atEnd m ρ c (Proc.devRef .tc main_arg0)
    _ = atAttn m ρ c (Proc.devRef .tc main_arg0) := (atEnd_arr m ρ c 6).trans (((dat1 (Vattn m ρ) c).arrAt_in 6 rfl _).trans (A_eq1 (Vattn m ρ) c 6))
    _ = afterProj m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg0) := (afterProj_arr m ρ c 0).trans (((dat0 (Vproj m ρ) c).arrAt_in 0 rfl _).trans (A_eq0 (Vproj m ρ) c 0))
    _ = atLaunch m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem atEnd_main_arg1 (c : Dev nD) : atEnd m ρ c (Proc.devRef .tc main_arg1) = m ((c : Thread nD τ).loc main_arg1) :=
  calc atEnd m ρ c (Proc.devRef .tc main_arg1)
    _ = atAttn m ρ c (Proc.devRef .tc main_arg1) := (atEnd_arr m ρ c 0).trans (((dat1 (Vattn m ρ) c).arrAt_in 0 rfl _).trans (A_eq1 (Vattn m ρ) c 0))
    _ = afterProj m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg1) := afterProj_of_ne m ρ c main_arg1 (by decide)
    _ = atLaunch m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem atEnd_main_arg2 (c : Dev nD) : atEnd m ρ c (Proc.devRef .tc main_arg2) = m ((c : Thread nD τ).loc main_arg2) :=
  calc atEnd m ρ c (Proc.devRef .tc main_arg2)
    _ = atAttn m ρ c (Proc.devRef .tc main_arg2) := (atEnd_arr m ρ c 4).trans (((dat1 (Vattn m ρ) c).arrAt_in 4 rfl _).trans (A_eq1 (Vattn m ρ) c 4))
    _ = afterProj m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg2) := afterProj_of_ne m ρ c main_arg2 (by decide)
    _ = atLaunch m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem atEnd_main_arg3 (c : Dev nD) : atEnd m ρ c (Proc.devRef .tc main_arg3) = m ((c : Thread nD τ).loc main_arg3) :=
  calc atEnd m ρ c (Proc.devRef .tc main_arg3)
    _ = atAttn m ρ c (Proc.devRef .tc main_arg3) := atEnd_of_ne m ρ c main_arg3 (by decide)
    _ = afterProj m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg3) := afterProj_of_ne m ρ c main_arg3 (by decide)
    _ = atLaunch m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem atEnd_main_arg4 (c : Dev nD) : atEnd m ρ c (Proc.devRef .tc main_arg4) = m ((c : Thread nD τ).loc main_arg4) :=
  calc atEnd m ρ c (Proc.devRef .tc main_arg4)
    _ = atAttn m ρ c (Proc.devRef .tc main_arg4) := atEnd_of_ne m ρ c main_arg4 (by decide)
    _ = afterProj m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg4) := afterProj_of_ne m ρ c main_arg4 (by decide)
    _ = atLaunch m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem atEnd_main_arg5 (c : Dev nD) : atEnd m ρ c (Proc.devRef .tc main_arg5) = m ((c : Thread nD τ).loc main_arg5) :=
  calc atEnd m ρ c (Proc.devRef .tc main_arg5)
    _ = atAttn m ρ c (Proc.devRef .tc main_arg5) := atEnd_of_ne m ρ c main_arg5 (by decide)
    _ = afterProj m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg5) := afterProj_of_ne m ρ c main_arg5 (by decide)
    _ = atLaunch m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem atEnd_main_arg6 (c : Dev nD) : atEnd m ρ c (Proc.devRef .tc main_arg6) = m ((c : Thread nD τ).loc main_arg6) :=
  calc atEnd m ρ c (Proc.devRef .tc main_arg6)
    _ = atAttn m ρ c (Proc.devRef .tc main_arg6) := atEnd_of_ne m ρ c main_arg6 (by decide)
    _ = afterProj m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg6) := afterProj_of_ne m ρ c main_arg6 (by decide)
    _ = atLaunch m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem atEnd_main_arg7 (c : Dev nD) : atEnd m ρ c (Proc.devRef .tc main_arg7) = m ((c : Thread nD τ).loc main_arg7) :=
  calc atEnd m ρ c (Proc.devRef .tc main_arg7)
    _ = atAttn m ρ c (Proc.devRef .tc main_arg7) := atEnd_of_ne m ρ c main_arg7 (by decide)
    _ = afterProj m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg7) := afterProj_of_ne m ρ c main_arg7 (by decide)
    _ = atLaunch m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem atEnd_main_arg8 (c : Dev nD) : atEnd m ρ c (Proc.devRef .tc main_arg8) = m ((c : Thread nD τ).loc main_arg8) :=
  calc atEnd m ρ c (Proc.devRef .tc main_arg8)
    _ = atAttn m ρ c (Proc.devRef .tc main_arg8) := atEnd_of_ne m ρ c main_arg8 (by decide)
    _ = afterProj m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg8) := afterProj_of_ne m ρ c main_arg8 (by decide)
    _ = atLaunch m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem atEnd_main_arg9 (c : Dev nD) : atEnd m ρ c (Proc.devRef .tc main_arg9) = m ((c : Thread nD τ).loc main_arg9) :=
  calc atEnd m ρ c (Proc.devRef .tc main_arg9)
    _ = atAttn m ρ c (Proc.devRef .tc main_arg9) := atEnd_of_ne m ρ c main_arg9 (by decide)
    _ = afterProj m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg9) := afterProj_of_ne m ρ c main_arg9 (by decide)
    _ = atLaunch m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Vproj m ρ) c
  | ⟨1, _⟩ => fun c => dat1 (Vattn m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_alloc_none : (hostOps0 : List (HloOp τ sig (Elt F))).Forall fun op => op.fresh = ∅ := by
  simp only [List.Forall]; repeat' constructor
theorem hostOps1_alloc_none : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (atEnd m ρ c) ∗ ∃ r, prngReg c r)

/-! ## The calls as segments -/

set_option backward.isDefEq.respectTransparency.types false in
/-- The projection call: entered from every unscoped buffer at `atProj`, left at `afterProj`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vproj m ρ) c).loose
  hwaits := Pipeline.hwaits_of_owed_zero _ _ _ _ L lv 0 fun _ _ => rfl
  pre c := iprop(StableHlo.held (c : Thread nD τ) (Pipeline.ucRefs τ sig) (atProj m ρ c) ∗ R c)
  post c := iprop(StableHlo.held (c : Thread nD τ) (Pipeline.ucRefs τ sig) (afterProj m ρ c) ∗ R c)
  X c := iprop(∃ r, prngReg c r)
  Y c := iprop(∃ r, prngReg c r)
  Z c := Pipeline.unscopedRest (Ix := Unit) (Name := ℕ) (U := UR sig nD τ) (Lvl := ℕ) spec0 c (Vproj m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vproj m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vproj m ρ c) (VafterProj m ρ c) ((pdats m ρ 0 c).arrAt · cfg0.N) (proj_leaves m ρ c) (proj_keeps m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at `atAttn`, left at `atEnd`. Its invariant hands the
    body the three scratch buffers (at anything before the first point, then at what the point before left) and
    gives the scoped rest back at the end. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vattn m ρ) c).loose
  hwaits := Pipeline.hwaits_of_owed_zero _ _ _ _ L lv 1 fun _ _ => rfl
  pre c := iprop(StableHlo.held (c : Thread nD τ) (Pipeline.ucRefs τ sig) (atAttn m ρ c) ∗ R c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vattn m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vattn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (Vattn m ρ) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (Vattn m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vattn m ρ c) (Vend m ρ c) ((pdats m ρ 1 c).arrAt · cfg1.N) (attn_leaves m ρ c) (attn_keeps m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev items : List (Pipeline.Seg (pcfgs (F := F)) adm (pdats m ρ) () defs₀ 𝒱₀ L lv) :=
  [ .host (hseg hostOps0 hostOps0_sub hostOps0_alloc_none (atLaunch m ρ)),
    .region (projSeg m ρ),
    .host (hseg hostOps1 hostOps1_sub hostOps1_alloc_none (afterProj m ρ)),
    .region (attnSeg m ρ) ]
theorem main_is_items (c : Dev nD) : main (F := F) c = Pipeline.Seg.run (items m ρ) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tlast m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (atEnd_main_arg0 m ρ c),
    (h c _ (mem_uc main_arg1 (by decide))).trans (atEnd_main_arg1 m ρ c),
    (h c _ (mem_uc main_arg2 (by decide))).trans (atEnd_main_arg2 m ρ c),
    (h c _ (mem_uc main_arg3 (by decide))).trans (atEnd_main_arg3 m ρ c),
    (h c _ (mem_uc main_arg4 (by decide))).trans (atEnd_main_arg4 m ρ c),
    (h c _ (mem_uc main_arg5 (by decide))).trans (atEnd_main_arg5 m ρ c),
    (h c _ (mem_uc main_arg6 (by decide))).trans (atEnd_main_arg6 m ρ c),
    (h c _ (mem_uc main_arg7 (by decide))).trans (atEnd_main_arg7 m ρ c),
    (h c _ (mem_uc main_arg8 (by decide))).trans (atEnd_main_arg8 m ρ c),
    (h c _ (mem_uc main_arg9 (by decide))).trans (atEnd_main_arg9 m ρ c)⟩) (run_all m ρ)

end Cert.Kernel.Hand

end
-- ==== Proof.KI.Region0.lean ====
/-
  The projection call (pipeline 0): one grid point multiplies a band of 256 rows of the activations by a
  band of 1024 columns of the stacked weights and adds the matching band of the stacked bias. Stated here, for
  any float instance and at a PARAMETER `V` (what the TensorCore's buffers hold when the call is entered):
  each window's block at a point, what one run of the body leaves in the output block as a function of the
  three input blocks, the body's Hoare triple, and the pipeline's proof data with its body obligation.
-/
import proofs.«150398_j60060822667746_2_alg».proof.Proof.Gen.KernelIdeal.Launch
import proofs.«150398_j60060822667746_2_alg».proof.Proof.Gen.KernelIdeal.Skeleton
import proofs.«150398_j60060822667746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it
    is not fetched its block index has not moved since the last fetch. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body reads and writes whole blocks. -/
abbrev wholeRows : Rect S256x1024 := Rect.unit (s := S256x1024) ![0, 0] S256x1024.size inb_S256x1024_S256x1024_0_0
abbrev wholeWeights : Rect S1024x1024 := Rect.unit (s := S1024x1024) ![0, 0] S1024x1024.size inb_S1024x1024_S1024x1024_0_0
abbrev wholeBias : Rect S1x1024 := Rect.unit (s := S1x1024) ![0, 0] S1x1024.size inb_S1x1024_S1x1024_0_0

/-- The output block after the body, from the three input blocks: one store of the whole block. -/
def projected (a : Vec F S256x1024 .f32) (w : Vec F S1024x1024 .f32) (b : Vec F S1x1024 .f32) : Vec F S256x1024 .bf16 :=
  View.canon [⟨wholeRows, k0_pay1 (View.ld a wholeRows) (View.ld w wholeWeights) (View.ld b wholeBias)⟩]

theorem projected_cover (p0 : Vec F S256x1024 .bf16) (y : S256x1024.Idx) :
    ∃ pc ∈ ([⟨wholeRows, p0⟩] : List (View.Piece (Elt F) S256x1024 .bf16)), y ∈ pc.1.set :=
  View.cover_of_tiled [⟨wholeRows, p0⟩] S256x1024.size (by rfl) y

set_option maxHeartbeats 1000000 in
/-- The body on whole staging buffers, the inputs' at contents `a`, `w`, `b` and the output's at anything, runs to
    the continuation with the inputs' as they were and the output's at `projected a w b`. -/
theorem body_triple0 (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x1024 .bf16) (harg5 : arg5.IsWhole)
    (a : Vec F S256x1024 .f32) (w : Vec F S1024x1024 .f32) (b : Vec F S1x1024 .f32) (K : PUnit → sProp 𝕄) :
    iprop(owns (c : Thread nD τ) arg2 fullShare a ∗ owns (c : Thread nD τ) arg3 fullShare w ∗ owns (c : Thread nD τ) arg4 fullShare b
        ∗ (∃ d, owns (c : Thread nD τ) arg5 fullShare d)
        ∗ (iprop(owns (c : Thread nD τ) arg2 fullShare a ∗ owns (c : Thread nD τ) arg3 fullShare w ∗ owns (c : Thread nD τ) arg4 fullShare b
            ∗ owns (c : Thread nD τ) arg5 fullShare (projected a w b)) -∗ K ⟨⟩))
      ⊢ wp frame (wpE (defs₀ (F := F)) Variants.none c none) E (cc0_qkv_kernel i arg2 harg2 arg3 harg3 arg4 harg4 arg5 harg5) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projected_cover _)

/-- The proof data of pipeline 0 on core `c`: the arrays as the call finds them; after the body at point `t` each
    input's buffer at its block and the output's at `projected` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => projected (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = projected (blk0 V c 0 t) (blk0 V c 1 t) (blk0 V c 2 t) := by dsimp only [dat0]

theorem before0_0 (c : Dev nD) (t : Fin cfg0.N) (d) : (dat0 V c).before 0 t d = blk0 V c 0 t :=
  held0_0 V (dat0 V c) (A_eq0 V c 0) (after0_0 V c) t d
theorem before0_1 (c : Dev nD) (t : Fin cfg0.N) (d) : (dat0 V c).before 1 t d = blk0 V c 1 t :=
  held0_1 V (dat0 V c) (A_eq0 V c 1) (after0_1 V c) t d
theorem before0_2 (c : Dev nD) (t : Fin cfg0.N) (d) : (dat0 V c).before 2 t d = blk0 V c 2 t :=
  held0_2 V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body_triple0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Bounds.lean ====
/-
  What every unscoped buffer holds when the projection call is entered, when it is left, and when the attention
  call is entered: a fold from the launch memory (a host stretch applies its operations; the call leaves its
  arrays at what its write-backs fold to and every other buffer alone).
-/
import proofs.«150398_j60060822667746_2_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev atLaunch : Dev nD → Valuation τ sig (Elt F) := fun c b => (s₀ m ρ).mem ((c : Dev nD), b)
/-- After the first host stretch (the projection call's entry). -/
abbrev atProj : Dev nD → Valuation τ sig (Elt F) := fun c => StableHlo.after hostOps0 (atLaunch m ρ c)
abbrev Vproj : (c : Dev nD) → (b : Ref sig .tc) → Buf (Elt F) ((c : Thread nD τ).loc b) := fun c b => atProj m ρ c b
/-- At the projection call's exit: its arrays at what the pipeline leaves, every other buffer as entered. -/
def afterProj (c : Dev nD) : Valuation τ sig (Elt F) :=
  Pipeline.withArrays spec0 c (atProj m ρ c) fun w => (dat0 (Vproj m ρ) c).arrAt w cfg0.N
theorem afterProj_arr (c : Dev nD) (w : Fin cfg0.W) :
    afterProj m ρ c (Proc.devRef .tc (Pipeline.arrRef spec0 w)) = (dat0 (Vproj m ρ) c).arrAt w cfg0.N := by
  unfold afterProj; exact Pipeline.withArrays_arr spec0 launch0.win.arr_inj c _ _ w
theorem afterProj_of_ne (c : Dev nD) (b : Ref sig .tc) (hb : ∀ w, Pipeline.arrRef spec0 w ≠ b) :
    afterProj m ρ c (Proc.devRef .tc b) = atProj m ρ c (Proc.devRef .tc b) := by
  unfold afterProj; exact Pipeline.withArrays_of_ne spec0 c _ _ b hb
abbrev VafterProj : (c : Dev nD) → (b : Ref sig .tc) → Buf (Elt F) ((c : Thread nD τ).loc b) := fun c b => afterProj m ρ c b
theorem proj_leaves (c : Dev nD) (w : Fin cfg0.W) : (dat0 (Vproj m ρ) c).arrAt w cfg0.N = VafterProj m ρ c (Pipeline.arrRef spec0 w) :=
  (afterProj_arr m ρ c w).symm
theorem proj_keeps (c : Dev nD) : ∀ b, b ∉ Finset.univ.image (Pipeline.arrRef spec0) → VafterProj m ρ c b = Vproj m ρ c b :=
  fun b hb => afterProj_of_ne m ρ c b fun w e => hb (Finset.mem_image.mpr ⟨w, Finset.mem_univ _, e⟩)

/-- After the second host stretch (the attention call's entry). -/
abbrev atAttn : Dev nD → Valuation τ sig (Elt F) := fun c => StableHlo.after hostOps1 (afterProj m ρ c)
abbrev Vattn : (c : Dev nD) → (b : Ref sig .tc) → Buf (Elt F) ((c : Thread nD τ).loc b) := fun c b => atAttn m ρ c b

end Cert.KernelIdeal.Hand

end
-- ==== Proof.KI.AttnShared.lean ====
import proofs.«150398_j60060822667746_2_alg».proof.Proof.Gen.KernelIdeal.Launch
import proofs.«150398_j60060822667746_2_alg».proof.Proof.Gen.KernelIdeal.Skeleton
import proofs.«150398_j60060822667746_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1): what its three control cases share

The grid is 8 × 8; point `t` is row `t / 8` (a block of 128 proposals on the row side of the scores), column `t % 8` (a block of 128 proposals on the column side).
Along a row the body carries three accumulators in scratch memory: the running maximum of the scores, the
running sum of the weights and the running weighted sum of the values. At a row's first column they are
reset, at its last column the row's output block is formed from them; elsewhere the output's staging buffer
is left as found. -/

/-! ## The two conditions on the column, decided over the grid -/

/-- "this is the row's first column": the accumulators are reset. -/
abbrev condF (i : grid1.Coords) : Prop :=
  (Scalar.cmpi .ne (Scalar.extui (Scalar.cmpi .eq (BitVec.ofNat 32 (i 1).val) 0#32)) 0#32) = 1#1
theorem hcondF : ∀ t : Fin cfg1.N, condF (grid1.coords t) ↔ t.val % 8 = 0 :=
  (by decide +kernel : ∀ t : Fin grid1.N, condF (grid1.coords t) ↔ t.val % 8 = 0)

/-- "this is the row's last column": the output block is formed. -/
abbrev condL (i : grid1.Coords) : Prop := k1_cond2 i = 1#1
theorem hcondL : ∀ t : Fin cfg1.N, condL (grid1.coords t) ↔ t.val % 8 = 7 :=
  (by decide +kernel : ∀ t : Fin grid1.N, condL (grid1.coords t) ↔ t.val % 8 = 7)

/-! ## Where the output window is idle -/

/-- Off a row's last column the output window is idle, -/
theorem idleAt7 : ∀ t : Fin cfg1.N, ¬condL (grid1.coords t) → cfg1.idle 7 (grid1.coords t) = true := by decide +kernel
/-- and its block is not written back there; -/
theorem noFlush7 : ∀ t : Fin cfg1.N, ¬condL (grid1.coords t) → (cfg1.win 7).flush t = false := by decide +kernel
/-- on the last column it is live. -/
theorem liveAt7 : ∀ t : Fin cfg1.N, condL (grid1.coords t) → cfg1.idle 7 (grid1.coords t) = false := by decide +kernel

/-! ## The memrefs the body is called with -/

abbrev ms0 (t : Fin cfg1.N) : Memref sig .tc .vmem S128x128x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S16x128x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x128x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S16x128x64 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S16x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S16x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S128x1024 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S128x1024 .f32 := win1_7.stage (cfg1.slots t 7)
abbrev hs7 (t : Fin cfg1.N) : (ms7 t).IsWhole := hstage1_7 ((cfg1.slots t 7).cast nbuf1_7)

/-- The three accumulators: running maximum, running sum, running weighted sum. -/
abbrev scM0 : Memref sig .tc .vmem S16x128x1 .f32 := Memref.whole cc1_scratch0
abbrev scM1 : Memref sig .tc .vmem S16x128x1 .f32 := Memref.whole cc1_scratch1
abbrev scM2 : Memref sig .tc .vmem S16x128x64 .f32 := Memref.whole cc1_scratch2
abbrev VS0 : View sig .tc .vmem S16x128x1 .f32 := scM0.view
abbrev VS1 : View sig .tc .vmem S16x128x1 .f32 := scM1.view
abbrev VS2 : View sig .tc .vmem S16x128x64 .f32 := scM2.view
/-- One staging buffer of the output window, through which its contents are stated. -/
abbrev VO7 : View sig .tc .vmem S128x1024 .f32 := (Memref.whole cc1_stg7_0 : Memref sig .tc .vmem S128x1024 .f32).view

/-! ## The region's invariant, split -/

/-- The scoped buffers the attention kernel never touches (the first kernel's staging buffers), each at some contents. -/
def oth1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) scM0 fullShare d) ∗ (∃ d, owns (c : Thread nD τ) scM1 fullShare d) ∗ (∃ d, owns (c : Thread nD τ) scM2 fullShare d))
        ∗ (∃ r, prngReg c r)) := by
  unfold Pipeline.ΦA; rw [scopedRest1_eq]; simp only [scM0, scM1, scM2, owns_whole]; try rfl

/-- The invariant with the accumulators at contents `P0`, `P1`, `P2` (each a proposition about one buffer). -/
def inv1 (c : Dev nD) (P0 P1 P2 : sProp 𝕄) : sProp 𝕄 :=
  iprop(oth1 (F := F) c ∗ P0 ∗ P1 ∗ P2 ∗ (∃ r, prngReg c r))

/-- What the launch hands the region is the invariant with every accumulator at anything, -/
theorem PhiA1_open (c : Dev nD) :
    (Pipeline.ΦA spec1 c : sProp 𝕄) ⊢ inv1 c iprop(∃ d, owns (c : Thread nD τ) scM0 fullShare d)
      iprop(∃ d, owns (c : Thread nD τ) scM1 fullShare d) iprop(∃ d, owns (c : Thread nD τ) scM2 fullShare d) := by
  rw [PhiA1_eq]; unfold inv1 oth1
  iintro ⟨⟨R0, R1, R2, R3, R4, R5, R6, R7, HS0, HS1, HS2⟩, Hg⟩
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [HS0]; · iexact HS0
  isplitl [HS1]; · iexact HS1
  isplitl [HS2]; · iexact HS2
  iexact Hg

/-- and conversely. -/
theorem PhiA1_close (c : Dev nD) :
    inv1 c iprop(∃ d, owns (c : Thread nD τ) scM0 fullShare d)
      iprop(∃ d, owns (c : Thread nD τ) scM1 fullShare d) iprop(∃ d, owns (c : Thread nD τ) scM2 fullShare d)
      ⊢ (Pipeline.ΦA spec1 c : sProp 𝕄) := by
  rw [PhiA1_eq]; unfold inv1 oth1
  iintro ⟨⟨R0, R1, R2, R3, R4, R5, R6, R7⟩, HS0, HS1, HS2, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HS0]; · iexact HS0
    isplitl [HS1]; · iexact HS1
    iexact HS2
  iexact Hg

/-! ## The windows' blocks, read off the arrays as the region finds them -/

section Blocks

variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where it
is not fetched the block index has not moved since the point before, and the body leaves the buffer as found. -/

theorem before_in0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before_in1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before_in2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before_in3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before_in4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before_in5 {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before_in6 {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.AttnRunFirst.lean ====
import proofs.«150398_j60060822667746_2_alg».proof.Proof.KI.AttnShared

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- THE BODY AT A ROW'S FIRST COLUMN. On whole memrefs — the seven inputs at their blocks `x·`, the output's staging
    buffer at contents `xi7` which the body does not store into, the three accumulators at anything (each is reset
    before it is read) — the body runs to the continuation holding the inputs and the output's buffer as they
    were and each accumulator with the found pieces written: first the reset, then the column's update. -/
noncomputable def runFirst (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole) (hc0 : condF i) (hc1 : ¬condL i)
    (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32) :
    Σ' (LS0 : List (View.Piece (Elt F) S16x128x1 .f32)) (LS1 : List (View.Piece (Elt F) S16x128x1 .f32)), { LS2 : List (View.Piece (Elt F) S16x128x64 .f32) //
      ∀ (xi7 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Hand

end
-- ==== Proof.KI.AttnRunMiddle.lean ====
import proofs.«150398_j60060822667746_2_alg».proof.Proof.KI.AttnShared

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- THE BODY AT AN INNER COLUMN. As at the first column, but no reset: the accumulators enter at what the column
    before left (`xs·`) and leave with the column's update written. -/
noncomputable def runMiddle (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole) (hc0 : ¬condF i) (hc1 : ¬condL i)
    (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32) (xs0 : Vec F S16x128x1 .f32) (xs1 : Vec F S16x128x1 .f32) (xs2 : Vec F S16x128x64 .f32) :
    Σ' (LS0 : List (View.Piece (Elt F) S16x128x1 .f32)) (LS1 : List (View.Piece (Elt F) S16x128x1 .f32)), { LS2 : List (View.Piece (Elt F) S16x128x64 .f32) //
      ∀ (xi7 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Hand

end
-- ==== Proof.KI.AttnRunLast.lean ====
import proofs.«150398_j60060822667746_2_alg».proof.Proof.KI.AttnShared

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- THE BODY AT A ROW'S LAST COLUMN. The accumulators enter at what the column before left (`xs·`); after the
    column's update the output block — the weighted sum divided by the sum of the weights, relations laid side by
    side, plus the residual input — is stored whole into the output's staging buffer, which enters at anything. -/
noncomputable def runLast (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole) (hc0 : ¬condF i) (hc1 : condL i)
    (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32) (xs0 : Vec F S16x128x1 .f32) (xs1 : Vec F S16x128x1 .f32) (xs2 : Vec F S16x128x64 .f32) :
    Σ' (L7 : List (View.Piece (Elt F) S128x1024 .f32)) (LS0 : List (View.Piece (Elt F) S16x128x1 .f32)) (LS1 : List (View.Piece (Elt F) S16x128x1 .f32)), { LS2 : List (View.Piece (Elt F) S16x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    iexists _; iexact HS2

end Cert.KernelIdeal.Hand

end
-- ==== Proof.KI.Region1.lean ====
import proofs.«150398_j60060822667746_2_alg».proof.Proof.KI.AttnRunFirst
import proofs.«150398_j60060822667746_2_alg».proof.Proof.KI.AttnRunMiddle
import proofs.«150398_j60060822667746_2_alg».proof.Proof.KI.AttnRunLast

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1): its proof data and its body obligation

What the three accumulators and the output's staging buffer hold after each grid point is defined by
recursion along the grid from the pieces the three runs found; the region's invariant carries the
accumulators from one point to the next; the body obligation is the run of the point's case. -/

/-! ## Which case a point is in -/

theorem notL_of_first (t : Fin cfg1.N) (h0 : t.val % 8 = 0) : ¬condL (grid1.coords t) :=
  fun h => by have := (hcondL t).mp h; omega
theorem notF_of (t : Fin cfg1.N) (h0 : ¬t.val % 8 = 0) : ¬condF (grid1.coords t) := fun h => h0 ((hcondF t).mp h)
theorem notL_of (t : Fin cfg1.N) (h1 : ¬t.val % 8 = 7) : ¬condL (grid1.coords t) := fun h => h1 ((hcondL t).mp h)

/-- The launch's invariant opened, the conjunction written out. -/
theorem PhiA1_open' (c : Dev nD) :
    (Pipeline.ΦA spec1 c : sProp 𝕄) ⊢ iprop(oth1 (F := F) c ∗ (∃ d, owns (c : Thread nD τ) scM0 fullShare d)
      ∗ (∃ d, owns (c : Thread nD τ) scM1 fullShare d) ∗ (∃ d, owns (c : Thread nD τ) scM2 fullShare d) ∗ (∃ r, prngReg c r)) :=
  PhiA1_open c

/-- and closed again. -/
theorem PhiA1_close' (c : Dev nD) :
    iprop(oth1 (F := F) c ∗ (∃ d, owns (c : Thread nD τ) scM0 fullShare d)
      ∗ (∃ d, owns (c : Thread nD τ) scM1 fullShare d) ∗ (∃ d, owns (c : Thread nD τ) scM2 fullShare d) ∗ (∃ r, prngReg c r))
      ⊢ (Pipeline.ΦA spec1 c : sProp 𝕄) :=
  PhiA1_close c

/-! ## The found pieces cover their buffers, and what they leave -/

section Found

variable (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole)
variable (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32)

/-! At a row's first column: each accumulator is covered (by its reset and again by its update). -/
theorem coverF0 (hc0 : condF i) (hc1 : ¬condL i) (y : S16x128x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1 S16x128x1.size (by sl_kernel_rfl) y

theorem coverF1 (hc0 : condF i) (hc1 : ¬condL i) (y : S16x128x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1 S16x128x1.size (by sl_kernel_rfl) y

theorem coverF2 (hc0 : condF i) (hc1 : ¬condL i) (y : S16x128x64.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S16x128x64.size (by sl_kernel_rfl) y

/-- What a row's first column leaves: the output's buffer is not stored into (a placeholder nothing consults);
    each accumulator at its pieces read back. -/
def leftF (hc0 : condF i) (hc1 : ¬condL i) : Vec F S128x1024 .f32 × Vec F S16x128x1 .f32 × Vec F S16x128x1 .f32 × Vec F S16x128x64 .f32 :=
  (View.canon ([] : List (View.Piece (Elt F) S128x1024 .f32)),
   VS0.read (Elt F) (VS0.writes (Elt F) VS0.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).1),
   VS1.read (Elt F) (VS1.writes (Elt F) VS1.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.1),
   VS2.read (Elt F) (VS2.writes (Elt F) VS2.junk (runFirst c i arg2 harg2 arg3 harg3 arg4 harg4 arg5 harg5 arg6 harg6 arg7 harg7 arg8 harg8 arg9 harg9 arg10 harg10 arg11 harg11 arg12 harg12 hc0 hc1 x0 x1 x2 x3 x4 x5 x6).2.2.1))

/-! At an inner column: each accumulator is covered by its update. -/
theorem coverM0 (hc0 : ¬condF i) (hc1 : ¬condL i) (xs0 : Vec F S16x128x1 .f32) (xs1 : Vec F S16x128x1 .f32) (xs2 : Vec F S16x128x64 .f32) (y : S16x128x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S16x128x1.size (by sl_kernel_rfl) y

theorem coverM1 (hc0 : ¬condF i) (hc1 : ¬condL i) (xs0 : Vec F S16x128x1 .f32) (xs1 : Vec F S16x128x1 .f32) (xs2 : Vec F S16x128x64 .f32) (y : S16x128x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S16x128x1.size (by sl_kernel_rfl) y

theorem coverM2 (hc0 : ¬condF i) (hc1 : ¬condL i) (xs0 : Vec F S16x128x1 .f32) (xs1 : Vec F S16x128x1 .f32) (xs2 : Vec F S16x128x64 .f32) (y : S16x128x64.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1 S16x128x64.size (by sl_kernel_rfl) y

/-- What an inner column leaves, from what the column before left in the accumulators. -/
def leftM (hc0 : ¬condF i) (hc1 : ¬condL i) (xs0 : Vec F S16x128x1 .f32) (xs1 : Vec F S16x128x1 .f32) (xs2 : Vec F S16x128x64 .f32) : Vec F S128x1024 .f32 × Vec F S16x128x1 .f32 × Vec F S16x128x1 .f32 × Vec F S16x128x64 .f32 :=
  (View.canon ([] : List (View.Piece (Elt F) S128x1024 .f32)),
   VS0.read (Elt F) (VS0.writes (Elt F) VS0.junk (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1),
   VS1.read (Elt F) (VS1.writes (Elt F) VS1.junk (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1),
   VS2.read (Elt F) (VS2.writes (Elt F) VS2.junk (runMiddle c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1))

/-! At a row's last column: the output's buffer and each accumulator are covered. -/
theorem coverL7 (hc0 : ¬condF i) (hc1 : condL i) (xs0 : Vec F S16x128x1 .f32) (xs1 : Vec F S16x128x1 .f32) (xs2 : Vec F S16x128x64 .f32) (y : S128x1024.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S128x1024.size (by sl_kernel_rfl) y

theorem coverL0 (hc0 : ¬condF i) (hc1 : condL i) (xs0 : Vec F S16x128x1 .f32) (xs1 : Vec F S16x128x1 .f32) (xs2 : Vec F S16x128x64 .f32) (y : S16x128x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S16x128x1.size (by sl_kernel_rfl) y

theorem coverL1 (hc0 : ¬condF i) (hc1 : condL i) (xs0 : Vec F S16x128x1 .f32) (xs1 : Vec F S16x128x1 .f32) (xs2 : Vec F S16x128x64 .f32) (y : S16x128x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1 S16x128x1.size (by sl_kernel_rfl) y

theorem coverL2 (hc0 : ¬condF i) (hc1 : condL i) (xs0 : Vec F S16x128x1 .f32) (xs1 : Vec F S16x128x1 .f32) (xs2 : Vec F S16x128x64 .f32) (y : S16x128x64.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.2.1 S16x128x64.size (by sl_kernel_rfl) y

/-- What a row's last column leaves: the row's output block, and the accumulators. -/
def leftL (hc0 : ¬condF i) (hc1 : condL i) (xs0 : Vec F S16x128x1 .f32) (xs1 : Vec F S16x128x1 .f32) (xs2 : Vec F S16x128x64 .f32) : Vec F S128x1024 .f32 × Vec F S16x128x1 .f32 × Vec F S16x128x1 .f32 × Vec F S16x128x64 .f32 :=
  (VO7.read (Elt F) (VO7.writes (Elt F) VO7.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1),
   VS0.read (Elt F) (VS0.writes (Elt F) VS0.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1),
   VS1.read (Elt F) (VS1.writes (Elt F) VS1.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1),
   VS2.read (Elt F) (VS2.writes (Elt F) VS2.junk (runLast c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.2.1))

end Found

section Region

variable (V : (c : Dev nD) → (b : Ref sig .tc) → Buf (Elt F) ((c : Thread nD τ).loc b))

/-! ## Point by point -/

/-- A first column `t`: the case run on the point's memrefs and input blocks. -/
def atF (c : Dev nD) (t : Fin cfg1.N) (h0 : t.val % 8 = 0) : Vec F S128x1024 .f32 × Vec F S16x128x1 .f32 × Vec F S16x128x1 .f32 × Vec F S16x128x64 .f32 :=
  leftF c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) ((hcondF t).mpr h0) (notL_of_first t h0)

/-- An inner column `t`, over what the point before left (`p`). -/
def atM (c : Dev nD) (t : Fin cfg1.N) (h0 : ¬t.val % 8 = 0) (h1 : ¬t.val % 8 = 7) (p : Vec F S128x1024 .f32 × Vec F S16x128x1 .f32 × Vec F S16x128x1 .f32 × Vec F S16x128x64 .f32) : Vec F S128x1024 .f32 × Vec F S16x128x1 .f32 × Vec F S16x128x1 .f32 × Vec F S16x128x64 .f32 :=
  leftM c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) (notL_of t h1) p.2.1 p.2.2.1 p.2.2.2

/-- A last column `t`, over what the point before left (`p`). -/
def atL (c : Dev nD) (t : Fin cfg1.N) (h0 : ¬t.val % 8 = 0) (h1 : t.val % 8 = 7) (p : Vec F S128x1024 .f32 × Vec F S16x128x1 .f32 × Vec F S16x128x1 .f32 × Vec F S16x128x64 .f32) : Vec F S128x1024 .f32 × Vec F S16x128x1 .f32 × Vec F S16x128x1 .f32 × Vec F S16x128x64 .f32 :=
  leftL c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) ((hcondL t).mpr h1) p.2.1 p.2.2.1 p.2.2.2

/-- THE RECURRENCE ALONG THE GRID. After the body at position `n`: the output window's staging buffer, the running
    maximum, the running sum, the running weighted sum. A first column starts afresh; every other column continues
    from the point before (the accumulators are not touched between two points). -/
def carried1 (c : Dev nD) : (n : ℕ) → n < cfg1.N → Vec F S128x1024 .f32 × Vec F S16x128x1 .f32 × Vec F S16x128x1 .f32 × Vec F S16x128x64 .f32
  | 0, hn => atF V c ⟨0, hn⟩ (Nat.zero_mod _)
  | n + 1, hn =>
    if h0 : (n + 1) % 8 = 0 then atF V c ⟨n + 1, hn⟩ h0
    else if h1 : (n + 1) % 8 = 7 then atL V c ⟨n + 1, hn⟩ h0 h1 (carried1 c n (Nat.lt_of_succ_lt hn))
    else atM V c ⟨n + 1, hn⟩ h0 h1 (carried1 c n (Nat.lt_of_succ_lt hn))

theorem carried1_F (c : Dev nD) (t : Fin cfg1.N) (h0 : t.val % 8 = 0) :
    carried1 V c t.val t.isLt = atF V c t h0 := by
  obtain ⟨n, hn⟩ := t
  cases n with
  | zero => exact rfl
  | succ n => exact (dif_pos h0).trans rfl

theorem carried1_M (c : Dev nD) (t : Fin cfg1.N) (h0 : ¬t.val % 8 = 0) (h1 : ¬t.val % 8 = 7) :
    carried1 V c t.val t.isLt = atM V c t h0 h1 (carried1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem carried1_L (c : Dev nD) (t : Fin cfg1.N) (h0 : ¬t.val % 8 = 0) (h1 : t.val % 8 = 7) :
    carried1 V c t.val t.isLt = atL V c t h0 h1 (carried1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point what the launch hands over (every accumulator at anything); before any other point the
    accumulators at what the point before left. -/
def PhiS1 (c : Dev nD) : (n : ℕ) → n ≤ cfg1.N → sProp 𝕄
  | 0, _ => Pipeline.ΦA spec1 c
  | n + 1, hn => inv1 c (owns (c : Thread nD τ) scM0 fullShare (carried1 V c n hn).2.1)
      (owns (c : Thread nD τ) scM1 fullShare (carried1 V c n hn).2.2.1) (owns (c : Thread nD τ) scM2 fullShare (carried1 V c n hn).2.2.2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = inv1 c (owns (c : Thread nD τ) scM0 fullShare (carried1 V c n hn).2.1)
      (owns (c : Thread nD τ) scM1 fullShare (carried1 V c n hn).2.2.1) (owns (c : Thread nD τ) scM2 fullShare (carried1 V c n hn).2.2.2) := rfl

theorem PhiS1_pos (c : Dev nD) (n : ℕ) (h : n ≤ cfg1.N) (hz : n ≠ 0) :
    PhiS1 V c n h = inv1 c (owns (c : Thread nD τ) scM0 fullShare (carried1 V c (n - 1) (by omega)).2.1)
      (owns (c : Thread nD τ) scM1 fullShare (carried1 V c (n - 1) (by omega)).2.2.1) (owns (c : Thread nD τ) scM2 fullShare (carried1 V c (n - 1) (by omega)).2.2.2) := by
  cases n with
  | zero => exact absurd rfl hz
  | succ n => rfl

/-! ## The proof data -/

/-- Pipeline 1's proof data on core `c`, at the contents `V` the region is entered with: each input's buffer keeps
    its block; the output's buffer after point `t` is the recurrence's first component (it matters at last columns
    only: elsewhere the window is idle); the invariant as above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (carried1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (carried1 V c t.val t.isLt).1 := by dsimp only [dat1]

theorem before1_0 (c : Dev nD) (t : Fin cfg1.N) (d) : (dat1 V c).before 0 t d = iblk1 V c 0 t :=
  before_in0 V (dat1 V c) (A_eq1 V c 0) (after1_0 V c) t d
theorem before1_1 (c : Dev nD) (t : Fin cfg1.N) (d) : (dat1 V c).before 1 t d = iblk1 V c 1 t :=
  before_in1 V (dat1 V c) (A_eq1 V c 1) (after1_1 V c) t d
theorem before1_2 (c : Dev nD) (t : Fin cfg1.N) (d) : (dat1 V c).before 2 t d = iblk1 V c 2 t :=
  before_in2 V (dat1 V c) (A_eq1 V c 2) (after1_2 V c) t d
theorem before1_3 (c : Dev nD) (t : Fin cfg1.N) (d) : (dat1 V c).before 3 t d = iblk1 V c 3 t :=
  before_in3 V (dat1 V c) (A_eq1 V c 3) (after1_3 V c) t d
theorem before1_4 (c : Dev nD) (t : Fin cfg1.N) (d) : (dat1 V c).before 4 t d = iblk1 V c 4 t :=
  before_in4 V (dat1 V c) (A_eq1 V c 4) (after1_4 V c) t d
theorem before1_5 (c : Dev nD) (t : Fin cfg1.N) (d) : (dat1 V c).before 5 t d = iblk1 V c 5 t :=
  before_in5 V (dat1 V c) (A_eq1 V c 5) (after1_5 V c) t d
theorem before1_6 (c : Dev nD) (t : Fin cfg1.N) (d) : (dat1 V c).before 6 t d = iblk1 V c 6 t :=
  before_in6 V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d))
    ∗ (∃ d, owns (c : Thread nD τ) (ms7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the column decides the case; the invariant hands the
    body the accumulators (at anything before the grid's first point, else at what the point before left — a first
    column resets them whatever they hold) and takes them back at this point's contents, each read back through its
    covering pieces; off a last column the output's buffer is handed back as found, on it the row's block is in it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms0 t) fullShare ((dat1 V c).after 0 t) from rfl, after1_0]
  rw [show (dat1 V c).leavesExact 1 t = owns (c : Thread nD τ) (ms1 t) fullShare ((dat1 V c).after 1 t) from rfl, after1_1]
  rw [show (dat1 V c).leavesExact 2 t = owns (c : Thread nD τ) (ms2 t) fullShare ((dat1 V c).after 2 t) from rfl, after1_2]
  rw [show (dat1 V c).leavesExact 3 t = owns (c : Thread nD τ) (ms3 t) fullShare ((dat1 V c).after 3 t) from rfl, after1_3]
  rw [show (dat1 V c).leavesExact 4 t = owns (c : Thread nD τ) (ms4 t) fullShare ((dat1 V c).after 4 t) from rfl, after1_4]
  rw [show (dat1 V c).leavesExact 5 t = owns (c : Thread nD τ) (ms5 t) fullShare ((dat1 V c).after 5 t) from rfl, after1_5]
  rw [show (dat1 V c).leavesExact 6 t = owns (c : Thread nD τ) (ms6 t) fullShare ((dat1 V c).after 6 t) from rfl, after1_6]
  by_cases h0 : t.val % 8 = 0
  · have hcF := (hcondF t).mpr h0
    have hcL := notL_of_first t h0
    rw [Dat.leavesExact_idle (dat1 V c) 7 t (idleAt7 t hcL) (noFlush7 t hcL)]
    rw [carried1_F V c t h0]
    unfold atF leftF; (try dsimp only)
    by_cases hz : t.val = 0
    · rw [PhiS1_castSucc V c t, PhiS1_zero V c _ _ hz]
      unfold inv1
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := PhiA1_open' c $$ HΦ
      icases HΦ' with ⟨Ro, HS0, HS1, HS2, Hg⟩
      iapply ((runFirst c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverF0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF2 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

    · rw [PhiS1_castSucc V c t, PhiS1_pos V c _ _ hz]
      unfold inv1
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      icases HΦ with ⟨Ro, HS0, HS1, HS2, Hg⟩
      iapply ((runFirst c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, H5, H6, H7, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverF0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF2 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

  · have hz : t.val ≠ 0 := fun e => h0 (by rw [e])
    have hcF := notF_of t h0
    rw [PhiS1_castSucc V c t, PhiS1_pos V c _ _ hz]
    by_cases h1 : t.val % 8 = 7
    · have hcL := (hcondL t).mpr h1
      rw [show (dat1 V c).leavesExact 7 t = owns (c : Thread nD τ) (ms7 t) fullShare ((dat1 V c).after 7 t) from by
        unfold Dat.leavesExact; rw [liveAt7 t hcL], after1_7]
      rw [carried1_L V c t h0 h1]
      unfold atL leftL inv1; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      icases HΦ with ⟨Ro, HS0, HS1, HS2, Hg⟩
      iapply ((runLast c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, ⟨%e7, H7⟩, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverL0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverL1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverL2 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverL7 c _ _ _ _ _ _ _ _ _ _ _ _ _ _ _ _ _ _ _ _ _ _ _ _ _ _ _ _ _ _ _ _ _ _ _)

    · have hcL := notL_of t h1
      rw [Dat.leavesExact_idle (dat1 V c) 7 t (idleAt7 t hcL) (noFlush7 t hcL)]
      rw [carried1_M V c t h0 h1]
      unfold atM leftM inv1; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      icases HΦ with ⟨Ro, HS0, HS1, HS2, Hg⟩
      iapply ((runMiddle c (grid1.coords t) _ _ _ _ _ _ _ _ _ _ _ _ _ _ _ _ _ _ _ _ _ _ hcF hcL (iblk1 V c 0 t) (iblk1 V c 1 t) (iblk1 V c 2 t) (iblk1 V c 3 t) (iblk1 V c 4 t) (iblk1 V c 5 t) (iblk1 V c 6 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ro HS0 HS1 HS2 Hg]
      · isplitl [Ro]; · iexact Ro
        isplitl [HS0]
        · unfold owns; iexists _; isplitr
          swap; · iexact HS0
          ipureintro; exact View.read_writes_of_cover _ _ _ _ _ (coverM0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverM1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverM2 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the launch's back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  unfold inv1
  iintro ⟨Ro, HS0, HS1, HS2, Hg⟩
  iapply (PhiA1_close' c)
  isplitl [Ro]; · iexact Ro
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Hand

end
-- ==== Proof.KI.MainRun.lean ====
/-
  The whole program as four items — the host lines that stack the weights and the bias, the projection call,
  the host lines that cut the projection into keys, queries and values, the attention call — run from the
  launch memory: what every unscoped buffer holds at each boundary (a fold from the launch memory: a host
  stretch applies its operations, a call leaves its arrays at what its write-backs fold to and every other
  buffer alone), each call as a segment entered from one boundary's contents and left at the next, and the run:
  every weakly fair execution terminates with every unscoped buffer at the last boundary's contents. The
  argument arrays are written by no item, so they end as launched.
-/
import proofs.«150398_j60060822667746_2_alg».proof.Proof.KI.Bounds
import proofs.«150398_j60060822667746_2_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last boundary -/

/-- At the attention call's exit. -/
def atEnd (c : Dev nD) : Valuation τ sig (Elt F) :=
  Pipeline.withArrays spec1 c (atAttn m ρ c) fun w => (dat1 (Vattn m ρ) c).arrAt w cfg1.N
theorem atEnd_arr (c : Dev nD) (w : Fin cfg1.W) :
    atEnd m ρ c (Proc.devRef .tc (Pipeline.arrRef spec1 w)) = (dat1 (Vattn m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atAttn m ρ c (Proc.devRef .tc b) := by
  unfold atEnd; exact Pipeline.withArrays_of_ne spec1 c _ _ b hb
abbrev Vend : (c : Dev nD) → (b : Ref sig .tc) → Buf (Elt F) ((c : Thread nD τ).loc b) := fun c b => atEnd m ρ c b
theorem attn_leaves (c : Dev nD) (w : Fin cfg1.W) : (dat1 (Vattn m ρ) c).arrAt w cfg1.N = Vend m ρ c (Pipeline.arrRef spec1 w) :=
  (atEnd_arr m ρ c w).symm
theorem attn_keeps (c : Dev nD) : ∀ b, b ∉ Finset.univ.image (Pipeline.arrRef spec1) → Vend m ρ c b = Vattn m ρ c b :=
  fun b hb => atEnd_of_ne m ρ c b fun w e => hb (Finset.mem_image.mpr ⟨w, Finset.mem_univ _, e⟩)

/-! ## The arguments end as launched -/

theorem atEnd_main_arg0 (c : Dev nD) : atEnd m ρ c (Proc.devRef .tc main_arg0) = m ((c : Thread nD τ).loc main_arg0) :=
  calc atEnd m ρ c (Proc.devRef .tc main_arg0)
    _ = atAttn m ρ c (Proc.devRef .tc main_arg0) := (atEnd_arr m ρ c 6).trans (((dat1 (Vattn m ρ) c).arrAt_in 6 rfl _).trans (A_eq1 (Vattn m ρ) c 6))
    _ = afterProj m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg0) := (afterProj_arr m ρ c 0).trans (((dat0 (Vproj m ρ) c).arrAt_in 0 rfl _).trans (A_eq0 (Vproj m ρ) c 0))
    _ = atLaunch m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem atEnd_main_arg1 (c : Dev nD) : atEnd m ρ c (Proc.devRef .tc main_arg1) = m ((c : Thread nD τ).loc main_arg1) :=
  calc atEnd m ρ c (Proc.devRef .tc main_arg1)
    _ = atAttn m ρ c (Proc.devRef .tc main_arg1) := (atEnd_arr m ρ c 0).trans (((dat1 (Vattn m ρ) c).arrAt_in 0 rfl _).trans (A_eq1 (Vattn m ρ) c 0))
    _ = afterProj m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg1) := afterProj_of_ne m ρ c main_arg1 (by decide)
    _ = atLaunch m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem atEnd_main_arg2 (c : Dev nD) : atEnd m ρ c (Proc.devRef .tc main_arg2) = m ((c : Thread nD τ).loc main_arg2) :=
  calc atEnd m ρ c (Proc.devRef .tc main_arg2)
    _ = atAttn m ρ c (Proc.devRef .tc main_arg2) := (atEnd_arr m ρ c 4).trans (((dat1 (Vattn m ρ) c).arrAt_in 4 rfl _).trans (A_eq1 (Vattn m ρ) c 4))
    _ = afterProj m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg2) := afterProj_of_ne m ρ c main_arg2 (by decide)
    _ = atLaunch m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem atEnd_main_arg3 (c : Dev nD) : atEnd m ρ c (Proc.devRef .tc main_arg3) = m ((c : Thread nD τ).loc main_arg3) :=
  calc atEnd m ρ c (Proc.devRef .tc main_arg3)
    _ = atAttn m ρ c (Proc.devRef .tc main_arg3) := atEnd_of_ne m ρ c main_arg3 (by decide)
    _ = afterProj m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg3) := afterProj_of_ne m ρ c main_arg3 (by decide)
    _ = atLaunch m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem atEnd_main_arg4 (c : Dev nD) : atEnd m ρ c (Proc.devRef .tc main_arg4) = m ((c : Thread nD τ).loc main_arg4) :=
  calc atEnd m ρ c (Proc.devRef .tc main_arg4)
    _ = atAttn m ρ c (Proc.devRef .tc main_arg4) := atEnd_of_ne m ρ c main_arg4 (by decide)
    _ = afterProj m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg4) := afterProj_of_ne m ρ c main_arg4 (by decide)
    _ = atLaunch m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem atEnd_main_arg5 (c : Dev nD) : atEnd m ρ c (Proc.devRef .tc main_arg5) = m ((c : Thread nD τ).loc main_arg5) :=
  calc atEnd m ρ c (Proc.devRef .tc main_arg5)
    _ = atAttn m ρ c (Proc.devRef .tc main_arg5) := atEnd_of_ne m ρ c main_arg5 (by decide)
    _ = afterProj m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg5) := afterProj_of_ne m ρ c main_arg5 (by decide)
    _ = atLaunch m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem atEnd_main_arg6 (c : Dev nD) : atEnd m ρ c (Proc.devRef .tc main_arg6) = m ((c : Thread nD τ).loc main_arg6) :=
  calc atEnd m ρ c (Proc.devRef .tc main_arg6)
    _ = atAttn m ρ c (Proc.devRef .tc main_arg6) := atEnd_of_ne m ρ c main_arg6 (by decide)
    _ = afterProj m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg6) := afterProj_of_ne m ρ c main_arg6 (by decide)
    _ = atLaunch m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem atEnd_main_arg7 (c : Dev nD) : atEnd m ρ c (Proc.devRef .tc main_arg7) = m ((c : Thread nD τ).loc main_arg7) :=
  calc atEnd m ρ c (Proc.devRef .tc main_arg7)
    _ = atAttn m ρ c (Proc.devRef .tc main_arg7) := atEnd_of_ne m ρ c main_arg7 (by decide)
    _ = afterProj m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg7) := afterProj_of_ne m ρ c main_arg7 (by decide)
    _ = atLaunch m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem atEnd_main_arg8 (c : Dev nD) : atEnd m ρ c (Proc.devRef .tc main_arg8) = m ((c : Thread nD τ).loc main_arg8) :=
  calc atEnd m ρ c (Proc.devRef .tc main_arg8)
    _ = atAttn m ρ c (Proc.devRef .tc main_arg8) := atEnd_of_ne m ρ c main_arg8 (by decide)
    _ = afterProj m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg8) := afterProj_of_ne m ρ c main_arg8 (by decide)
    _ = atLaunch m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem atEnd_main_arg9 (c : Dev nD) : atEnd m ρ c (Proc.devRef .tc main_arg9) = m ((c : Thread nD τ).loc main_arg9) :=
  calc atEnd m ρ c (Proc.devRef .tc main_arg9)
    _ = atAttn m ρ c (Proc.devRef .tc main_arg9) := atEnd_of_ne m ρ c main_arg9 (by decide)
    _ = afterProj m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg9) := afterProj_of_ne m ρ c main_arg9 (by decide)
    _ = atLaunch m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Vproj m ρ) c
  | ⟨1, _⟩ => fun c => dat1 (Vattn m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_alloc_none : (hostOps0 : List (HloOp τ sig (Elt F))).Forall fun op => op.fresh = ∅ := by
  simp only [List.Forall]; repeat' constructor
theorem hostOps1_alloc_none : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (atEnd m ρ c) ∗ ∃ r, prngReg c r)

/-! ## The calls as segments -/

set_option backward.isDefEq.respectTransparency.types false in
/-- The projection call: entered from every unscoped buffer at `atProj`, left at `afterProj`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vproj m ρ) c).loose
  hwaits := Pipeline.hwaits_of_owed_zero _ _ _ _ L lv 0 fun _ _ => rfl
  pre c := iprop(StableHlo.held (c : Thread nD τ) (Pipeline.ucRefs τ sig) (atProj m ρ c) ∗ R c)
  post c := iprop(StableHlo.held (c : Thread nD τ) (Pipeline.ucRefs τ sig) (afterProj m ρ c) ∗ R c)
  X c := iprop(∃ r, prngReg c r)
  Y c := iprop(∃ r, prngReg c r)
  Z c := Pipeline.unscopedRest (Ix := Unit) (Name := ℕ) (U := UR sig nD τ) (Lvl := ℕ) spec0 c (Vproj m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vproj m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vproj m ρ c) (VafterProj m ρ c) ((pdats m ρ 0 c).arrAt · cfg0.N) (proj_leaves m ρ c) (proj_keeps m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at `atAttn`, left at `atEnd`. Its invariant hands the
    body the three scratch buffers (at anything before the first point, then at what the point before left) and
    gives the scoped rest back at the end. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vattn m ρ) c).loose
  hwaits := Pipeline.hwaits_of_owed_zero _ _ _ _ L lv 1 fun _ _ => rfl
  pre c := iprop(StableHlo.held (c : Thread nD τ) (Pipeline.ucRefs τ sig) (atAttn m ρ c) ∗ R c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vattn m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vattn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (Vattn m ρ) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (Vattn m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vattn m ρ c) (Vend m ρ c) ((pdats m ρ 1 c).arrAt · cfg1.N) (attn_leaves m ρ c) (attn_keeps m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev items : List (Pipeline.Seg (pcfgs (F := F)) adm (pdats m ρ) () defs₀ 𝒱₀ L lv) :=
  [ .host (hseg hostOps0 hostOps0_sub hostOps0_alloc_none (atLaunch m ρ)),
    .region (projSeg m ρ),
    .host (hseg hostOps1 hostOps1_sub hostOps1_alloc_none (afterProj m ρ)),
    .region (attnSeg m ρ) ]
theorem main_is_items (c : Dev nD) : main (F := F) c = Pipeline.Seg.run (items m ρ) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tlast m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (atEnd_main_arg0 m ρ c),
    (h c _ (mem_uc main_arg1 (by decide))).trans (atEnd_main_arg1 m ρ c),
    (h c _ (mem_uc main_arg2 (by decide))).trans (atEnd_main_arg2 m ρ c),
    (h c _ (mem_uc main_arg3 (by decide))).trans (atEnd_main_arg3 m ρ c),
    (h c _ (mem_uc main_arg4 (by decide))).trans (atEnd_main_arg4 m ρ c),
    (h c _ (mem_uc main_arg5 (by decide))).trans (atEnd_main_arg5 m ρ c),
    (h c _ (mem_uc main_arg6 (by decide))).trans (atEnd_main_arg6 m ρ c),
    (h c _ (mem_uc main_arg7 (by decide))).trans (atEnd_main_arg7 m ρ c),
    (h c _ (mem_uc main_arg8 (by decide))).trans (atEnd_main_arg8 m ρ c),
    (h c _ (mem_uc main_arg9 (by decide))).trans (atEnd_main_arg9 m ρ c)⟩) (run_all m ρ)

end Cert.KernelIdeal.Hand

end
-- ==== Proof.KI.AttnValue.lean ====
import proofs.«150398_j60060822667746_2_alg».proof.Proof.KI.Region1
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what the recurrence computes

Each found piece read back as the kernel's own payload function of the point's input blocks and of the
accumulators as the point found them. Write `m`, `s`, `a` for the running maximum, sum and weighted sum on
entry (at a row's first column the reset values: `-∞`, `0`, `0`), `z` for the scaled scores of the row
block against the column block (`k1_pay12`), `p` for the positive per-pair weight the kernel forms from its
first, fifth and sixth operands (`k1_pay10`: a product plus a column, clamped below at 1e-6), `v` for the value
block. Then the new maximum is `m' = max m (rowmax z)` (`k1_pay13`, stored through `k1_pay5`); the new sum is
`exp (m - m') * s + rowsum (p * exp (z - m'))` (`k1_pay3`); the new weighted sum is
`exp (m - m') * a + round_bf16 (p * exp (z - m')) · v` (`k1_pay4`); and at a last column the output block is the
weighted sum times the reciprocal of the sum, the relations laid side by side, plus the residual input (`k1_pay6`). -/

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable (c : Dev nD) (i : grid1.Coords) (arg2 : Memref sig .tc .vmem S128x128x64 .f32) (harg2 : arg2.IsWhole) (arg3 : Memref sig .tc .vmem S16x128x64 .bf16) (harg3 : arg3.IsWhole) (arg4 : Memref sig .tc .vmem S16x128x64 .bf16) (harg4 : arg4.IsWhole) (arg5 : Memref sig .tc .vmem S16x128x64 .bf16) (harg5 : arg5.IsWhole) (arg6 : Memref sig .tc .vmem S16x64 .f32) (harg6 : arg6.IsWhole) (arg7 : Memref sig .tc .vmem S16x1 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S16x128x1 .f32) (harg10 : arg10.IsWhole) (arg11 : Memref sig .tc .vmem S16x128x1 .f32) (harg11 : arg11.IsWhole) (arg12 : Memref sig .tc .vmem S16x128x64 .f32) (harg12 : arg12.IsWhole)
variable (x0 : Vec F S128x128x64 .f32) (x1 : Vec F S16x128x64 .bf16) (x2 : Vec F S16x128x64 .bf16) (x3 : Vec F S16x128x64 .bf16) (x4 : Vec F S16x64 .f32) (x5 : Vec F S16x1 .f32) (x6 : Vec F S128x1024 .f32)

/-! ## A row's first column: from the reset values -/

/-- The running maximum after a first column. -/
theorem leftF_max (hc0 : condF i) (hc1 : ¬condL i) :
    (leftF c i arg2 harg2 arg3 harg3 arg4 harg4 arg5 harg5 arg6 harg6 arg7 harg7 arg8 harg8 arg9 harg9 arg10 harg10 arg11 harg11 arg12 harg12 x0 x1 x2 x3 x4 x5 x6 hc0 hc1).2.1 = k1_pay5 (k1_pay13 x1 x2 k1_pay7) := by
  unfold leftF; dsimp only
  rw [View.read_writes_junk_eq_canon]
  unfold runFirst; dsimp only
  sl_unfold_words
  rw [View.canon_cons_unit_zero (S := S16x128x1) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The running sum after a first column. -/
theorem leftF_sum (hc0 : condF i) (hc1 : ¬condL i) :
    (leftF c i arg2 harg2 arg3 harg3 arg4 harg4 arg5 harg5 arg6 harg6 arg7 harg7 arg8 harg8 arg9 harg9 arg10 harg10 arg11 harg11 arg12 harg12 x0 x1 x2 x3 x4 x5 x6 hc0 hc1).2.2.1 = k1_pay3 (k1_pay10 x0 x4 x5) (k1_pay12 x1 x2) (k1_pay13 x1 x2 k1_pay7) k1_pay7 k1_pay8 := by
  unfold leftF; dsimp only
  rw [View.read_writes_junk_eq_canon]
  unfold runFirst; dsimp only
  sl_unfold_words
  rw [View.canon_cons_unit_zero (S := S16x128x1) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The running weighted sum after a first column. -/
theorem leftF_acc (hc0 : condF i) (hc1 : ¬condL i) :
    (leftF c i arg2 harg2 arg3 harg3 arg4 harg4 arg5 harg5 arg6 harg6 arg7 harg7 arg8 harg8 arg9 harg9 arg10 harg10 arg11 harg11 arg12 harg12 x0 x1 x2 x3 x4 x5 x6 hc0 hc1).2.2.2 = k1_pay4 (k1_pay10 x0 x4 x5) (k1_pay11 x3) (k1_pay12 x1 x2) (k1_pay13 x1 x2 k1_pay7) k1_pay7 k1_pay9 := by
  unfold leftF; dsimp only
  rw [View.read_writes_junk_eq_canon]
  unfold runFirst; dsimp only
  sl_unfold_words
  rw [View.canon_cons_unit_zero (S := S16x128x64) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-! ## An inner column: from what the column before left -/

/-- The running maximum after an inner column. -/
theorem leftM_max (hc0 : ¬condF i) (hc1 : ¬condL i) (xs0 : Vec F S16x128x1 .f32) (xs1 : Vec F S16x128x1 .f32) (xs2 : Vec F S16x128x64 .f32) :
    (leftM c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.1 = k1_pay5 (k1_pay13 x1 x2 xs0) := by
  unfold leftM; dsimp only
  rw [View.read_writes_junk_eq_canon]
  unfold runMiddle; dsimp only
  sl_unfold_words
  rw [View.canon_unit_zero (S := S16x128x1) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The running sum after an inner column. -/
theorem leftM_sum (hc0 : ¬condF i) (hc1 : ¬condL i) (xs0 : Vec F S16x128x1 .f32) (xs1 : Vec F S16x128x1 .f32) (xs2 : Vec F S16x128x64 .f32) :
    (leftM c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.2.1 = k1_pay3 (k1_pay10 x0 x4 x5) (k1_pay12 x1 x2) (k1_pay13 x1 x2 xs0) xs0 xs1 := by
  unfold leftM; dsimp only
  rw [View.read_writes_junk_eq_canon]
  unfold runMiddle; dsimp only
  sl_unfold_words
  rw [View.canon_unit_zero (S := S16x128x1) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The running weighted sum after an inner column. -/
theorem leftM_acc (hc0 : ¬condF i) (hc1 : ¬condL i) (xs0 : Vec F S16x128x1 .f32) (xs1 : Vec F S16x128x1 .f32) (xs2 : Vec F S16x128x64 .f32) :
    (leftM c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.2.2 = k1_pay4 (k1_pay10 x0 x4 x5) (k1_pay11 x3) (k1_pay12 x1 x2) (k1_pay13 x1 x2 xs0) xs0 xs2 := by
  unfold leftM; dsimp only
  rw [View.read_writes_junk_eq_canon]
  unfold runMiddle; dsimp only
  sl_unfold_words
  rw [View.canon_unit_zero (S := S16x128x64) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-! ## A row's last column: the same update, and the output block -/

/-- The running maximum after a last column. -/
theorem leftL_max (hc0 : ¬condF i) (hc1 : condL i) (xs0 : Vec F S16x128x1 .f32) (xs1 : Vec F S16x128x1 .f32) (xs2 : Vec F S16x128x64 .f32) :
    (leftL c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.1 = k1_pay5 (k1_pay13 x1 x2 xs0) := by
  unfold leftL; dsimp only
  rw [View.read_writes_junk_eq_canon]
  unfold runLast; dsimp only
  sl_unfold_words
  rw [View.canon_unit_zero (S := S16x128x1) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The running sum after a last column. -/
theorem leftL_sum (hc0 : ¬condF i) (hc1 : condL i) (xs0 : Vec F S16x128x1 .f32) (xs1 : Vec F S16x128x1 .f32) (xs2 : Vec F S16x128x64 .f32) :
    (leftL c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.2.1 = k1_pay3 (k1_pay10 x0 x4 x5) (k1_pay12 x1 x2) (k1_pay13 x1 x2 xs0) xs0 xs1 := by
  unfold leftL; dsimp only
  rw [View.read_writes_junk_eq_canon]
  unfold runLast; dsimp only
  sl_unfold_words
  rw [View.canon_unit_zero (S := S16x128x1) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The running weighted sum after a last column. -/
theorem leftL_acc (hc0 : ¬condF i) (hc1 : condL i) (xs0 : Vec F S16x128x1 .f32) (xs1 : Vec F S16x128x1 .f32) (xs2 : Vec F S16x128x64 .f32) :
    (leftL c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.2.2 = k1_pay4 (k1_pay10 x0 x4 x5) (k1_pay11 x3) (k1_pay12 x1 x2) (k1_pay13 x1 x2 xs0) xs0 xs2 := by
  unfold leftL; dsimp only
  rw [View.read_writes_junk_eq_canon]
  unfold runLast; dsimp only
  sl_unfold_words
  rw [View.canon_unit_zero (S := S16x128x64) hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The row's output block: formed from the accumulators as the last column leaves them. -/
theorem leftL_out (hc0 : ¬condF i) (hc1 : condL i) (xs0 : Vec F S16x128x1 .f32) (xs1 : Vec F S16x128x1 .f32) (xs2 : Vec F S16x128x64 .f32) :
    (leftL c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).1 = k1_pay6 (k1_pay4 (k1_pay10 x0 x4 x5) (k1_pay11 x3) (k1_pay12 x1 x2) (k1_pay13 x1 x2 xs0) xs0 xs2) (k1_pay3 (k1_pay10 x0 x4 x5) (k1_pay12 x1 x2) (k1_pay13 x1 x2 xs0) xs0 xs1) x6 := by
  unfold leftL; dsimp only
  rw [View.read_writes_junk_eq_canon]
  unfold runLast; dsimp only
  sl_unfold_words
  rw [View.canon_unit_zero (S := S128x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S128x128x64) hz3, View.ld_unit_zero (S := S16x128x64) hz3, View.ld_unit_zero (S := S16x128x1) hz3, View.ld_unit_zero (S := S16x64) hz2, View.ld_unit_zero (S := S16x1) hz2, View.ld_unit_zero (S := S128x1024) hz2, View.readCov_unit_zero (S := S16x128x1) _ hz3, View.readCov_unit_zero (S := S16x128x64) _ hz3]

/-- The row's output block in terms of the accumulators the last column leaves. -/
theorem leftL_out' (hc0 : ¬condF i) (hc1 : condL i) (xs0 : Vec F S16x128x1 .f32) (xs1 : Vec F S16x128x1 .f32) (xs2 : Vec F S16x128x64 .f32) :
    (leftL c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).1
      = k1_pay6 (leftL c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.2.2 (leftL c i arg2 harg2 arg3 harg3 arg4 harg4 arg5 harg5 arg6 harg6 arg7 harg7 arg8 harg8 arg9 harg9 arg10 harg10 arg11 harg11 arg12 harg12 x0 x1 x2 x3 x4 x5 x6 hc0 hc1 xs0 xs1 xs2).2.2.1 x6 := by
  rw [leftL_out, leftL_acc, leftL_sum]

end Pieces

section Points

variable (V : (c : Dev nD) → (b : Ref sig .tc) → Buf (Elt F) ((c : Thread nD τ).loc b))

/-! ## The recurrence, point by point

At a row's first column the accumulators start from the reset values; at every later column from what the
point before left; at a row's last column the output's staging buffer holds the row's block. -/

/-- The running maximum after a row's first column. -/
theorem carried1_first_max (c : Dev nD) (t : Fin cfg1.N) (h0 : t.val % 8 = 0) :
    (carried1 V c t.val t.isLt).2.1 = k1_pay5 (k1_pay13 (iblk1 V c 1 t) (iblk1 V c 2 t) k1_pay7) := by
  rw [carried1_F V c t h0]; unfold atF
  exact leftF_max c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) ((hcondF t).mpr h0) (notL_of_first t h0)

/-- The running sum after a row's first column. -/
theorem carried1_first_sum (c : Dev nD) (t : Fin cfg1.N) (h0 : t.val % 8 = 0) :
    (carried1 V c t.val t.isLt).2.2.1 = k1_pay3 (k1_pay10 (iblk1 V c 0 t) (iblk1 V c 4 t) (iblk1 V c 5 t)) (k1_pay12 (iblk1 V c 1 t) (iblk1 V c 2 t)) (k1_pay13 (iblk1 V c 1 t) (iblk1 V c 2 t) k1_pay7) k1_pay7 k1_pay8 := by
  rw [carried1_F V c t h0]; unfold atF
  exact leftF_sum c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) ((hcondF t).mpr h0) (notL_of_first t h0)

/-- The running weighted sum after a row's first column. -/
theorem carried1_first_acc (c : Dev nD) (t : Fin cfg1.N) (h0 : t.val % 8 = 0) :
    (carried1 V c t.val t.isLt).2.2.2 = k1_pay4 (k1_pay10 (iblk1 V c 0 t) (iblk1 V c 4 t) (iblk1 V c 5 t)) (k1_pay11 (iblk1 V c 3 t)) (k1_pay12 (iblk1 V c 1 t) (iblk1 V c 2 t)) (k1_pay13 (iblk1 V c 1 t) (iblk1 V c 2 t) k1_pay7) k1_pay7 k1_pay9 := by
  rw [carried1_F V c t h0]; unfold atF
  exact leftF_acc c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) ((hcondF t).mpr h0) (notL_of_first t h0)

/-- The running maximum after a later column. -/
theorem carried1_later_max (c : Dev nD) (t : Fin cfg1.N) (h0 : ¬t.val % 8 = 0) :
    (carried1 V c t.val t.isLt).2.1 = k1_pay5 (k1_pay13 (iblk1 V c 1 t) (iblk1 V c 2 t) (carried1 V c (t.val - 1) (Nat.lt_of_le_of_lt (Nat.sub_le _ _) t.isLt)).2.1) := by
  by_cases h1 : t.val % 8 = 7
  · rw [carried1_L V c t h0 h1]; unfold atL
    exact leftL_max c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) ((hcondL t).mpr h1) (carried1 V c (t.val - 1) (Nat.lt_of_le_of_lt (Nat.sub_le _ _) t.isLt)).2.1 (carried1 V c (t.val - 1) (Nat.lt_of_le_of_lt (Nat.sub_le _ _) t.isLt)).2.2.1 (carried1 V c (t.val - 1) (Nat.lt_of_le_of_lt (Nat.sub_le _ _) t.isLt)).2.2.2
  · rw [carried1_M V c t h0 h1]; unfold atM
    exact leftM_max c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) (notL_of t h1) (carried1 V c (t.val - 1) (Nat.lt_of_le_of_lt (Nat.sub_le _ _) t.isLt)).2.1 (carried1 V c (t.val - 1) (Nat.lt_of_le_of_lt (Nat.sub_le _ _) t.isLt)).2.2.1 (carried1 V c (t.val - 1) (Nat.lt_of_le_of_lt (Nat.sub_le _ _) t.isLt)).2.2.2

/-- The running sum after a later column. -/
theorem carried1_later_sum (c : Dev nD) (t : Fin cfg1.N) (h0 : ¬t.val % 8 = 0) :
    (carried1 V c t.val t.isLt).2.2.1 = k1_pay3 (k1_pay10 (iblk1 V c 0 t) (iblk1 V c 4 t) (iblk1 V c 5 t)) (k1_pay12 (iblk1 V c 1 t) (iblk1 V c 2 t)) (k1_pay13 (iblk1 V c 1 t) (iblk1 V c 2 t) (carried1 V c (t.val - 1) (Nat.lt_of_le_of_lt (Nat.sub_le _ _) t.isLt)).2.1) (carried1 V c (t.val - 1) (Nat.lt_of_le_of_lt (Nat.sub_le _ _) t.isLt)).2.1 (carried1 V c (t.val - 1) (Nat.lt_of_le_of_lt (Nat.sub_le _ _) t.isLt)).2.2.1 := by
  by_cases h1 : t.val % 8 = 7
  · rw [carried1_L V c t h0 h1]; unfold atL
    exact leftL_sum c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) ((hcondL t).mpr h1) (carried1 V c (t.val - 1) (Nat.lt_of_le_of_lt (Nat.sub_le _ _) t.isLt)).2.1 (carried1 V c (t.val - 1) (Nat.lt_of_le_of_lt (Nat.sub_le _ _) t.isLt)).2.2.1 (carried1 V c (t.val - 1) (Nat.lt_of_le_of_lt (Nat.sub_le _ _) t.isLt)).2.2.2
  · rw [carried1_M V c t h0 h1]; unfold atM
    exact leftM_sum c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) (notL_of t h1) (carried1 V c (t.val - 1) (Nat.lt_of_le_of_lt (Nat.sub_le _ _) t.isLt)).2.1 (carried1 V c (t.val - 1) (Nat.lt_of_le_of_lt (Nat.sub_le _ _) t.isLt)).2.2.1 (carried1 V c (t.val - 1) (Nat.lt_of_le_of_lt (Nat.sub_le _ _) t.isLt)).2.2.2

/-- The running weighted sum after a later column. -/
theorem carried1_later_acc (c : Dev nD) (t : Fin cfg1.N) (h0 : ¬t.val % 8 = 0) :
    (carried1 V c t.val t.isLt).2.2.2 = k1_pay4 (k1_pay10 (iblk1 V c 0 t) (iblk1 V c 4 t) (iblk1 V c 5 t)) (k1_pay11 (iblk1 V c 3 t)) (k1_pay12 (iblk1 V c 1 t) (iblk1 V c 2 t)) (k1_pay13 (iblk1 V c 1 t) (iblk1 V c 2 t) (carried1 V c (t.val - 1) (Nat.lt_of_le_of_lt (Nat.sub_le _ _) t.isLt)).2.1) (carried1 V c (t.val - 1) (Nat.lt_of_le_of_lt (Nat.sub_le _ _) t.isLt)).2.1 (carried1 V c (t.val - 1) (Nat.lt_of_le_of_lt (Nat.sub_le _ _) t.isLt)).2.2.2 := by
  by_cases h1 : t.val % 8 = 7
  · rw [carried1_L V c t h0 h1]; unfold atL
    exact leftL_acc c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) ((hcondL t).mpr h1) (carried1 V c (t.val - 1) (Nat.lt_of_le_of_lt (Nat.sub_le _ _) t.isLt)).2.1 (carried1 V c (t.val - 1) (Nat.lt_of_le_of_lt (Nat.sub_le _ _) t.isLt)).2.2.1 (carried1 V c (t.val - 1) (Nat.lt_of_le_of_lt (Nat.sub_le _ _) t.isLt)).2.2.2
  · rw [carried1_M V c t h0 h1]; unfold atM
    exact leftM_acc c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) (notL_of t h1) (carried1 V c (t.val - 1) (Nat.lt_of_le_of_lt (Nat.sub_le _ _) t.isLt)).2.1 (carried1 V c (t.val - 1) (Nat.lt_of_le_of_lt (Nat.sub_le _ _) t.isLt)).2.2.1 (carried1 V c (t.val - 1) (Nat.lt_of_le_of_lt (Nat.sub_le _ _) t.isLt)).2.2.2

/-- At a row's last column the output's staging buffer holds the block formed from the accumulators as this
    column leaves them and from the residual input's block. -/
theorem carried1_last_out (c : Dev nD) (t : Fin cfg1.N) (h1 : t.val % 8 = 7) :
    (carried1 V c t.val t.isLt).1
      = k1_pay6 (carried1 V c t.val t.isLt).2.2.2 (carried1 V c t.val t.isLt).2.2.1 (iblk1 V c 6 t) := by
  have h0 : ¬t.val % 8 = 0 := by omega
  rw [carried1_L V c t h0 h1]; unfold atL
  exact leftL_out' c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk1 V c 0 t) (iblk1 V c 1 t) (iblk1 V c 2 t) (iblk1 V c 3 t) (iblk1 V c 4 t) (iblk1 V c 5 t) (iblk1 V c 6 t) (notF_of t h0) ((hcondL t).mpr h1) (carried1 V c (t.val - 1) (Nat.lt_of_le_of_lt (Nat.sub_le _ _) t.isLt)).2.1 (carried1 V c (t.val - 1) (Nat.lt_of_le_of_lt (Nat.sub_le _ _) t.isLt)).2.2.1 (carried1 V c (t.val - 1) (Nat.lt_of_le_of_lt (Nat.sub_le _ _) t.isLt)).2.2.2

end Points

end Cert.KernelIdeal.Hand

end
-- ==== Proof.KI.AttnReads.lean ====
import proofs.«150398_j60060822667746_2_alg».proof.Proof.KI.AttnValue
import Idealize.ShloMosaic.Lib.Pipeline.Value
import Idealize.ShloMosaic.Lib.ValueIdx

set_option maxRecDepth 16384

noncomputable section

namespace Cert.KernelIdeal.Hand

open Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: which entries of the arrays a point's blocks are, and the output's cover

Point `t` is row block `t / 8` (128 row proposals) and column block `t % 8` (128 column proposals). The per-pair operand's block
is at (row block, column block); the row-side projection's and the residual input's blocks at the row block; the column-side projection's and the
values' blocks at the column block; the two per-relation operands are whole. The output's block is at the row
block and is written back at the row's last column, so the eight last columns' blocks tile the output. -/

/-! ## The block indices, decided over the 64 points -/

theorem attn_index0 : ∀ t : Fin cfg1.N,
    win1_0.index t (0 : Fin 3) = t.val / 8 ∧ win1_0.index t (1 : Fin 3) = t.val % 8 ∧ win1_0.index t (2 : Fin 3) = 0 :=
  (by decide +kernel : ∀ t : Fin grid1.N, _)
theorem attn_index1 : ∀ t : Fin cfg1.N,
    win1_1.index t (0 : Fin 3) = 0 ∧ win1_1.index t (1 : Fin 3) = t.val / 8 ∧ win1_1.index t (2 : Fin 3) = 0 :=
  (by decide +kernel : ∀ t : Fin grid1.N, _)
theorem attn_index2 : ∀ t : Fin cfg1.N,
    win1_2.index t (0 : Fin 3) = 0 ∧ win1_2.index t (1 : Fin 3) = t.val % 8 ∧ win1_2.index t (2 : Fin 3) = 0 :=
  (by decide +kernel : ∀ t : Fin grid1.N, _)
theorem attn_index3 : ∀ t : Fin cfg1.N,
    win1_3.index t (0 : Fin 3) = 0 ∧ win1_3.index t (1 : Fin 3) = t.val % 8 ∧ win1_3.index t (2 : Fin 3) = 0 :=
  (by decide +kernel : ∀ t : Fin grid1.N, _)
theorem attn_index4 : ∀ t : Fin cfg1.N, win1_4.index t (0 : Fin 2) = 0 ∧ win1_4.index t (1 : Fin 2) = 0 :=
  (by decide +kernel : ∀ t : Fin grid1.N, _)
theorem attn_index5 : ∀ t : Fin cfg1.N, win1_5.index t (0 : Fin 2) = 0 ∧ win1_5.index t (1 : Fin 2) = 0 :=
  (by decide +kernel : ∀ t : Fin grid1.N, _)
theorem attn_index6 : ∀ t : Fin cfg1.N, win1_6.index t (0 : Fin 2) = t.val / 8 ∧ win1_6.index t (1 : Fin 2) = 0 :=
  (by decide +kernel : ∀ t : Fin grid1.N, _)
theorem attn_index7 : ∀ t : Fin cfg1.N, win1_7.index t (0 : Fin 2) = t.val / 8 ∧ win1_7.index t (1 : Fin 2) = 0 :=
  (by decide +kernel : ∀ t : Fin grid1.N, _)

/-- All eight windows' block indices at a point, in closed form. -/
theorem attn_index_facts (t : Fin cfg1.N) :
    (win1_0.index t (0 : Fin 3) = t.val / 8 ∧ win1_0.index t (1 : Fin 3) = t.val % 8 ∧ win1_0.index t (2 : Fin 3) = 0)
    ∧ (win1_1.index t (0 : Fin 3) = 0 ∧ win1_1.index t (1 : Fin 3) = t.val / 8 ∧ win1_1.index t (2 : Fin 3) = 0)
    ∧ (win1_2.index t (0 : Fin 3) = 0 ∧ win1_2.index t (1 : Fin 3) = t.val % 8 ∧ win1_2.index t (2 : Fin 3) = 0)
    ∧ (win1_3.index t (0 : Fin 3) = 0 ∧ win1_3.index t (1 : Fin 3) = t.val % 8 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val / 8 ∧ win1_6.index t (1 : Fin 2) = 0)
    ∧ (win1_7.index t (0 : Fin 2) = t.val / 8 ∧ win1_7.index t (1 : Fin 2) = 0) :=
  ⟨attn_index0 t, attn_index1 t, attn_index2 t, attn_index3 t, attn_index4 t, attn_index5 t, attn_index6 t, attn_index7 t⟩

/-- Every row block of the output is the block of its row's last column. -/
theorem attn_index_onto : ∀ a : Fin 8, ∃ t : Fin cfg1.N, t.val = 8 * a.val + 7 ∧ win1_7.index t = ![a.val, 0] :=
  (by decide +kernel : ∀ a : Fin 8, ∃ t : Fin grid1.N, t.val = 8 * a.val + 7 ∧ win1_7.index t = ![a.val, 0])

section Reads

variable (V : (c : Dev nD) → (b : Ref sig .tc) → Buf (Elt F) ((c : Thread nD τ).loc b))

/-! ## The input blocks read off their arrays

`a` is the point's row block and `j` its column block; `n = 128 a + x` is a row proposal's row in the arrays,
`m = 128 j + y` a column proposal's. -/

/-- The per-pair operand's block: the pairs (row proposal `n`, column proposal `m`) of the point's row and column blocks. -/
theorem pairs_read (c : Dev nD) (t : Fin cfg1.N) (a j : Fin 8) (ha : a.val = t.val / 8) (hj : j.val = t.val % 8)
    (x y : Fin 128) (g : Fin 64) (n m : Fin 1024) (hn : n.val = a.val * 128 + x.val) (hm : m.val = j.val * 128 + y.val) :
    iblk1 V c 0 t (ix3 x y g) = V c main_arg1 (ix3 n m g) := by
  obtain ⟨e0, e1, e2⟩ := attn_index0 t
  show V c main_arg1 (((cfg1.win 0).blk t).view.emb (ix3 x y g)) = V c main_arg1 (ix3 n m g)
  refine congrArg _ (funext fun ax => Fin.ext ?_)
  match ax with
  | ⟨0, _⟩ => show win1_0.index t (0 : Fin 3) * 128 + 1 * x.val = n.val; omega
  | ⟨1, _⟩ => show win1_0.index t (1 : Fin 3) * 128 + 1 * y.val = m.val; omega
  | ⟨2, _⟩ => show win1_0.index t (2 : Fin 3) * 64 + 1 * g.val = g.val; omega

/-- The row-side projection's block: every relation's rows of the point's row block. -/
theorem rowSide_read (c : Dev nD) (t : Fin cfg1.N) (a : Fin 8) (ha : a.val = t.val / 8)
    (r : Fin 16) (x : Fin 128) (d : Fin 64) (n : Fin 1024) (hn : n.val = a.val * 128 + x.val) :
    iblk1 V c 1 t (ix3 r x d) = V c main_v15 (ix3 r n d) := by
  obtain ⟨e0, e1, e2⟩ := attn_index1 t
  show V c main_v15 (((cfg1.win 1).blk t).view.emb (ix3 r x d)) = V c main_v15 (ix3 r n d)
  refine congrArg _ (funext fun ax => Fin.ext ?_)
  match ax with
  | ⟨0, _⟩ => show win1_1.index t (0 : Fin 3) * 16 + 1 * r.val = r.val; omega
  | ⟨1, _⟩ => show win1_1.index t (1 : Fin 3) * 128 + 1 * x.val = n.val; omega
  | ⟨2, _⟩ => show win1_1.index t (2 : Fin 3) * 64 + 1 * d.val = d.val; omega

/-- The column-side projection's block: every relation's rows of the point's column block. -/
theorem colSide_read (c : Dev nD) (t : Fin cfg1.N) (j : Fin 8) (hj : j.val = t.val % 8)
    (r : Fin 16) (y : Fin 128) (d : Fin 64) (m : Fin 1024) (hm : m.val = j.val * 128 + y.val) :
    iblk1 V c 2 t (ix3 r y d) = V c main_v17 (ix3 r m d) := by
  obtain ⟨e0, e1, e2⟩ := attn_index2 t
  show V c main_v17 (((cfg1.win 2).blk t).view.emb (ix3 r y d)) = V c main_v17 (ix3 r m d)
  refine congrArg _ (funext fun ax => Fin.ext ?_)
  match ax with
  | ⟨0, _⟩ => show win1_2.index t (0 : Fin 3) * 16 + 1 * r.val = r.val; omega
  | ⟨1, _⟩ => show win1_2.index t (1 : Fin 3) * 128 + 1 * y.val = m.val; omega
  | ⟨2, _⟩ => show win1_2.index t (2 : Fin 3) * 64 + 1 * d.val = d.val; omega

/-- The values' block: every relation's values of the point's column block. -/
theorem values_read (c : Dev nD) (t : Fin cfg1.N) (j : Fin 8) (hj : j.val = t.val % 8)
    (r : Fin 16) (y : Fin 128) (d : Fin 64) (m : Fin 1024) (hm : m.val = j.val * 128 + y.val) :
    iblk1 V c 3 t (ix3 r y d) = V c main_v19 (ix3 r m d) := by
  obtain ⟨e0, e1, e2⟩ := attn_index3 t
  show V c main_v19 (((cfg1.win 3).blk t).view.emb (ix3 r y d)) = V c main_v19 (ix3 r m d)
  refine congrArg _ (funext fun ax => Fin.ext ?_)
  match ax with
  | ⟨0, _⟩ => show win1_3.index t (0 : Fin 3) * 16 + 1 * r.val = r.val; omega
  | ⟨1, _⟩ => show win1_3.index t (1 : Fin 3) * 128 + 1 * y.val = m.val; omega
  | ⟨2, _⟩ => show win1_3.index t (2 : Fin 3) * 64 + 1 * d.val = d.val; omega

/-- The gate's weight matrix is read whole at every point. -/
theorem headRows_read (c : Dev nD) (t : Fin cfg1.N) (r : Fin 16) (g : Fin 64) :
    iblk1 V c 4 t (ix2 r g) = V c main_arg2 (ix2 r g) := by
  obtain ⟨e0, e1⟩ := attn_index4 t
  show V c main_arg2 (((cfg1.win 4).blk t).view.emb (ix2 r g)) = V c main_arg2 (ix2 r g)
  refine congrArg _ (funext fun ax => Fin.ext ?_)
  match ax with
  | ⟨0, _⟩ => show win1_4.index t (0 : Fin 2) * 16 + 1 * r.val = r.val; omega
  | ⟨1, _⟩ => show win1_4.index t (1 : Fin 2) * 64 + 1 * g.val = g.val; omega

/-- The gate's bias column is read whole at every point. -/
theorem headCol_read (c : Dev nD) (t : Fin cfg1.N) (r : Fin 16) (u : Fin 1) :
    iblk1 V c 5 t (ix2 r u) = V c main_v20 (ix2 r u) := by
  obtain ⟨e0, e1⟩ := attn_index5 t
  show V c main_v20 (((cfg1.win 5).blk t).view.emb (ix2 r u)) = V c main_v20 (ix2 r u)
  refine congrArg _ (funext fun ax => Fin.ext ?_)
  match ax with
  | ⟨0, _⟩ => show win1_5.index t (0 : Fin 2) * 16 + 1 * r.val = r.val; omega
  | ⟨1, _⟩ => show win1_5.index t (1 : Fin 2) * 1 + 1 * u.val = u.val; omega

/-- The residual input's block: the rows of the point's row block. -/
theorem resid_read (c : Dev nD) (t : Fin cfg1.N) (a : Fin 8) (ha : a.val = t.val / 8)
    (x : Fin 128) (q : Fin 1024) (n : Fin 1024) (hn : n.val = a.val * 128 + x.val) :
    iblk1 V c 6 t (ix2 x q) = V c main_arg0 (ix2 n q) := by
  obtain ⟨e0, e1⟩ := attn_index6 t
  show V c main_arg0 (((cfg1.win 6).blk t).view.emb (ix2 x q)) = V c main_arg0 (ix2 n q)
  refine congrArg _ (funext fun ax => Fin.ext ?_)
  match ax with
  | ⟨0, _⟩ => show win1_6.index t (0 : Fin 2) * 128 + 1 * x.val = n.val; omega
  | ⟨1, _⟩ => show win1_6.index t (1 : Fin 2) * 1024 + 1 * q.val = q.val; omega

/-! ## The output window: membership in a block, the cover, what a last column writes back -/

/-- An index of the output array is in point `t`'s block iff each coordinate is in the block's range on its axis. -/
theorem attn_mem_blk (t : Fin cfg1.N) (i : S1024x1024.Idx) :
    i ∈ ((cfg1.win 7).blk t).view.set ↔ ∀ a : Fin 2, win1_7.index t a * S128x1024.size a ≤ (i a).val ∧ (i a).val < win1_7.index t a * S128x1024.size a + S128x1024.size a := by
  show i ∈ ((View.whole main_v21).slice (win1_7.rect t)).set ↔ _
  rw [View.set_slice_whole, Rect.mem_set_unit]
  exact Iff.rfl

/-- The eight written-back blocks cover the output array: row `n` is in the block of the last column of row block `n / 128`. -/
theorem attn_cover (i : S1024x1024.Idx) :
    ∃ t : Fin cfg1.N, (cfg1.win 7).flush t = true ∧ i ∈ ((cfg1.win 7).blk t).view.set := by
  have hi0 : (i 0).val < 1024 := (i 0).isLt
  have hi1 : (i 1).val < 1024 := (i 1).isLt
  obtain ⟨t, ht, hx⟩ := attn_index_onto ⟨(i 0).val / 128, by omega⟩
  have ht' : t.val = 8 * ((i 0).val / 128) + 7 := ht
  have q0 : win1_7.index t (0 : Fin 2) = (i 0).val / 128 := congrFun hx 0
  have q1 : win1_7.index t (1 : Fin 2) = 0 := congrFun hx 1
  refine ⟨t, (flush1_7 t).mpr (by omega), ?_⟩
  rw [attn_mem_blk]
  intro a
  match a with
  | ⟨0, _⟩ => show win1_7.index t (0 : Fin 2) * 128 ≤ (i 0).val ∧ (i 0).val < win1_7.index t (0 : Fin 2) * 128 + 128; omega
  | ⟨1, _⟩ => show win1_7.index t (1 : Fin 2) * 1024 ≤ (i 1).val ∧ (i 1).val < win1_7.index t (1 : Fin 2) * 1024 + 1024; omega

/-- What point `t` would write back is the recurrence's first component there. -/
theorem attn_flushed_form (c : Dev nD) (t : Fin cfg1.N) :
    (dat1 V c).flushed 7 t = (carried1 V c t.val t.isLt).1 := by
  show (cfg1.win 7).cut (grid1.coords t) ((dat1 V c).after 7 t) = _
  rw [after1_7]
  rfl

/-- If the recurrence's first component at `t` is, entry by entry, a function `G` of the output array's index at
    the rows of `t`'s row block, then what `t` writes back is `t`'s block of `G`. -/
theorem attn_flushed_of (c : Dev nD) (t : Fin cfg1.N) (G : S1024x1024.Idx → Elt F .f32)
    (h : ∀ (x : Fin 128) (q : Fin 1024) (n : Fin 1024), n.val = win1_7.index t (0 : Fin 2) * 128 + x.val →
      (carried1 V c t.val t.isLt).1 (ix2 x q) = G (ix2 n q)) :
    (dat1 V c).flushed 7 t = ((cfg1.win 7).blk t).view.read (Elt F) G := by
  rw [attn_flushed_form]
  funext j
  show (carried1 V c t.val t.isLt).1 j = G (((cfg1.win 7).blk t).view.emb j)
  have hN : t.val < 64 := lt_of_lt_of_eq t.isLt (show cfg1.N = 64 from N_1)
  obtain ⟨e0, e1⟩ := attn_index7 t
  have hj0 : (j 0).val < 128 := (j 0).isLt
  have hb : win1_7.index t (0 : Fin 2) * 128 + (j 0).val < 1024 := by omega
  have hj : (j : S128x1024.Idx) = ix2 (⟨(j 0).val, (j 0).isLt⟩ : Fin 128) (⟨(j 1).val, (j 1).isLt⟩ : Fin 1024) :=
    funext fun a => by match a with | ⟨0, _⟩ => rfl | ⟨1, _⟩ => rfl
  refine (congrArg (carried1 V c t.val t.isLt).1 hj).trans ((h ⟨(j 0).val, (j 0).isLt⟩ ⟨(j 1).val, (j 1).isLt⟩ ⟨_, hb⟩ rfl).trans ?_)
  refine congrArg G (funext fun a => Fin.ext ?_)
  match a with
  | ⟨0, _⟩ => show win1_7.index t (0 : Fin 2) * 128 + (j 0).val = win1_7.index t (0 : Fin 2) * 128 + 1 * (j 0).val; omega
  | ⟨1, _⟩ => show (j 1).val = win1_7.index t (1 : Fin 2) * 1024 + 1 * (j 1).val; omega

end Reads

end Cert.KernelIdeal.Hand

end
-- ==== Proof.KI.Value0.lean ====
/-
  What the projection call leaves in its result array, at the ideal instance: entry (n, q) is the n-th row of
  the activations times the q-th column of the stacked weights, plus the q-th stacked bias. One grid point
  writes a 256 x 1024 block of this one function (rows 256·i .. , columns 1024·j ..), the twelve blocks tile
  the array, so the array after the call is the function itself.
-/
import proofs.«150398_j60060822667746_2_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-- Rows times columns plus a one-row bias, entry by entry. -/
def affineAll (A : FVec Ideal S1024x1024 .f32) (W : FVec Ideal S1024x3072 .f32) (B : FVec Ideal S1x3072 .f32) :
    S1024x3072.Idx → EReal :=
  fun i => (∑ k : Fin 1024, A (ix2 (⟨(i 0).val, (i 0).isLt⟩ : Fin 1024) k) * W (ix2 k (⟨(i 1).val, (i 1).isLt⟩ : Fin 3072)))
    + B (ix2 (0 : Fin 1) (⟨(i 1).val, (i 1).isLt⟩ : Fin 3072))

local notation "dotP" => dot_S256x1024_S1024x1024_S256x1024_1_0_0_1_n_n

theorem dotP_lhs0 (i : S256x1024.Idx) (q : (dot_S256x1024_S1024x1024_S256x1024_1_0_0_1_n_n).contr.Idx) :
    ((dot_S256x1024_S1024x1024_S256x1024_1_0_0_1_n_n).lhsIdx i q 0).val = (i 0).val := by
  unfold DotDims.lhsIdx
  rw [dif_neg (show ¬(0 : Fin S256x1024.rank) ∈ (dot_S256x1024_S1024x1024_S256x1024_1_0_0_1_n_n).lhsBatch by decide),
    dif_pos (show (0 : Fin S256x1024.rank) ∈ (dot_S256x1024_S1024x1024_S256x1024_1_0_0_1_n_n).lhsNonContracting by decide)]
  rfl
theorem dotP_lhs1 (i : S256x1024.Idx) (q : (dot_S256x1024_S1024x1024_S256x1024_1_0_0_1_n_n).contr.Idx) :
    ((dot_S256x1024_S1024x1024_S256x1024_1_0_0_1_n_n).lhsIdx i q 1).val = (q ⟨0, by decide⟩).val :=
  (dot_S256x1024_S1024x1024_S256x1024_1_0_0_1_n_n).lhsIdx_val_of_single rfl i q
theorem dotP_rhs0 (i : S256x1024.Idx) (q : (dot_S256x1024_S1024x1024_S256x1024_1_0_0_1_n_n).contr.Idx) :
    ((dot_S256x1024_S1024x1024_S256x1024_1_0_0_1_n_n).rhsIdx i q 0).val = (q ⟨0, by decide⟩).val :=
  (dot_S256x1024_S1024x1024_S256x1024_1_0_0_1_n_n).rhsIdx_val_of_single rfl i q
theorem dotP_rhs1 (i : S256x1024.Idx) (q : (dot_S256x1024_S1024x1024_S256x1024_1_0_0_1_n_n).contr.Idx) :
    ((dot_S256x1024_S1024x1024_S256x1024_1_0_0_1_n_n).rhsIdx i q 1).val = (i 1).val := by
  unfold DotDims.rhsIdx
  rw [dif_neg (show ¬(1 : Fin S1024x1024.rank) ∈ (dot_S256x1024_S1024x1024_S256x1024_1_0_0_1_n_n).rhsBatch by decide),
    dif_pos (show (1 : Fin S1024x1024.rank) ∈ (dot_S256x1024_S1024x1024_S256x1024_1_0_0_1_n_n).rhsNonContracting by decide)]
  rfl

/-- The block product read at an entry: a sum over the 1024 shared coordinates. -/
theorem blockProduct_apply (a : FVec Ideal S256x1024 .bf16) (w : FVec Ideal S1024x1024 .bf16) (p : Fin 256) (q : Fin 1024) :
    matmul (F := Ideal) dot_S256x1024_S1024x1024_S256x1024_1_0_0_1_n_n none a w (constant S256x1024 .f32 0x00000000#32) (ix2 p q)
      = ∑ k : Fin 1024, a (ix2 p k) * w (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : (dot_S256x1024_S1024x1024_S256x1024_1_0_0_1_n_n).lhsIdx (ix2 p q) ((contrEquiv1 dot_S256x1024_S1024x1024_S256x1024_1_0_0_1_n_n 1024 rfl rfl).symm k) = ix2 p k :=
    funext fun ax => Fin.ext (by
      match ax with
      | ⟨0, _⟩ => exact dotP_lhs0 _ _
      | ⟨1, _⟩ => exact (dotP_lhs1 _ _).trans hk)
  have er : (dot_S256x1024_S1024x1024_S256x1024_1_0_0_1_n_n).rhsIdx (ix2 p q) ((contrEquiv1 dot_S256x1024_S1024x1024_S256x1024_1_0_0_1_n_n 1024 rfl rfl).symm k) = ix2 k q :=
    funext fun ax => Fin.ext (by
      match ax with
      | ⟨0, _⟩ => exact (dotP_rhs0 _ _).trans hk
      | ⟨1, _⟩ => exact dotP_rhs1 _ _)
  rw [el, er]

/-- The body's stored value at an entry of the block: the block product plus the bias row. -/
theorem k0_pay1_apply (a : Vec Ideal S256x1024 .f32) (w : Vec Ideal S1024x1024 .f32) (b : Vec Ideal S1x1024 .f32) (p : Fin 256) (q : Fin 1024) :
    k0_pay1 (F := Ideal) a w b (ix2 p q) = (∑ k : Fin 1024, a (ix2 p k) * w (ix2 k q)) + b (ix2 (0 : Fin 1) q) := by
  unfold k0_pay1
  simp only [shapeCast_self]
  show matmul (F := Ideal) dot_S256x1024_S1024x1024_S256x1024_1_0_0_1_n_n none (truncf .bf16 a bitsLt_bf16_f32) (truncf .bf16 w bitsLt_bf16_f32) (constant S256x1024 .f32 0x00000000#32) (ix2 p q)
      + broadcastTo S256x1024 b broadcasts_S1x1024_S256x1024 (ix2 p q) = _
  rw [blockProduct_apply, broadcastTo_1b_ab_apply]
  rfl

variable (V : (c : Dev nD) → (b : Ref sig .tc) → Buf (Elt Ideal) ((c : Thread nD τ).loc b))

theorem zero_offsets2 : (![0, 0] : Fin 2 → Nat) = fun _ => 0 := funext fun a => by fin_cases a <;> rfl

/-- How the four windows' block indices are related at every grid point (decided over the twelve points): the
    activation rows move with the output's rows, the weight and bias columns with the output's columns. -/
theorem proj_index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 3 ∧ win0_3.index t (1 : Fin 2) ≤ 2 :=
  (by decide +kernel : ∀ t : Fin grid0.N, _)

/-- Every block of the result array is some point's. -/
theorem proj_index_onto : ∀ (q0 : Fin 4) (q1 : Fin 3), ∃ t : Fin cfg0.N, win0_3.index t = ![q0.val, q1.val] :=
  (by decide +kernel : ∀ (q0 : Fin 4) (q1 : Fin 3), ∃ t : Fin grid0.N, win0_3.index t = ![q0.val, q1.val])

/-- The activation block at a point reads the activations at the output block's rows. -/
theorem rows_read (c : Dev nD) (t : Fin cfg0.N) (p : Fin 256) (k : Fin 1024) (n : Fin 1024)
    (hn : n.val = win0_3.index t (0 : Fin 2) * 256 + p.val) :
    blk0 V c 0 t (ix2 p k) = V c main_arg0 (ix2 n k) := by
  obtain ⟨e0, e1, -⟩ := proj_index_facts t
  show V c main_arg0 (((cfg0.win 0).blk t).view.emb (ix2 p k)) = V c main_arg0 (ix2 n k)
  refine congrArg _ (funext fun a => Fin.ext ?_)
  match a with
  | ⟨0, _⟩ => show win0_0.index t (0 : Fin 2) * 256 + 1 * p.val = n.val; omega
  | ⟨1, _⟩ => show win0_0.index t (1 : Fin 2) * 1024 + 1 * k.val = k.val; omega

/-- The weight block at a point reads the stacked weights at the output block's columns. -/
theorem weights_read (c : Dev nD) (t : Fin cfg0.N) (k : Fin 1024) (q : Fin 1024) (q' : Fin 3072)
    (hq : q'.val = win0_3.index t (1 : Fin 2) * 1024 + q.val) :
    blk0 V c 1 t (ix2 k q) = V c main_v4 (ix2 k q') := by
  obtain ⟨-, -, e2, e3, -⟩ := proj_index_facts t
  show V c main_v4 (((cfg0.win 1).blk t).view.emb (ix2 k q)) = V c main_v4 (ix2 k q')
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * q.val = q'.val; omega

/-- The bias block at a point reads the stacked bias at the output block's columns. -/
theorem bias_read (c : Dev nD) (t : Fin cfg0.N) (q : Fin 1024) (q' : Fin 3072)
    (hq : q'.val = win0_3.index t (1 : Fin 2) * 1024 + q.val) :
    blk0 V c 2 t (ix2 (0 : Fin 1) q) = V c main_v9 (ix2 (0 : Fin 1) q') := by
  obtain ⟨-, -, -, -, e4, e5, -⟩ := proj_index_facts t
  show V c main_v9 (((cfg0.win 2).blk t).view.emb (ix2 (0 : Fin 1) q)) = V c main_v9 (ix2 (0 : Fin 1) q')
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = q'.val; omega

/-- WHAT POINT `t` WRITES BACK is block `t` of the one function `affineAll` of the arrays as the call finds them. -/
theorem proj_flushed (c : Dev nD) (t : Fin cfg0.N) :
    (dat0 V c).flushed 3 t = ((cfg0.win 3).blk t).view.read (Elt Ideal) (affineAll (V c main_arg0) (V c main_v4) (V c main_v9)) := by
  show (cfg0.win 3).cut (grid0.coords t) ((dat0 V c).after 3 t) = _
  rw [after0_3]
  unfold projected
  rw [View.canon_unit_zero zero_offsets2]
  simp only [View.ld_unit_zero (S := S256x1024) zero_offsets2, View.ld_unit_zero (S := S1024x1024) zero_offsets2,
    View.ld_unit_zero (S := S1x1024) zero_offsets2]
  funext j
  show k0_pay1 (F := Ideal) (blk0 V c 0 t) (blk0 V c 1 t) (blk0 V c 2 t) j
    = affineAll (V c main_arg0) (V c main_v4) (V c main_v9) (((cfg0.win 3).blk t).view.emb j)
  have hj : (j : S256x1024.Idx) = ix2 (⟨(j 0).val, (j 0).isLt⟩ : Fin 256) (⟨(j 1).val, (j 1).isLt⟩ : Fin 1024) :=
    funext fun a => by match a with | ⟨0, _⟩ => rfl | ⟨1, _⟩ => rfl
  refine (congrArg (k0_pay1 (F := Ideal) (blk0 V c 0 t) (blk0 V c 1 t) (blk0 V c 2 t)) hj).trans ?_
  refine (k0_pay1_apply _ _ _ _ _).trans ?_
  unfold affineAll
  refine congrArg₂ (· + ·) (Finset.sum_congr rfl fun k _ => congrArg₂ (· * ·) (rows_read V c t _ k _ ?_) (weights_read V c t k _ _ ?_))
    (bias_read V c t _ _ ?_)
  · show win0_3.index t (0 : Fin 2) * 256 + 1 * (j 0).val = win0_3.index t (0 : Fin 2) * 256 + (j 0).val; omega
  · show win0_3.index t (1 : Fin 2) * 1024 + 1 * (j 1).val = win0_3.index t (1 : Fin 2) * 1024 + (j 1).val; omega
  · show win0_3.index t (1 : Fin 2) * 1024 + 1 * (j 1).val = win0_3.index t (1 : Fin 2) * 1024 + (j 1).val; omega

/-- An index of the result array is in point `t`'s block iff each coordinate is in the block's range on its axis. -/
theorem proj_mem_blk (t : Fin cfg0.N) (i : S1024x3072.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v10).slice (win0_3.rect t)).set ↔ _
  rw [View.set_slice_whole, Rect.mem_set_unit]
  exact Iff.rfl

/-- The twelve blocks cover the result array: entry (n, q) is in the block of the point with block index (n / 256, q / 1024). -/
theorem proj_cover (i : S1024x3072.Idx) :
    ∃ t : Fin cfg0.N, (cfg0.win 3).flush t = true ∧ i ∈ ((cfg0.win 3).blk t).view.set := by
  have hi0 : (i 0).val < 1024 := (i 0).isLt
  have hi1 : (i 1).val < 3072 := (i 1).isLt
  obtain ⟨t, ht⟩ := proj_index_onto ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [proj_mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- THE RESULT ARRAY after the call: rows times stacked weights plus stacked bias, of the arrays as the call finds them. -/
theorem proj_final (c : Dev nD) :
    (dat0 V c).arrAt 3 cfg0.N = affineAll (V c main_arg0) (V c main_v4) (V c main_v9) :=
  (dat0 V c).arrAt_eq_of_cover 3 _ (fun t _ => proj_flushed V c t) proj_cover

end Cert.KernelIdeal.Hand

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.LibStack3.lean ====
/-
  Three same-shape pieces joined along the first axis, read at an index: for matrices ([a, b] three times into
  [n, b]) and for vectors ([a] three times into [n]). Entry sel·a + row of the join is entry row of piece sel.
-/
import Idealize.ShloMosaic.Lib.Pipeline.Value
import Idealize.ShloMosaic.Lib.ValueIdx

namespace Cert.LibStack3

open Idealize.ShloMosaic Idealize.ShloMosaic.ValueIdx

variable {α : Type}

/-- Piece number `sel` of three. -/
def pick {β : Type} (x0 x1 x2 : β) : Fin 3 → β
  | ⟨0, _⟩ => x0
  | ⟨1, _⟩ => x1
  | ⟨2, _⟩ => x2

/-- Picking commutes with applying one function to the three pieces. -/
theorem pick_map {β γ : Type} (f : β → γ) (x0 x1 x2 : β) (sel : Fin 3) : pick (f x0) (f x1) (f x2) sel = f (pick x0 x1 x2 sel) := by
  match sel with
  | ⟨0, _⟩ => rfl
  | ⟨1, _⟩ => rfl
  | ⟨2, _⟩ => rfl

/-- Three [a, b] matrices stacked by rows into [n, b]: row sel·a + row of the stack is row `row` of piece `sel`. -/
theorem concat3_rows_apply {a b n : ℕ} (x0 x1 x2 : (⟨2, ![a, b]⟩ : Shape).Idx → α)
    (h : Shape.Concatenates [(⟨2, ![a, b]⟩ : Shape), ⟨2, ![a, b]⟩, ⟨2, ![a, b]⟩] ⟨2, ![n, b]⟩ 0)
    (sel : Fin 3) (row : Fin a) (k : Fin b) (q : Fin n) (hq : q.val = sel.val * a + row.val) :
    concatenate ⟨2, ![n, b]⟩ 0 [⟨⟨2, ![a, b]⟩, x0⟩, ⟨⟨2, ![a, b]⟩, x1⟩, ⟨⟨2, ![a, b]⟩, x2⟩] h (ix2 q k)
      = pick x0 x1 x2 sel (ix2 row k) := by
  have hi : ∀ bb : Fin (⟨2, ![a, b]⟩ : Shape).rank, bb.cast rfl ≠ (0 : Fin (⟨2, ![n, b]⟩ : Shape).rank) →
      ((ix2 row k : (⟨2, ![a, b]⟩ : Shape).Idx) bb).val = ((ix2 q k : (⟨2, ![n, b]⟩ : Shape).Idx) (bb.cast rfl)).val := by
    intro bb hb
    match bb with
    | ⟨0, _⟩ => exact absurd rfl hb
    | ⟨1, _⟩ => rfl
  match sel with
  | ⟨0, _⟩ =>
    exact concatenate_apply_piece (t := ⟨2, ![n, b]⟩) (0 : Fin 2) [⟨⟨2, ![a, b]⟩, x0⟩, ⟨⟨2, ![a, b]⟩, x1⟩, ⟨⟨2, ![a, b]⟩, x2⟩] h (ix2 q k) 0 (by simp)
      ⟨2, ![a, b]⟩ x0 rfl rfl 0 rfl (ix2 row k) hi (by show 0 + row.val = q.val; simp at hq; omega)
  | ⟨1, _⟩ =>
    exact concatenate_apply_piece (t := ⟨2, ![n, b]⟩) (0 : Fin 2) [⟨⟨2, ![a, b]⟩, x0⟩, ⟨⟨2, ![a, b]⟩, x1⟩, ⟨⟨2, ![a, b]⟩, x2⟩] h (ix2 q k) 1 (by simp)
      ⟨2, ![a, b]⟩ x1 rfl rfl a rfl (ix2 row k) hi (by show a + row.val = q.val; simp at hq; omega)
  | ⟨2, _⟩ =>
    exact concatenate_apply_piece (t := ⟨2, ![n, b]⟩) (0 : Fin 2) [⟨⟨2, ![a, b]⟩, x0⟩, ⟨⟨2, ![a, b]⟩, x1⟩, ⟨⟨2, ![a, b]⟩, x2⟩] h (ix2 q k) 2 (by simp)
      ⟨2, ![a, b]⟩ x2 rfl rfl (a + (a + 0)) rfl (ix2 row k) hi (by show a + (a + 0) + row.val = q.val; simp at hq; omega)

/-- Three [a] vectors joined into [n]: entry sel·a + row of the join is entry `row` of piece `sel`. -/
theorem concat3_vec_apply {a n : ℕ} (x0 x1 x2 : (⟨1, ![a]⟩ : Shape).Idx → α)
    (h : Shape.Concatenates [(⟨1, ![a]⟩ : Shape), ⟨1, ![a]⟩, ⟨1, ![a]⟩] ⟨1, ![n]⟩ 0)
    (sel : Fin 3) (row : Fin a) (q : Fin n) (hq : q.val = sel.val * a + row.val) :
    concatenate ⟨1, ![n]⟩ 0 [⟨⟨1, ![a]⟩, x0⟩, ⟨⟨1, ![a]⟩, x1⟩, ⟨⟨1, ![a]⟩, x2⟩] h (ix1 q)
      = pick x0 x1 x2 sel (ix1 row) := by
  have hi : ∀ bb : Fin (⟨1, ![a]⟩ : Shape).rank, bb.cast rfl ≠ (0 : Fin (⟨1, ![n]⟩ : Shape).rank) →
      ((ix1 row : (⟨1, ![a]⟩ : Shape).Idx) bb).val = ((ix1 q : (⟨1, ![n]⟩ : Shape).Idx) (bb.cast rfl)).val := by
    intro bb hb
    match bb with
    | ⟨0, _⟩ => exact absurd rfl hb
  match sel with
  | ⟨0, _⟩ =>
    exact concatenate_apply_piece (t := ⟨1, ![n]⟩) (0 : Fin 1) [⟨⟨1, ![a]⟩, x0⟩, ⟨⟨1, ![a]⟩, x1⟩, ⟨⟨1, ![a]⟩, x2⟩] h (ix1 q) 0 (by simp)
      ⟨1, ![a]⟩ x0 rfl rfl 0 rfl (ix1 row) hi (by show 0 + row.val = q.val; simp at hq; omega)
  | ⟨1, _⟩ =>
    exact concatenate_apply_piece (t := ⟨1, ![n]⟩) (0 : Fin 1) [⟨⟨1, ![a]⟩, x0⟩, ⟨⟨1, ![a]⟩, x1⟩, ⟨⟨1, ![a]⟩, x2⟩] h (ix1 q) 1 (by simp)
      ⟨1, ![a]⟩ x1 rfl rfl a rfl (ix1 row) hi (by show a + row.val = q.val; simp at hq; omega)
  | ⟨2, _⟩ =>
    exact concatenate_apply_piece (t := ⟨1, ![n]⟩) (0 : Fin 1) [⟨⟨1, ![a]⟩, x0⟩, ⟨⟨1, ![a]⟩, x1⟩, ⟨⟨1, ![a]⟩, x2⟩] h (ix1 q) 2 (by simp)
      ⟨1, ![a]⟩ x2 rfl rfl (a + (a + 0)) rfl (ix1 row) hi (by show a + (a + 0) + row.val = q.val; simp at hq; omega)

end Cert.LibStack3
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.KI.Glue.lean ====
/-
  The host lines between the calls, read entry by entry at the ideal instance. Before the projection: the
  three weight tensors [16, 64, 1024] are flattened to [1024, 1024], stacked to [3072, 1024] and transposed, so
  column sel·1024 + r·64 + d of the stacked weights is row (r, d) of tensor number sel; the biases likewise.
  After it: the projection [1024, 3072] is cut into three [1024, 1024] bands, each reshaped to [1024, 16, 64] and
  transposed to [16, 1024, 64], so keys, queries and values at (r, n, d) are the projection at row n, column
  sel·1024 + r·64 + d: the n-th activation row against row (r, d) of the sel-th weight tensor, plus its bias.
-/
import proofs.«150398_j60060822667746_2_alg».proof.Proof.KI.Bounds
import proofs.«150398_j60060822667746_2_alg».proof.Proof.KI.Value0
import proofs.«150398_j60060822667746_2_alg».proof.Proof.LibLayout3
import proofs.«150398_j60060822667746_2_alg».proof.Proof.LibStack3
import proofs.«150398_j60060822667746_2_alg».proof.Proof.LibColumn
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Idealize.ShloMosaic.StableHlo Cert.LibStack3

/-! ## The layout operations over any arrays -/

/-- A weight tensor flattened: row r·64 + d is row (r, d). -/
theorem flatW_apply (x : FVec Ideal S16x64x1024 .f32) (r : Fin 16) (d : Fin 64) (k : Fin 1024) (row : Fin 1024) (hrow : row.val = r.val * 64 + d.val) :
    shapeCast S1024x1024 x shapeCasts_S16x64x1024_S1024x1024 (ix2 row k) = x (ix3 r d k) :=
  shapeCast_abc_nc_apply x _ row k r d hrow

/-- A bias matrix flattened: entry r·64 + d is entry (r, d). -/
theorem flatB_apply (x : FVec Ideal S16x64 .f32) (r : Fin 16) (d : Fin 64) (q : Fin 1024) (hq : q.val = r.val * 64 + d.val) :
    shapeCast S1024 x shapeCasts_S16x64_S1024 (ix1 q) = x (ix2 r d) :=
  shapeCast_apply x _ _ _ (by
    rw [Shape.rowMajor_val_two, Shape.rowMajor_val_one]
    show r.val * 64 + d.val = q.val
    omega)

/-- The stacked, transposed weights at (k, sel·1024 + r·64 + d): tensor `sel` at (r, d, k). -/
theorem stackW_read (W0 W1 W2 : FVec Ideal S16x64x1024 .f32) (sel : Fin 3) (r : Fin 16) (d : Fin 64) (k : Fin 1024) (q : Fin 3072)
    (hq : q.val = sel.val * 1024 + (r.val * 64 + d.val)) :
    transpose S1024x3072 [1, 0] (concatenate S3072x1024 0
      [⟨S1024x1024, shapeCast S1024x1024 W0 shapeCasts_S16x64x1024_S1024x1024⟩,
       ⟨S1024x1024, shapeCast S1024x1024 W1 shapeCasts_S16x64x1024_S1024x1024⟩,
       ⟨S1024x1024, shapeCast S1024x1024 W2 shapeCasts_S16x64x1024_S1024x1024⟩]
      concatenates_S1024x1024_S1024x1024_S1024x1024_S3072x1024_d0) transposes_S3072x1024_S1024x3072_1_0 (ix2 k q)
      = pick W0 W1 W2 sel (ix3 r d k) := by
  have hr := r.isLt; have hd := d.isLt
  refine (transpose_ix2_apply _ _ k q).trans ?_
  refine (concat3_rows_apply _ _ _ _ sel (⟨r.val * 64 + d.val, by omega⟩ : Fin 1024) k q hq).trans ?_
  rw [pick_map (fun W : FVec Ideal S16x64x1024 .f32 => shapeCast S1024x1024 W shapeCasts_S16x64x1024_S1024x1024)]
  exact flatW_apply _ r d k _ rfl

/-- The stacked bias row at sel·1024 + r·64 + d: bias matrix `sel` at (r, d). -/
theorem stackB_read (B0 B1 B2 : FVec Ideal S16x64 .f32) (sel : Fin 3) (r : Fin 16) (d : Fin 64) (q : Fin 3072)
    (hq : q.val = sel.val * 1024 + (r.val * 64 + d.val)) :
    shapeCast S1x3072 (concatenate S3072 0
      [⟨S1024, shapeCast S1024 B0 shapeCasts_S16x64_S1024⟩,
       ⟨S1024, shapeCast S1024 B1 shapeCasts_S16x64_S1024⟩,
       ⟨S1024, shapeCast S1024 B2 shapeCasts_S16x64_S1024⟩]
      concatenates_S1024_S1024_S1024_S3072_d0) shapeCasts_S3072_S1x3072 (ix2 (0 : Fin 1) q)
      = pick B0 B1 B2 sel (ix2 r d) := by
  have hr := r.isLt; have hd := d.isLt
  refine (shapeCast_a_1a_apply _ _ (0 : Fin 1) q).trans ?_
  refine (concat3_vec_apply _ _ _ _ sel (⟨r.val * 64 + d.val, by omega⟩ : Fin 1024) q hq).trans ?_
  rw [pick_map (fun B : FVec Ideal S16x64 .f32 => shapeCast S1024 B shapeCasts_S16x64_S1024)]
  exact flatB_apply _ r d _ rfl

/-- A band of 1024 columns cut out, reshaped to [1024, 16, 64] and transposed to [16, 1024, 64], at (r, n, d): the
    source at row n, column off + r·64 + d. -/
theorem band_apply (X : FVec Ideal S1024x3072 .bf16) (off : ℕ) (h : S1024x3072.Slices ![0, off] S1024x1024)
    (r : Fin 16) (n : Fin 1024) (d : Fin 64) (q : Fin 3072) (hq : q.val = off + (r.val * 64 + d.val)) :
    transpose S16x1024x64 [1, 0, 2] (shapeCast S1024x16x64 (extractStridedSlice S1024x1024 ![0, off] X h)
      shapeCasts_S1024x1024_S1024x16x64) transposes_S1024x16x64_S16x1024x64_1_0_2 (ix3 r n d) = X (ix2 n q) := by
  have hr := r.isLt; have hd := d.isLt
  refine (transpose_apply _ _ _ (ix3 r n d) (ix3 n r d) fun b => by
    match b with | ⟨0, _⟩ => rfl | ⟨1, _⟩ => rfl | ⟨2, _⟩ => rfl).trans ?_
  refine (shapeCast_apply _ _ (ix3 n r d) (ix2 n (⟨r.val * 64 + d.val, by omega⟩ : Fin 1024)) (by
    rw [Shape.rowMajor_val_two, Shape.rowMajor_val_three]
    show n.val * 1024 + (r.val * 64 + d.val) = (n.val * 16 + r.val) * 64 + d.val
    omega)).trans ?_
  exact slice2_axis1_apply off X h n _ q hq

/-- One linear map of the activations: row n against row (r, d) of a weight tensor, plus the bias at (r, d). -/
def linear (fa : FVec Ideal S1024x1024 .f32) (W : FVec Ideal S16x64x1024 .f32) (B : FVec Ideal S16x64 .f32) (r : Fin 16) (n : Fin 1024) (d : Fin 64) : EReal :=
  (∑ f : Fin 1024, fa (ix2 n f) * W (ix3 r d f)) + B (ix2 r d)

/-- An entry of rows × stacked weights + stacked bias is one linear map of the activations. -/
theorem affine_read (fa : FVec Ideal S1024x1024 .f32) (W : FVec Ideal S1024x3072 .f32) (B : FVec Ideal S1x3072 .f32)
    (W0 W1 W2 : FVec Ideal S16x64x1024 .f32) (B0 B1 B2 : FVec Ideal S16x64 .f32) (sel : Fin 3) (r : Fin 16) (n : Fin 1024) (d : Fin 64) (q : Fin 3072)
    (hW : ∀ k : Fin 1024, W (ix2 k q) = pick W0 W1 W2 sel (ix3 r d k)) (hB : B (ix2 (0 : Fin 1) q) = pick B0 B1 B2 sel (ix2 r d)) :
    affineAll fa W B (ix2 n q) = linear fa (pick W0 W1 W2 sel) (pick B0 B1 B2 sel) r n d := by
  unfold affineAll linear
  exact congrArg₂ (· + ·) (Finset.sum_congr rfl fun k _ => congrArg₂ (· * ·) rfl (hW k)) hB

variable (m : (ℓ : Loc nD τ sig) → Buf (Elt Ideal) ℓ) (ρ : Dev nD → PrngReg)

/-- The ten argument arrays on core `c`. -/
abbrev aFa (c : Dev nD) : FVec Ideal S1024x1024 .f32 := m ((c : Thread nD τ).loc main_arg0)
abbrev aPe (c : Dev nD) : FVec Ideal S1024x1024x64 .f32 := m ((c : Thread nD τ).loc main_arg1)
abbrev aGw (c : Dev nD) : FVec Ideal S16x64 .f32 := m ((c : Thread nD τ).loc main_arg2)
abbrev aGb (c : Dev nD) : FVec Ideal S16 .f32 := m ((c : Thread nD τ).loc main_arg3)
abbrev aKw (c : Dev nD) : FVec Ideal S16x64x1024 .f32 := m ((c : Thread nD τ).loc main_arg4)
abbrev aKb (c : Dev nD) : FVec Ideal S16x64 .f32 := m ((c : Thread nD τ).loc main_arg5)
abbrev aQw (c : Dev nD) : FVec Ideal S16x64x1024 .f32 := m ((c : Thread nD τ).loc main_arg6)
abbrev aQb (c : Dev nD) : FVec Ideal S16x64 .f32 := m ((c : Thread nD τ).loc main_arg7)
abbrev aVw (c : Dev nD) : FVec Ideal S16x64x1024 .f32 := m ((c : Thread nD τ).loc main_arg8)
abbrev aVb (c : Dev nD) : FVec Ideal S16x64 .f32 := m ((c : Thread nD τ).loc main_arg9)

/-! ## Before the projection call -/

theorem stackedW_eq (c : Dev nD) : Vproj m ρ c main_v4 = transpose S1024x3072 [1, 0] (concatenate S3072x1024 0
    [⟨S1024x1024, shapeCast S1024x1024 (aKw m c) shapeCasts_S16x64x1024_S1024x1024⟩,
     ⟨S1024x1024, shapeCast S1024x1024 (aQw m c) shapeCasts_S16x64x1024_S1024x1024⟩,
     ⟨S1024x1024, shapeCast S1024x1024 (aVw m c) shapeCasts_S16x64x1024_S1024x1024⟩]
      concatenates_S1024x1024_S1024x1024_S1024x1024_S3072x1024_d0) transposes_S3072x1024_S1024x3072_1_0 := by
  show StableHlo.after hostOps0 _ (Proc.devRef .tc main_v4) = _
  after_results
  show transpose S1024x3072 [1, 0] (concatenate S3072x1024 0
    [⟨S1024x1024, (reshape main_arg8 main_v2 _ _ _ _).result _ (Proc.devRef .tc main_v0)⟩,
     ⟨S1024x1024, (reshape main_arg8 main_v2 _ _ _ _).result _ (Proc.devRef .tc main_v1)⟩,
     ⟨S1024x1024, (reshape main_arg8 main_v2 _ _ _ _).result _ (Proc.devRef .tc main_v2)⟩] _) _ = _
  after_results
  rfl

theorem stackedB_eq (c : Dev nD) : Vproj m ρ c main_v9 = shapeCast S1x3072 (concatenate S3072 0
    [⟨S1024, shapeCast S1024 (aKb m c) shapeCasts_S16x64_S1024⟩,
     ⟨S1024, shapeCast S1024 (aQb m c) shapeCasts_S16x64_S1024⟩,
     ⟨S1024, shapeCast S1024 (aVb m c) shapeCasts_S16x64_S1024⟩]
      concatenates_S1024_S1024_S1024_S3072_d0) shapeCasts_S3072_S1x3072 := by
  show StableHlo.after hostOps0 _ (Proc.devRef .tc main_v9) = _
  after_results
  beta_reduce
  after_results
  rfl

theorem rows_kept (c : Dev nD) : Vproj m ρ c main_arg0 = aFa m c := by
  show StableHlo.after hostOps0 _ (Proc.devRef .tc main_arg0) = _
  after_results

/-! ## After the projection call -/

theorem projection_eq (c : Dev nD) : afterProj m ρ c (Proc.devRef .tc main_v10)
    = affineAll (Vproj m ρ c main_arg0) (Vproj m ρ c main_v4) (Vproj m ρ c main_v9) :=
  (afterProj_arr m ρ c 3).trans (proj_final (Vproj m ρ) c)

/-- One entry of the projection: activation row n against row (r, d) of tensor `sel`, plus its bias. -/
theorem projection_apply (c : Dev nD) (sel : Fin 3) (r : Fin 16) (n : Fin 1024) (d : Fin 64) (q : Fin 3072)
    (hq : q.val = sel.val * 1024 + (r.val * 64 + d.val)) :
    afterProj m ρ c (Proc.devRef .tc main_v10) (ix2 n q)
      = linear (aFa m c) (pick (aKw m c) (aQw m c) (aVw m c) sel) (pick (aKb m c) (aQb m c) (aVb m c) sel) r n d := by
  refine (congrFun (projection_eq m ρ c) (ix2 n q)).trans ?_
  rw [rows_kept]
  refine affine_read _ _ _ _ _ _ _ _ _ sel r n d q (fun k => ?_) ?_
  · exact (congrFun (stackedW_eq m ρ c) (ix2 k q)).trans (stackW_read _ _ _ sel r d k q hq)
  · exact (congrFun (stackedB_eq m ρ c) (ix2 (0 : Fin 1) q)).trans (stackB_read _ _ _ sel r d q hq)

theorem keys_eq (c : Dev nD) : Vattn m ρ c main_v15 = transpose S16x1024x64 [1, 0, 2] (shapeCast S1024x16x64
    (extractStridedSlice S1024x1024 ![0, 0] (afterProj m ρ c (Proc.devRef .tc main_v10)) slices_S1024x3072_S1024x1024_0_0)
      shapeCasts_S1024x1024_S1024x16x64) transposes_S1024x16x64_S16x1024x64_1_0_2 := by
  show StableHlo.after hostOps1 _ (Proc.devRef .tc main_v15) = _
  after_results
  rfl
theorem queries_eq (c : Dev nD) : Vattn m ρ c main_v17 = transpose S16x1024x64 [1, 0, 2] (shapeCast S1024x16x64
    (extractStridedSlice S1024x1024 ![0, 1024] (afterProj m ρ c (Proc.devRef .tc main_v10)) slices_S1024x3072_S1024x1024_0_1024)
      shapeCasts_S1024x1024_S1024x16x64) transposes_S1024x16x64_S16x1024x64_1_0_2 := by
  show StableHlo.after hostOps1 _ (Proc.devRef .tc main_v17) = _
  after_results
  rfl
theorem values_eq (c : Dev nD) : Vattn m ρ c main_v19 = transpose S16x1024x64 [1, 0, 2] (shapeCast S1024x16x64
    (extractStridedSlice S1024x1024 ![0, 2048] (afterProj m ρ c (Proc.devRef .tc main_v10)) slices_S1024x3072_S1024x1024_0_2048)
      shapeCasts_S1024x1024_S1024x16x64) transposes_S1024x16x64_S16x1024x64_1_0_2 := by
  show StableHlo.after hostOps1 _ (Proc.devRef .tc main_v19) = _
  after_results
  rfl

/-- Keys, queries and values as the attention call finds them. -/
theorem keys_apply (c : Dev nD) (r : Fin 16) (n : Fin 1024) (d : Fin 64) :
    Vattn m ρ c main_v15 (ix3 r n d) = linear (aFa m c) (aKw m c) (aKb m c) r n d := by
  have hr := r.isLt; have hd := d.isLt
  refine (congrFun (keys_eq m ρ c) (ix3 r n d)).trans ?_
  refine (band_apply _ 0 _ r n d (⟨0 + (r.val * 64 + d.val), by omega⟩ : Fin 3072) rfl).trans ?_
  exact projection_apply m ρ c (0 : Fin 3) r n d (⟨0 + (r.val * 64 + d.val), by omega⟩ : Fin 3072) rfl
theorem queries_apply (c : Dev nD) (r : Fin 16) (n : Fin 1024) (d : Fin 64) :
    Vattn m ρ c main_v17 (ix3 r n d) = linear (aFa m c) (aQw m c) (aQb m c) r n d := by
  have hr := r.isLt; have hd := d.isLt
  refine (congrFun (queries_eq m ρ c) (ix3 r n d)).trans ?_
  refine (band_apply _ 1024 _ r n d (⟨1024 + (r.val * 64 + d.val), by omega⟩ : Fin 3072) rfl).trans ?_
  exact projection_apply m ρ c (1 : Fin 3) r n d (⟨1024 + (r.val * 64 + d.val), by omega⟩ : Fin 3072) (by show 1024 + (r.val * 64 + d.val) = 1 * 1024 + (r.val * 64 + d.val); omega)
theorem values_apply (c : Dev nD) (r : Fin 16) (n : Fin 1024) (d : Fin 64) :
    Vattn m ρ c main_v19 (ix3 r n d) = linear (aFa m c) (aVw m c) (aVb m c) r n d := by
  have hr := r.isLt; have hd := d.isLt
  refine (congrFun (values_eq m ρ c) (ix3 r n d)).trans ?_
  refine (band_apply _ 2048 _ r n d (⟨2048 + (r.val * 64 + d.val), by omega⟩ : Fin 3072) rfl).trans ?_
  exact projection_apply m ρ c (2 : Fin 3) r n d (⟨2048 + (r.val * 64 + d.val), by omega⟩ : Fin 3072) (by show 2048 + (r.val * 64 + d.val) = 2 * 1024 + (r.val * 64 + d.val); omega)

/-- The gate's bias as a column. -/
theorem gateBias_eq (c : Dev nD) : Vattn m ρ c main_v20 = shapeCast S16x1 (aGb m c) shapeCasts_S16_S16x1 := by
  show StableHlo.after hostOps1 _ (Proc.devRef .tc main_v20) = _
  after_results
  rw [afterProj_of_ne m ρ c main_arg3 (by decide)]
  show (fun i => shapeCast S16x1 (StableHlo.after hostOps0 (atLaunch m ρ c) (Proc.devRef .tc main_arg3)) shapeCasts_S16_S16x1 i) = _
  after_results
theorem gateBias_apply (c : Dev nD) (r : Fin 16) : Vattn m ρ c main_v20 (ix2 r (0 : Fin 1)) = aGb m c (ix1 r) :=
  (congrFun (gateBias_eq m ρ c) (ix2 r (0 : Fin 1))).trans (Cert.LibColumn.shapeCast_a_a1_apply _ _ r (0 : Fin 1))

/-- The arguments the attention call reads directly are as launched. -/
theorem attn_pe (c : Dev nD) : Vattn m ρ c main_arg1 = aPe m c := by
  show StableHlo.after hostOps1 _ (Proc.devRef .tc main_arg1) = _
  after_results
  rw [afterProj_of_ne m ρ c main_arg1 (by decide)]
  show StableHlo.after hostOps0 _ (Proc.devRef .tc main_arg1) = _
  after_results
theorem attn_gw (c : Dev nD) : Vattn m ρ c main_arg2 = aGw m c := by
  show StableHlo.after hostOps1 _ (Proc.devRef .tc main_arg2) = _
  after_results
  rw [afterProj_of_ne m ρ c main_arg2 (by decide)]
  show StableHlo.after hostOps0 _ (Proc.devRef .tc main_arg2) = _
  after_results
theorem attn_fa (c : Dev nD) : Vattn m ρ c main_arg0 = aFa m c := by
  show StableHlo.after hostOps1 _ (Proc.devRef .tc main_arg0) = _
  after_results
  exact ((afterProj_arr m ρ c 0).trans (((dat0 (Vproj m ρ) c).arrAt_in 0 rfl _).trans (A_eq0 (Vproj m ρ) c 0))).trans (rows_kept m ρ c)

end Cert.KernelIdeal.Hand

end
-- ==== Proof.LibBatchDot.lean ====
/-
  Batched products and rank-3 layout reads at the ideal values, index by index:
  * a stack of products against transposes, [B, M, K] with [B, N, K] into [B, M, N] (rows against rows);
  * a stack of plain products, [B, M, K] with [B, K, N] into [B, M, N];
  * the maximum over the last axis of a rank-3 array as a fold of max;
  * the casts [a, b·c] to [a, b, c] and back, and the transpose that swaps the first two of three axes.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibBatchDot

open Idealize.ShloMosaic Idealize.ShloMosaic.ValueIdx

/-- Rows against rows, slab by slab: entry (b, p, j) is the sum over k of A (b, p, k) · B (b, j, k). -/
theorem bmmNT_apply {B M K N : ℕ} {φ₁ φ₂ : FTy}
    (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision)
    (lhs : FVec Ideal ⟨3, ![B, M, K]⟩ φ₁) (rhs : FVec Ideal ⟨3, ![B, N, K]⟩ φ₂) (b : Fin B) (p : Fin M) (j : Fin N) :
    matmul D prec lhs rhs (constant ⟨3, ![B, M, N]⟩ .f32 0x00000000#32) (ix3 b p j)
      = ∑ k : Fin K, lhs (ix3 b p k) * rhs (ix3 b j k) := by
  obtain ⟨lc, rc, ln, rn, lb, rb, wf⟩ := D
  dsimp only at hlc hrc hln hrn hlb hrb
  subst hlc hrc hln hrn hlb hrb
  set D : DotDims ⟨3, ![B, M, K]⟩ ⟨3, ![B, N, K]⟩ ⟨3, ![B, M, N]⟩ := ⟨[2], [2], [1], [1], [0], [0], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix3 b p j) ((contrEquiv1 D K rfl rfl).symm k) = ix3 b p k := funext fun a => Fin.ext (by
    match a with
    | ⟨0, _⟩ =>
      show (D.lhsIdx (ix3 b p j) _ 0).val = b.val
      unfold DotDims.lhsIdx
      rw [dif_pos (show (0 : Fin (⟨3, ![B, M, K]⟩ : Shape).rank) ∈ D.lhsBatch from List.mem_singleton.mpr rfl)]
      rfl
    | ⟨1, _⟩ =>
      show (D.lhsIdx (ix3 b p j) _ 1).val = p.val
      unfold DotDims.lhsIdx
      rw [dif_neg (show ¬(1 : Fin 3) ∈ ([0] : List (Fin 3)) by decide),
        dif_pos (show (1 : Fin (⟨3, ![B, M, K]⟩ : Shape).rank) ∈ D.lhsNonContracting from List.mem_singleton.mpr rfl)]
      rfl
    | ⟨2, _⟩ => exact (D.lhsIdx_val_of_single rfl (ix3 b p j) _).trans hk)
  have er : D.rhsIdx (ix3 b p j) ((contrEquiv1 D K rfl rfl).symm k) = ix3 b j k := funext fun a => Fin.ext (by
    match a with
    | ⟨0, _⟩ =>
      show (D.rhsIdx (ix3 b p j) _ 0).val = b.val
      unfold DotDims.rhsIdx
      rw [dif_pos (show (0 : Fin (⟨3, ![B, N, K]⟩ : Shape).rank) ∈ D.rhsBatch from List.mem_singleton.mpr rfl)]
      rfl
    | ⟨1, _⟩ =>
      show (D.rhsIdx (ix3 b p j) _ 1).val = j.val
      unfold DotDims.rhsIdx
      rw [dif_neg (show ¬(1 : Fin 3) ∈ ([0] : List (Fin 3)) by decide),
        dif_pos (show (1 : Fin (⟨3, ![B, N, K]⟩ : Shape).rank) ∈ D.rhsNonContracting from List.mem_singleton.mpr rfl)]
      rfl
    | ⟨2, _⟩ => exact (D.rhsIdx_val_of_single rfl (ix3 b p j) _).trans hk)
  rw [el, er]

/-- Plain products, slab by slab: entry (b, p, j) is the sum over k of A (b, p, k) · B (b, k, j). -/
theorem bmmNN_apply {B M K N : ℕ} {φ₁ φ₂ : FTy}
    (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (prec : Option ContractPrecision)
    (lhs : FVec Ideal ⟨3, ![B, M, K]⟩ φ₁) (rhs : FVec Ideal ⟨3, ![B, K, N]⟩ φ₂) (b : Fin B) (p : Fin M) (j : Fin N) :
    matmul D prec lhs rhs (constant ⟨3, ![B, M, N]⟩ .f32 0x00000000#32) (ix3 b p j)
      = ∑ k : Fin K, lhs (ix3 b p k) * rhs (ix3 b k j) := by
  obtain ⟨lc, rc, ln, rn, lb, rb, wf⟩ := D
  dsimp only at hlc hrc hln hrn hlb hrb
  subst hlc hrc hln hrn hlb hrb
  set D : DotDims ⟨3, ![B, M, K]⟩ ⟨3, ![B, K, N]⟩ ⟨3, ![B, M, N]⟩ := ⟨[2], [1], [1], [2], [0], [0], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix3 b p j) ((contrEquiv1 D K rfl rfl).symm k) = ix3 b p k := funext fun a => Fin.ext (by
    match a with
    | ⟨0, _⟩ =>
      show (D.lhsIdx (ix3 b p j) _ 0).val = b.val
      unfold DotDims.lhsIdx
      rw [dif_pos (show (0 : Fin (⟨3, ![B, M, K]⟩ : Shape).rank) ∈ D.lhsBatch from List.mem_singleton.mpr rfl)]
      rfl
    | ⟨1, _⟩ =>
      show (D.lhsIdx (ix3 b p j) _ 1).val = p.val
      unfold DotDims.lhsIdx
      rw [dif_neg (show ¬(1 : Fin 3) ∈ ([0] : List (Fin 3)) by decide),
        dif_pos (show (1 : Fin (⟨3, ![B, M, K]⟩ : Shape).rank) ∈ D.lhsNonContracting from List.mem_singleton.mpr rfl)]
      rfl
    | ⟨2, _⟩ => exact (D.lhsIdx_val_of_single rfl (ix3 b p j) _).trans hk)
  have er : D.rhsIdx (ix3 b p j) ((contrEquiv1 D K rfl rfl).symm k) = ix3 b k j := funext fun a => Fin.ext (by
    match a with
    | ⟨0, _⟩ =>
      show (D.rhsIdx (ix3 b p j) _ 0).val = b.val
      unfold DotDims.rhsIdx
      rw [dif_pos (show (0 : Fin (⟨3, ![B, K, N]⟩ : Shape).rank) ∈ D.rhsBatch from List.mem_singleton.mpr rfl)]
      rfl
    | ⟨1, _⟩ => exact (D.rhsIdx_val_of_single rfl (ix3 b p j) _).trans hk
    | ⟨2, _⟩ =>
      show (D.rhsIdx (ix3 b p j) _ 2).val = j.val
      unfold DotDims.rhsIdx
      rw [dif_neg (show ¬(2 : Fin 3) ∈ ([0] : List (Fin 3)) by decide),
        dif_pos (show (2 : Fin (⟨3, ![B, K, N]⟩ : Shape).rank) ∈ D.rhsNonContracting from List.mem_singleton.mpr rfl)]
      rfl)
  rw [el, er]

variable {φ : FTy}

theorem lift_last3' {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

/-- The maximum over the last axis of an [a, b, c] array, at (p, q): the fold of max, from the accumulator's value,
    over the entries (p, q, k). -/
theorem max_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (p : Fin a) (q : Fin b) :
    multiReduction .maximumf [2] ⟨2, ![a, b]⟩ src acc h hφ hacc (ix2 p q)
      = (Finset.univ : Finset (Fin c)).fold max (Ideal.ofBits φ acc) (fun k : Fin c => src (ix3 p q k)) := by
  refine (Ideal.multiReduction_maximumf_single src acc h hφ hacc (ix2 p q)).trans ?_
  have hf : (src ∘ h.lift (ix2 p q)) = fun k : Fin c => src (ix3 p q k) := funext fun k => congrArg src (lift_last3' h p q k)
  exact congrArg (fun f => Finset.fold max (Ideal.ofBits φ acc) f (Finset.univ : Finset (Fin c))) hf

variable {α : Type}

/-- An [a, n] array cast to [a, b, c] (so n = b · c) reads, at (p, q, k), the operand at (p, q · c + k). -/
theorem shapeCast_an_abc_apply {a b c n : ℕ} (x : (⟨2, ![a, n]⟩ : Shape).Idx → α)
    (h : (⟨2, ![a, n]⟩ : Shape).ShapeCasts ⟨3, ![a, b, c]⟩) (hn : n = b * c) (p : Fin a) (q : Fin b) (k : Fin c) (col : Fin n)
    (hcol : col.val = q.val * c + k.val) :
    shapeCast ⟨3, ![a, b, c]⟩ x h (ix3 p q k) = x (ix2 p col) :=
  shapeCast_apply x h _ _ (by
    rw [Shape.rowMajor_val_two, Shape.rowMajor_val_three]
    show p.val * n + col.val = (p.val * b + q.val) * c + k.val
    rw [hcol, hn, Nat.add_mul, Nat.mul_assoc, Nat.add_assoc])

/-- An [a, b, c] array cast to [a, n] (so n = b · c) reads, at (p, q · c + k), the operand at (p, q, k). -/
theorem shapeCast_abc_an_apply {a b c n : ℕ} (x : (⟨3, ![a, b, c]⟩ : Shape).Idx → α)
    (h : (⟨3, ![a, b, c]⟩ : Shape).ShapeCasts ⟨2, ![a, n]⟩) (hn : n = b * c) (p : Fin a) (q : Fin b) (k : Fin c) (col : Fin n)
    (hcol : col.val = q.val * c + k.val) :
    shapeCast ⟨2, ![a, n]⟩ x h (ix2 p col) = x (ix3 p q k) :=
  shapeCast_apply x h _ _ (by
    rw [Shape.rowMajor_val_three, Shape.rowMajor_val_two]
    show (p.val * b + q.val) * c + k.val = p.val * n + col.val
    rw [hcol, hn, Nat.add_mul, Nat.mul_assoc, Nat.add_assoc])

/-- Three axes with the first two swapped: the result at (q, p, k) is the operand at (p, q, k). -/
theorem transpose_102_apply {a b c : ℕ} (x : (⟨3, ![a, b, c]⟩ : Shape).Idx → α)
    (h : (⟨3, ![a, b, c]⟩ : Shape).Transposes [1, 0, 2] ⟨3, ![b, a, c]⟩) (q : Fin b) (p : Fin a) (k : Fin c) :
    transpose ⟨3, ![b, a, c]⟩ [1, 0, 2] x h (ix3 q p k) = x (ix3 p q k) :=
  transpose_apply _ x h _ _ fun ax => match ax with | ⟨0, _⟩ => rfl | ⟨1, _⟩ => rfl | ⟨2, _⟩ => rfl

end Cert.LibBatchDot

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.KI.AttnPayloads.lean ====
/-
  The attention body's arithmetic at the ideal values, entry by entry. For one grid point, with the blocks it
  loads: the gate is max(Σ_g w(r,g)·pe(x,y,g) + b(r), floor); the scaled score is (Σ_d k(r,x,d)·q(r,y,d))·(1/8 word);
  the new running maximum is max(old, max_y score); the correction is exp(old − new); each weight is
  gate·exp(score − new); the running sum and the accumulator are correction·old + Σ_y weight (· value); and the
  last point stores accumulator·(1/sum) with the relation axis moved inside the row, plus the residual row.
-/
import proofs.«150398_j60060822667746_2_alg».proof.Proof.Gen.KernelIdeal.Skeleton
import proofs.«150398_j60060822667746_2_alg».proof.Proof.LibBatchDot
import proofs.«150398_j60060822667746_2_alg».proof.Proof.LibKeepdims
import proofs.«150398_j60060822667746_2_alg».proof.Proof.LibColumn
import proofs.«150398_j60060822667746_2_alg».proof.Proof.LibDotNT
import proofs.«150398_j60060822667746_2_alg».proof.Proof.LibLayout3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-- The floor under the gate, the scale of the scores, the start of the running maximum and the literal one: the
    kernel's words, never evaluated here. -/
def gateFloor : EReal := Ideal.ofBits .f32 0x358637BD#32
def scoreScale : EReal := Ideal.ofBits .f32 0x3E000000#32
def maxStart : EReal := Ideal.ofBits .f32 0xFF800000#32
def oneWord : EReal := Ideal.ofBits .f32 0x3F800000#32

theorem gate_apply (v3 : Vec Ideal S128x128x64 .f32) (v6 : Vec Ideal S16x64 .f32) (v9 : Vec Ideal S16x1 .f32)
    (r : Fin 16) (x y : Fin 128) :
    k1_pay10 (F := Ideal) v3 v6 v9 (ix3 r x y)
      = max ((∑ g : Fin 64, v6 (ix2 r g) * v3 (ix3 x y g)) + v9 (ix2 r (0 : Fin 1))) gateFloor := by
  have hx := x.isLt; have hy := y.isLt
  unfold k1_pay10
  simp only [shapeCast_self]
  show max (shapeCast S16x128x128 (addf (matmul (F := Ideal) dot_S16x64_S16384x64_S16x16384_1_1_0_0_n_n none (truncf .bf16 v6 bitsLt_bf16_f32)
      (shapeCast S16384x64 (truncf .bf16 v3 bitsLt_bf16_f32) shapeCasts_S128x128x64_S16384x64) (constant S16x16384 .f32 0x00000000#32))
      (broadcastTo S16x16384 v9 broadcasts_S16x1_S16x16384)) shapeCasts_S16x16384_S16x128x128 (ix3 r x y)) gateFloor = _
  refine congrArg (fun z => max z gateFloor) ?_
  refine (Cert.LibBatchDot.shapeCast_an_abc_apply _ _ (by rfl) r x y (⟨x.val * 128 + y.val, by omega⟩ : Fin 16384) rfl).trans ?_
  refine congrArg₂ (· + ·) ?_ (Cert.LibColumn.broadcastTo_a1_ab_apply _ _ _ _)
  refine (Cert.LibDotNT.matmulNT_apply _ rfl rfl rfl rfl rfl rfl none _ _ _ _).trans ?_
  exact Finset.sum_congr rfl fun g _ => congrArg₂ (· * ·) rfl (shapeCast_abc_nc_apply _ _ _ g x y rfl)

theorem score_apply (v16 v18 : Vec Ideal S16x128x64 .bf16) (r : Fin 16) (x y : Fin 128) :
    k1_pay12 (F := Ideal) v16 v18 (ix3 r x y) = (∑ d : Fin 64, v16 (ix3 r x d) * v18 (ix3 r y d)) * scoreScale := by
  unfold k1_pay12
  simp only [shapeCast_self]
  show matmul (F := Ideal) dot_S16x128x64_S16x128x64_S16x128x128_2_2_1_1_0_0 none v16 v18 (constant S16x128x128 .f32 0x00000000#32) (ix3 r x y) * scoreScale = _
  exact congrArg (· * scoreScale) (Cert.LibBatchDot.bmmNT_apply _ rfl rfl rfl rfl rfl rfl _ _ _ _ _ _)

theorem rowmax_apply (v16 v18 : Vec Ideal S16x128x64 .bf16) (v27 : Vec Ideal S16x128x1 .f32) (r : Fin 16) (x : Fin 128) (u : Fin 1) :
    k1_pay13 (F := Ideal) v16 v18 v27 (ix3 r x u)
      = max (v27 (ix3 r x u)) ((Finset.univ : Finset (Fin 128)).fold max maxStart (fun y => k1_pay12 (F := Ideal) v16 v18 (ix3 r x y))) := by
  unfold k1_pay13
  show max (v27 (ix3 r x u)) (shapeCast S16x128x1 (multiReduction .maximumf [2] S16x128 (k1_pay12 (F := Ideal) v16 v18) 0xFF800000#32
      reduces_S16x128x128_S16x128 (.inl rfl) rfl) shapeCasts_S16x128_S16x128x1 (ix3 r x u)) = _
  refine congrArg (max _) ?_
  refine (Cert.LibKeepdims.shapeCast_ab_ab1_apply _ _ r x u).trans ?_
  exact Cert.LibBatchDot.max_last3_apply _ _ _ _ _ r x

theorem correction_apply (v28 : FVec Ideal S16x128x1 .f32) (v29 : Vec Ideal S16x128x1 .f32) (i : S16x128x1.Idx) :
    k1_pay1 (F := Ideal) v28 v29 i = Ideal.exp (v29 i - v28 i) := rfl

theorem weight_apply (v15 v24 : FVec Ideal S16x128x128 .f32) (v28 : FVec Ideal S16x128x1 .f32) (r : Fin 16) (x y : Fin 128) :
    k1_pay2 (F := Ideal) v15 v24 v28 (ix3 r x y) = v15 (ix3 r x y) * Ideal.exp (v24 (ix3 r x y) - v28 (ix3 r x (0 : Fin 1))) := by
  unfold k1_pay2
  show v15 (ix3 r x y) * Ideal.exp (v24 (ix3 r x y) - broadcastTo S16x128x128 v28 broadcasts_S16x128x1_S16x128x128 (ix3 r x y)) = _
  rw [Cert.LibKeepdims.broadcastTo_ab1_abc_apply]

theorem runsum_apply (v15 v24 : FVec Ideal S16x128x128 .f32) (v28 : FVec Ideal S16x128x1 .f32) (v29 v36 : Vec Ideal S16x128x1 .f32)
    (r : Fin 16) (x : Fin 128) (u : Fin 1) :
    k1_pay3 (F := Ideal) v15 v24 v28 v29 v36 (ix3 r x u)
      = Ideal.exp (v29 (ix3 r x u) - v28 (ix3 r x u)) * v36 (ix3 r x u) + ∑ y : Fin 128, k1_pay2 (F := Ideal) v15 v24 v28 (ix3 r x y) := by
  unfold k1_pay3
  simp only [shapeCast_self]
  show k1_pay1 (F := Ideal) v28 v29 (ix3 r x u) * v36 (ix3 r x u) + shapeCast S16x128x1 (multiReduction .add [2] S16x128 (k1_pay2 (F := Ideal) v15 v24 v28) 0x00000000#32
      reduces_S16x128x128_S16x128 (.inl rfl) rfl) shapeCasts_S16x128_S16x128x1 (ix3 r x u) = _
  refine congrArg₂ (· + ·) rfl ?_
  refine (Cert.LibKeepdims.shapeCast_ab_ab1_apply _ _ r x u).trans ?_
  exact Cert.LibKeepdims.sum_last3_apply _ _ _ _ _ r x

theorem accum_apply (v15 v24 : FVec Ideal S16x128x128 .f32) (v21 : FVec Ideal S16x128x64 .bf16) (v28 : FVec Ideal S16x128x1 .f32)
    (v29 : Vec Ideal S16x128x1 .f32) (v44 : Vec Ideal S16x128x64 .f32) (r : Fin 16) (x : Fin 128) (d : Fin 64) :
    k1_pay4 (F := Ideal) v15 v21 v24 v28 v29 v44 (ix3 r x d)
      = Ideal.exp (v29 (ix3 r x (0 : Fin 1)) - v28 (ix3 r x (0 : Fin 1))) * v44 (ix3 r x d)
        + ∑ y : Fin 128, k1_pay2 (F := Ideal) v15 v24 v28 (ix3 r x y) * v21 (ix3 r y d) := by
  unfold k1_pay4
  simp only [shapeCast_self]
  show broadcastTo S16x128x64 (k1_pay1 (F := Ideal) v28 v29) broadcasts_S16x128x1_S16x128x64 (ix3 r x d) * v44 (ix3 r x d)
      + matmul (F := Ideal) dot_S16x128x128_S16x128x64_S16x128x64_2_1_1_2_0_0 none (truncf .bf16 (k1_pay2 (F := Ideal) v15 v24 v28) bitsLt_bf16_f32) v21
          (constant S16x128x64 .f32 0x00000000#32) (ix3 r x d) = _
  refine congrArg₂ (· + ·) (congrArg (· * v44 (ix3 r x d)) (Cert.LibKeepdims.broadcastTo_ab1_abc_apply _ _ r x d)) ?_
  exact Cert.LibBatchDot.bmmNN_apply _ rfl rfl rfl rfl rfl rfl _ _ _ _ _ _

theorem finish_apply (v59 : Vec Ideal S16x128x64 .f32) (v60 : Vec Ideal S16x128x1 .f32) (v67 : Vec Ideal S128x1024 .f32)
    (r : Fin 16) (x : Fin 128) (d : Fin 64) (q : Fin 1024) (hq : q.val = r.val * 64 + d.val) :
    k1_pay6 (F := Ideal) v59 v60 v67 (ix2 x q)
      = v59 (ix3 r x d) * Ideal.div oneWord (v60 (ix3 r x (0 : Fin 1))) + v67 (ix2 x q) := by
  unfold k1_pay6
  show shapeCast S128x1024 (transpose S128x16x64 [1, 0, 2] (mulf (F := Ideal) v59 (broadcastTo S16x128x64 (divf (F := Ideal) (broadcast S16x128x1 (Scalar.ofBits (F := Ideal) .f32 0x3F800000#32)) v60)
      broadcasts_S16x128x1_S16x128x64)) transposes_S16x128x64_p1_0_2_S128x16x64) shapeCasts_S128x16x64_S128x1024 (ix2 x q) + v67 (ix2 x q) = _
  refine congrArg (· + v67 (ix2 x q)) ?_
  refine (Cert.LibBatchDot.shapeCast_abc_an_apply _ _ (by rfl) x r d q hq).trans ?_
  refine (Cert.LibBatchDot.transpose_102_apply _ _ x r d).trans ?_
  show v59 (ix3 r x d) * broadcastTo S16x128x64 (divf (F := Ideal) (broadcast S16x128x1 (Scalar.ofBits (F := Ideal) .f32 0x3F800000#32)) v60) broadcasts_S16x128x1_S16x128x64 (ix3 r x d) = _
  exact congrArg (v59 (ix3 r x d) * ·) (Cert.LibKeepdims.broadcastTo_ab1_abc_apply _ _ r x d)

theorem maxStart_apply (i : S16x128x1.Idx) : k1_pay7 (F := Ideal) i = maxStart := by
  unfold k1_pay7; simp only [shapeCast_self]; rfl
theorem sumStart_apply (i : S16x128x1.Idx) : k1_pay8 (F := Ideal) i = 0 := by
  unfold k1_pay8; simp only [shapeCast_self]; exact Ideal.ofBits_zero_f32
theorem accStart_apply (i : S16x128x64.Idx) : k1_pay9 (F := Ideal) i = 0 := by
  unfold k1_pay9; simp only [shapeCast_self]; exact Ideal.ofBits_zero_f32
theorem keepMax_eq (v28 : FVec Ideal S16x128x1 .f32) : k1_pay5 (F := Ideal) v28 = v28 := by
  unfold k1_pay5; simp only [shapeCast_self]
theorem values_eq' (v20 : Vec Ideal S16x128x64 .bf16) : k1_pay11 (F := Ideal) v20 = v20 := by
  unfold k1_pay11; simp only [shapeCast_self]

end Cert.KernelIdeal.Hand

end
-- ==== Proof.Spec.lean ====
/-
  The result of the relation-attention layer, as one function of its ten argument arrays.

  For relation `r`, rows `n`, columns `m`, features `d`:

      K r n d  = ∑ f, f_a[n, f] * WK_w[r, d, f] + WK_b[r, d]            (Q and V alike, from WQ and WV)
      geo r n m = ∑ g, WG_w[r, g] * pe[n, m, g] + WG_b[r]
      gate r n m = max (geo r n m) c,   c the single-precision word 0x358637BD (about 1e-6), a positive real
      score r n m = (∑ d, K r n d * Q r m d) * (1/8)
      attn r n d = (∑ m, gate r n m * exp (score r n m) * V r m d) * (1 / ∑ m, gate r n m * exp (score r n m))
      out[n, r * 64 + d] = attn r n d + f_a[n, r * 64 + d].

  The mean is written with NO shift of the scores: for real entries subtracting any real number from every score of a row
  changes neither side of the quotient's value, which is what the laws on the gated mean use. Also here: under the
  hypothesis that every entry of every argument is a real number, the projections, the gate, the scores are reals and the
  gate is positive; and the constants `1/8`, `√64 = 8`, `0 < c`.
-/
import Idealize.ShloMosaic.PureOps.Ideal
import Idealize.ShloMosaic.Lib.ValueIdx
import Mathlib.Analysis.SpecialFunctions.Pow.Real

noncomputable section

open Idealize.ShloMosaic Idealize.ShloMosaic.ValueIdx
open scoped BigOperators

namespace Cert.Spec

/-- `f_a` and the result: 1024 rows of 1024 features. -/
abbrev Sfa : Shape := ⟨2, ![1024, 1024]⟩
/-- The position embedding: rows, columns, 64 features. -/
abbrev Spe : Shape := ⟨3, ![1024, 1024, 64]⟩
/-- The gate's weights, and a projection's bias: 16 relations by 64 features. -/
abbrev Srd : Shape := ⟨2, ![16, 64]⟩
/-- The gate's bias: one per relation. -/
abbrev Sr : Shape := ⟨1, ![16]⟩
/-- A projection's weights: relation, output feature, input feature. -/
abbrev Srdf : Shape := ⟨3, ![16, 64, 1024]⟩

/-- The lower clip of the gate: the single-precision word `0x358637BD`. -/
def cmin : EReal := Ideal.ofBits .f32 0x358637BD#32

/-- A projection (key, query or value) of row `n` for relation `r`, at feature `d`. -/
def proj (fa : Sfa.Idx → EReal) (Ww : Srdf.Idx → EReal) (Wb : Srd.Idx → EReal) (r : Fin 16) (n : Fin 1024) (d : Fin 64) : EReal :=
  (∑ f : Fin 1024, fa (ix2 n f) * Ww (ix3 r d f)) + Wb (ix2 r d)

/-- The geometric term of relation `r` between row `n` and column `m`. -/
def geo (pe : Spe.Idx → EReal) (Gw : Srd.Idx → EReal) (Gb : Sr.Idx → EReal) (r : Fin 16) (n m : Fin 1024) : EReal :=
  (∑ g : Fin 64, Gw (ix2 r g) * pe (ix3 n m g)) + Gb (ix1 r)

/-- The gate: the geometric term clipped below at `cmin`. -/
def gate (pe : Spe.Idx → EReal) (Gw : Srd.Idx → EReal) (Gb : Sr.Idx → EReal) (r : Fin 16) (n m : Fin 1024) : EReal :=
  max (geo pe Gw Gb r n m) cmin

/-- The scaled score of row `n`'s key against column `m`'s query. -/
def score (fa : Sfa.Idx → EReal) (Kw : Srdf.Idx → EReal) (Kb : Srd.Idx → EReal) (Qw : Srdf.Idx → EReal) (Qb : Srd.Idx → EReal)
    (r : Fin 16) (n m : Fin 1024) : EReal :=
  (∑ d : Fin 64, proj fa Kw Kb r n d * proj fa Qw Qb r m d) * ((1 / 8 : ℝ) : EReal)

/-- The gated softmax-weighted mean of the values of relation `r` for row `n`, at feature `d`. -/
def attn (fa : Sfa.Idx → EReal) (pe : Spe.Idx → EReal) (Gw : Srd.Idx → EReal) (Gb : Sr.Idx → EReal)
    (Kw : Srdf.Idx → EReal) (Kb : Srd.Idx → EReal) (Qw : Srdf.Idx → EReal) (Qb : Srd.Idx → EReal)
    (Vw : Srdf.Idx → EReal) (Vb : Srd.Idx → EReal) (r : Fin 16) (n : Fin 1024) (d : Fin 64) : EReal :=
  (∑ m : Fin 1024, gate pe Gw Gb r n m * Ideal.exp (score fa Kw Kb Qw Qb r n m) * proj fa Vw Vb r m d)
    * Ideal.div 1 (∑ m : Fin 1024, gate pe Gw Gb r n m * Ideal.exp (score fa Kw Kb Qw Qb r n m))

/-- The relation a result column belongs to. -/
def relOf (q : Fin 1024) : Fin 16 := ⟨q.val / 64, by have := q.isLt; omega⟩
/-- The feature a result column is, within its relation. -/
def featOf (q : Fin 1024) : Fin 64 := ⟨q.val % 64, by omega⟩

/-- THE RESULT: column `q = r * 64 + d` of row `n` is relation `r`'s mean at feature `d`, plus `f_a[n, q]`. -/
def out (fa : Sfa.Idx → EReal) (pe : Spe.Idx → EReal) (Gw : Srd.Idx → EReal) (Gb : Sr.Idx → EReal)
    (Kw : Srdf.Idx → EReal) (Kb : Srd.Idx → EReal) (Qw : Srdf.Idx → EReal) (Qb : Srd.Idx → EReal)
    (Vw : Srdf.Idx → EReal) (Vb : Srd.Idx → EReal) : Sfa.Idx → EReal := fun i =>
  attn fa pe Gw Gb Kw Kb Qw Qb Vw Vb (relOf (i 1)) (i 0) (featOf (i 1)) + fa i

/-- The result at row `n`, column `q`. -/
theorem out_ix2 (fa : Sfa.Idx → EReal) (pe : Spe.Idx → EReal) (Gw : Srd.Idx → EReal) (Gb : Sr.Idx → EReal)
    (Kw : Srdf.Idx → EReal) (Kb : Srd.Idx → EReal) (Qw : Srdf.Idx → EReal) (Qb : Srd.Idx → EReal)
    (Vw : Srdf.Idx → EReal) (Vb : Srd.Idx → EReal) (n q : Fin 1024) :
    out fa pe Gw Gb Kw Kb Qw Qb Vw Vb (ix2 n q)
      = attn fa pe Gw Gb Kw Kb Qw Qb Vw Vb (relOf q) n (featOf q) + fa (ix2 n q) := rfl

/-! ## The constants -/

/-- The clip is a positive real. -/
theorem cmin_pos : ∃ c : ℝ, 0 < c ∧ cmin = (c : EReal) := by
  refine ⟨8796093 * ((2 : ℝ) ^ 43)⁻¹, by positivity, ?_⟩
  unfold cmin
  simp [Ideal.ofBits, Ideal.ieee]

/-- The single-precision word `0x3E000000` is `1/8`. -/
theorem word_eighth : Ideal.ofBits .f32 0x3E000000#32 = ((1 / 8 : ℝ) : EReal) := by
  simp [Ideal.ofBits, Ideal.ieee]
  norm_cast
  norm_num

/-- The single-precision word `0x42800000` is 64. -/
theorem word_64 : Ideal.ofBits .f32 0x42800000#32 = ((64 : ℝ) : EReal) := by
  simp [Ideal.ofBits, Ideal.ieee]
  norm_cast
  norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the square root of the word of 64 is multiplying by `1/8`, on every extended real. -/
theorem div_sqrt_64 (x : EReal) :
    Ideal.div x (Ideal.sqrt (Ideal.ofBits .f32 0x42800000#32)) = x * ((1 / 8 : ℝ) : EReal) := by
  rw [word_64, sqrt_64, Ideal.div_coe (by norm_num)]

/-! ## Real entries give real projections, gates and scores -/

/-- A finite sum of reals is a real. -/
theorem sum_real {ι : Type*} (T : Finset ι) (f : ι → EReal) (h : ∀ i ∈ T, ∃ x : ℝ, f i = (x : EReal)) :
    ∃ x : ℝ, ∑ i ∈ T, f i = (x : EReal) := by
  classical
  induction T using Finset.induction_on with
  | empty => exact ⟨0, by simp⟩
  | insert b T hb ih =>
    obtain ⟨x, hx⟩ := ih fun i hi => h i (Finset.mem_insert_of_mem hi)
    obtain ⟨y, hy⟩ := h b (Finset.mem_insert_self b T)
    exact ⟨y + x, by rw [Finset.sum_insert hb, hx, hy, EReal.coe_add]⟩

/-- A product of two reals is a real. -/
theorem mul_real {x y : EReal} (hx : ∃ a : ℝ, x = (a : EReal)) (hy : ∃ b : ℝ, y = (b : EReal)) :
    ∃ c : ℝ, x * y = (c : EReal) := by
  obtain ⟨a, rfl⟩ := hx; obtain ⟨b, rfl⟩ := hy; exact ⟨a * b, (EReal.coe_mul a b).symm⟩

/-- A sum of two reals is a real. -/
theorem add_real {x y : EReal} (hx : ∃ a : ℝ, x = (a : EReal)) (hy : ∃ b : ℝ, y = (b : EReal)) :
    ∃ c : ℝ, x + y = (c : EReal) := by
  obtain ⟨a, rfl⟩ := hx; obtain ⟨b, rfl⟩ := hy; exact ⟨a + b, (EReal.coe_add a b).symm⟩

/-- A projection of real entries is a real. -/
theorem proj_real (fa : Sfa.Idx → EReal) (Ww : Srdf.Idx → EReal) (Wb : Srd.Idx → EReal)
    (hfa : ∀ i, ∃ x : ℝ, fa i = (x : EReal)) (hWw : ∀ i, ∃ x : ℝ, Ww i = (x : EReal)) (hWb : ∀ i, ∃ x : ℝ, Wb i = (x : EReal))
    (r : Fin 16) (n : Fin 1024) (d : Fin 64) : ∃ x : ℝ, proj fa Ww Wb r n d = (x : EReal) :=
  add_real (sum_real _ _ fun f _ => mul_real (hfa _) (hWw _)) (hWb _)

/-- The geometric term of real entries is a real. -/
theorem geo_real (pe : Spe.Idx → EReal) (Gw : Srd.Idx → EReal) (Gb : Sr.Idx → EReal)
    (hpe : ∀ i, ∃ x : ℝ, pe i = (x : EReal)) (hGw : ∀ i, ∃ x : ℝ, Gw i = (x : EReal)) (hGb : ∀ i, ∃ x : ℝ, Gb i = (x : EReal))
    (r : Fin 16) (n m : Fin 1024) : ∃ x : ℝ, geo pe Gw Gb r n m = (x : EReal) :=
  add_real (sum_real _ _ fun g _ => mul_real (hGw _) (hpe _)) (hGb _)

/-- The gate of real entries is a positive real. -/
theorem gate_pos (pe : Spe.Idx → EReal) (Gw : Srd.Idx → EReal) (Gb : Sr.Idx → EReal)
    (hpe : ∀ i, ∃ x : ℝ, pe i = (x : EReal)) (hGw : ∀ i, ∃ x : ℝ, Gw i = (x : EReal)) (hGb : ∀ i, ∃ x : ℝ, Gb i = (x : EReal))
    (r : Fin 16) (n m : Fin 1024) : ∃ x : ℝ, 0 < x ∧ gate pe Gw Gb r n m = (x : EReal) := by
  obtain ⟨g, hg⟩ := geo_real pe Gw Gb hpe hGw hGb r n m
  obtain ⟨c, hc0, hc⟩ := cmin_pos
  refine ⟨max g c, lt_max_of_lt_right hc0, ?_⟩
  rw [gate, hg, hc]
  exact (EReal.coe_strictMono.monotone.map_max).symm

/-- The score of real entries is a real. -/
theorem score_real (fa : Sfa.Idx → EReal) (Kw : Srdf.Idx → EReal) (Kb : Srd.Idx → EReal) (Qw : Srdf.Idx → EReal) (Qb : Srd.Idx → EReal)
    (hfa : ∀ i, ∃ x : ℝ, fa i = (x : EReal)) (hKw : ∀ i, ∃ x : ℝ, Kw i = (x : EReal)) (hKb : ∀ i, ∃ x : ℝ, Kb i = (x : EReal))
    (hQw : ∀ i, ∃ x : ℝ, Qw i = (x : EReal)) (hQb : ∀ i, ∃ x : ℝ, Qb i = (x : EReal))
    (r : Fin 16) (n m : Fin 1024) : ∃ x : ℝ, score fa Kw Kb Qw Qb r n m = (x : EReal) :=
  mul_real (sum_real _ _ fun d _ => mul_real (proj_real fa Kw Kb hfa hKw hKb r n d) (proj_real fa Qw Qb hfa hQw hQb r m d))
    ⟨1 / 8, rfl⟩

end Cert.Spec

end
-- ==== Proof.OnlineSoftmax.lean ====
/-
  A gated softmax-weighted mean, computed three ways, is one number.

  Fix a row of real scores `s k`, positive real gates `w k` and real values `v k`, `k` over 1024 columns. The mean

      (∑ k, w k * exp (s k) * v k) / (∑ k, w k * exp (s k))

  does not change when one real number `μ` is subtracted from every score: numerator and denominator both pick up the
  factor `exp (-μ)`.

  * The tiled walk. The columns come in 8 tiles of 128. A running shift `m`, a running denominator `l` and a running
    numerator `a` start at `-∞`, `0`, `0`; at each tile the shift becomes the larger of the old shift and ANY real number
    (the tile's largest score, in practice: the argument never uses which real it is), the old denominator and numerator are
    rescaled by `exp (m - m')` — which turns every `exp (s k - m)` already summed into `exp (s k - m')`, and is `exp (-∞) = 0`
    at the first tile, where there is nothing to rescale — and the tile's own terms `w k * exp (s k - m')` are added. After the
    last tile `l` and `a` are the two sums over all columns at one real shift, so `a * (1 / l)` is the mean.
  * The plain softmax of the logits `log (w k) + s k`, shifted by a real `M`, each weight divided by the total and
    multiplied into the value: `exp (log w + s - M) = w * exp s * exp (-M)`, so it is the same mean.

  Everything is stated with the extended-real operations of the ideal float values; the entries are (coercions of) reals,
  because the distributive law the argument uses fails at the infinities.
-/
import Idealize.ShloMosaic.PureOps.Ideal
import Mathlib.Analysis.SpecialFunctions.Exp
import Mathlib.Analysis.SpecialFunctions.Log.Basic
import Mathlib.Algebra.BigOperators.Fin
import Mathlib.Algebra.Order.BigOperators.Group.Finset

noncomputable section

open Idealize.ShloMosaic
open scoped BigOperators

namespace Cert.Spec

/-! ## Coercions -/

/-- The coercion of a finite real sum is the sum of the coercions. -/
theorem coe_finsum {ι : Type*} (T : Finset ι) (f : ι → ℝ) :
    ((∑ i ∈ T, f i : ℝ) : EReal) = ∑ i ∈ T, (f i : EReal) := by
  classical
  induction T using Finset.induction_on with
  | empty => simp
  | insert b T hb ih => rw [Finset.sum_insert hb, Finset.sum_insert hb, EReal.coe_add, ih]

/-- The larger of two reals, compared in the extended reals. -/
theorem max_coe_coe (x y : ℝ) : max (x : EReal) (y : EReal) = ((max x y : ℝ) : EReal) :=
  (EReal.coe_strictMono.monotone.map_max).symm

/-- Dividing one by a nonzero real, in the extended reals. -/
theorem div_one_coe {y : ℝ} (h : y ≠ 0) : Ideal.div 1 (y : EReal) = ((1 / y : ℝ) : EReal) := by
  rw [Ideal.div_coe h, one_mul]

/-- The exponential of a sum of a logarithm of a positive real and a real: the gate comes out as a factor. -/
theorem exp_log_add {w s : ℝ} (hw : 0 < w) :
    Ideal.exp (Ideal.log (w : EReal) + (s : EReal)) = (w : EReal) * Ideal.exp (s : EReal) := by
  rw [Ideal.log_coe, if_neg (not_le.2 hw), ← EReal.coe_add, Ideal.exp_coe, Ideal.exp_coe, ← EReal.coe_mul,
    Real.exp_add, Real.exp_log hw]

/-! ## The algebra, on the reals -/

/-- Changing the shift of terms already summed: the factor `exp (μ - μ')` turns `exp (S i - μ)` into `exp (S i - μ')`. -/
theorem rescale {ι : Type*} (T : Finset ι) (W S : ι → ℝ) (μ μ' : ℝ) :
    Real.exp (μ - μ') * ∑ i ∈ T, W i * Real.exp (S i - μ) = ∑ i ∈ T, W i * Real.exp (S i - μ') := by
  rw [Finset.mul_sum]
  refine Finset.sum_congr rfl fun i _ => ?_
  have h : Real.exp (μ - μ') * Real.exp (S i - μ) = Real.exp (S i - μ') := by
    rw [← Real.exp_add]; congr 1; ring
  rw [← h]; ring

/-- The same with each term multiplied into a value. -/
theorem rescaleV {ι : Type*} (T : Finset ι) (W S V : ι → ℝ) (μ μ' : ℝ) :
    Real.exp (μ - μ') * ∑ i ∈ T, W i * Real.exp (S i - μ) * V i = ∑ i ∈ T, W i * Real.exp (S i - μ') * V i := by
  rw [Finset.mul_sum]
  refine Finset.sum_congr rfl fun i _ => ?_
  have h : Real.exp (μ - μ') * Real.exp (S i - μ) = Real.exp (S i - μ') := by
    rw [← Real.exp_add]; congr 1; ring
  rw [← h]; ring

/-- A common nonzero factor of numerator and denominator cancels (also when the denominator is zero: both sides are 0). -/
theorem cancel_factor (e N D : ℝ) (he : e ≠ 0) : (e * N) * (1 / (e * D)) = N * (1 / D) := by
  rw [one_div, one_div, mul_inv, mul_mul_mul_comm, mul_inv_cancel₀ he, one_mul]

variable {κ : Type*} [Fintype κ]

/-- The denominator over the first `j` tiles, every score shifted by `μ`. -/
def partL (W S : ℕ → κ → ℝ) (j : ℕ) (μ : ℝ) : ℝ :=
  ∑ i ∈ Finset.range j, ∑ t, W i t * Real.exp (S i t - μ)

/-- The numerator over the first `j` tiles, every score shifted by `μ`. -/
def partA (W S V : ℕ → κ → ℝ) (j : ℕ) (μ : ℝ) : ℝ :=
  ∑ i ∈ Finset.range j, ∑ t, W i t * Real.exp (S i t - μ) * V i t

theorem partL_rescale (W S : ℕ → κ → ℝ) (j : ℕ) (μ μ' : ℝ) :
    Real.exp (μ - μ') * partL W S j μ = partL W S j μ' := by
  unfold partL
  rw [Finset.mul_sum]
  exact Finset.sum_congr rfl fun i _ => rescale _ _ _ μ μ'

theorem partA_rescale (W S V : ℕ → κ → ℝ) (j : ℕ) (μ μ' : ℝ) :
    Real.exp (μ - μ') * partA W S V j μ = partA W S V j μ' := by
  unfold partA
  rw [Finset.mul_sum]
  exact Finset.sum_congr rfl fun i _ => rescaleV _ _ _ _ μ μ'

/-- The mean does not depend on the shift. -/
theorem mean_shift (W S V : ℕ → κ → ℝ) (j : ℕ) (μ : ℝ) :
    partA W S V j μ * (1 / partL W S j μ) = partA W S V j 0 * (1 / partL W S j 0) := by
  rw [← partA_rescale W S V j 0 μ, ← partL_rescale W S j 0 μ]
  exact cancel_factor _ _ _ (Real.exp_pos _).ne'

/-- With positive gates and at least one column the denominator is positive. -/
theorem partL_pos [Nonempty κ] (W S : ℕ → κ → ℝ) (hW : ∀ i t, 0 < W i t) (j : ℕ) (hj : 0 < j) (μ : ℝ) :
    0 < partL W S j μ := by
  unfold partL
  refine Finset.sum_pos (fun i _ => Finset.sum_pos (fun t _ => mul_pos (hW i t) (Real.exp_pos _)) Finset.univ_nonempty) ?_
  exact ⟨0, Finset.mem_range.2 hj⟩

/-! ## One tile's terms, as reals -/

/-- A tile's contribution to the denominator at a real shift is the coercion of the real sum. -/
theorem tile_l_coe (W S : κ → ℝ) (μ : ℝ) :
    ∑ t, (W t : EReal) * Ideal.exp ((S t : EReal) - (μ : EReal)) = ((∑ t, W t * Real.exp (S t - μ) : ℝ) : EReal) := by
  rw [coe_finsum]
  refine Finset.sum_congr rfl fun t _ => ?_
  rw [← EReal.coe_sub, Ideal.exp_coe, ← EReal.coe_mul]

/-- A tile's contribution to the numerator at a real shift is the coercion of the real sum. -/
theorem tile_a_coe (W S V : κ → ℝ) (μ : ℝ) :
    ∑ t, (W t : EReal) * Ideal.exp ((S t : EReal) - (μ : EReal)) * (V t : EReal)
      = ((∑ t, W t * Real.exp (S t - μ) * V t : ℝ) : EReal) := by
  rw [coe_finsum]
  refine Finset.sum_congr rfl fun t _ => ?_
  rw [← EReal.coe_sub, Ideal.exp_coe, ← EReal.coe_mul, ← EReal.coe_mul]

/-! ## The tiled walk -/

/-- After every tile the running shift is a real and the running sums are the real sums over the tiles walked so far,
    at that shift. The new shift is the larger of the old one and `τ j`, ANY real. -/
theorem walk_real (J : ℕ) (W S V : ℕ → κ → ℝ) (τ : ℕ → ℝ) (m l a : ℕ → EReal)
    (m0 : m 0 = ⊥) (l0 : l 0 = 0) (a0 : a 0 = 0)
    (hm : ∀ j, j < J → m (j + 1) = max (m j) (τ j : EReal))
    (hl : ∀ j, j < J → l (j + 1) = Ideal.exp (m j - m (j + 1)) * l j
        + ∑ t, (W j t : EReal) * Ideal.exp ((S j t : EReal) - m (j + 1)))
    (ha : ∀ j, j < J → a (j + 1) = Ideal.exp (m j - m (j + 1)) * a j
        + ∑ t, (W j t : EReal) * Ideal.exp ((S j t : EReal) - m (j + 1)) * (V j t : EReal)) :
    ∀ j, j < J → ∃ μ : ℝ, m (j + 1) = (μ : EReal) ∧ l (j + 1) = ((partL W S (j + 1) μ : ℝ) : EReal)
      ∧ a (j + 1) = ((partA W S V (j + 1) μ : ℝ) : EReal) := by
  intro j
  induction j with
  | zero =>
    intro hj
    have hm1 : m (0 + 1) = ((τ 0 : ℝ) : EReal) := by rw [hm 0 hj, m0]; exact max_eq_right bot_le
    refine ⟨τ 0, hm1, ?_, ?_⟩
    · rw [hl 0 hj, hm1, m0, l0, EReal.bot_sub, Ideal.exp_bot, mul_zero, zero_add, tile_l_coe]
      unfold partL
      rw [Finset.sum_range_succ, Finset.sum_range_zero, zero_add]
    · rw [ha 0 hj, hm1, m0, a0, EReal.bot_sub, Ideal.exp_bot, mul_zero, zero_add, tile_a_coe]
      unfold partA
      rw [Finset.sum_range_succ, Finset.sum_range_zero, zero_add]
  | succ j ih =>
    intro hj
    obtain ⟨μ, e1, e2, e3⟩ := ih (by omega)
    have hm2 : m (j + 1 + 1) = ((max μ (τ (j + 1)) : ℝ) : EReal) := by rw [hm (j + 1) hj, e1, max_coe_coe]
    refine ⟨max μ (τ (j + 1)), hm2, ?_, ?_⟩
    · rw [hl (j + 1) hj, hm2, e1, e2, tile_l_coe, ← EReal.coe_sub, Ideal.exp_coe, ← EReal.coe_mul, ← EReal.coe_add,
        partL_rescale]
      unfold partL
      rw [Finset.sum_range_succ _ (j + 1)]
    · rw [ha (j + 1) hj, hm2, e1, e3, tile_a_coe, ← EReal.coe_sub, Ideal.exp_coe, ← EReal.coe_mul, ← EReal.coe_add,
        partA_rescale]
      unfold partA
      rw [Finset.sum_range_succ _ (j + 1)]

/-- After the last of `J ≥ 1` tiles, the numerator times the reciprocal of the denominator is the mean with no shift. -/
theorem walk_mean [Nonempty κ] (J : ℕ) (hJ : 0 < J) (W S V : ℕ → κ → ℝ) (hW : ∀ i t, 0 < W i t) (τ : ℕ → ℝ)
    (m l a : ℕ → EReal) (m0 : m 0 = ⊥) (l0 : l 0 = 0) (a0 : a 0 = 0)
    (hm : ∀ j, j < J → m (j + 1) = max (m j) (τ j : EReal))
    (hl : ∀ j, j < J → l (j + 1) = Ideal.exp (m j - m (j + 1)) * l j
        + ∑ t, (W j t : EReal) * Ideal.exp ((S j t : EReal) - m (j + 1)))
    (ha : ∀ j, j < J → a (j + 1) = Ideal.exp (m j - m (j + 1)) * a j
        + ∑ t, (W j t : EReal) * Ideal.exp ((S j t : EReal) - m (j + 1)) * (V j t : EReal)) :
    a J * Ideal.div 1 (l J) = ((partA W S V J 0 * (1 / partL W S J 0) : ℝ) : EReal) := by
  obtain ⟨j, rfl⟩ : ∃ j, J = j + 1 := ⟨J - 1, by omega⟩
  obtain ⟨μ, -, e2, e3⟩ := walk_real (j + 1) W S V τ m l a m0 l0 a0 hm hl ha j (by omega)
  rw [e2, e3, div_one_coe (partL_pos W S hW (j + 1) (by omega) μ).ne', ← EReal.coe_mul, mean_shift]

/-! ## 1024 columns in 8 tiles of 128 -/

/-- Column `t` of tile `j`, among the 1024 columns. -/
def col (j : Fin 8) (t : Fin 128) : Fin 1024 :=
  ⟨j.val * 128 + t.val, by have := j.isLt; have := t.isLt; omega⟩

@[simp] theorem col_val (j : Fin 8) (t : Fin 128) : (col j t).val = j.val * 128 + t.val := rfl

/-- A sum over the 1024 columns is the sum over the tiles of the sums over each tile's columns. -/
theorem sum_col {M : Type*} [AddCommMonoid M] (F : Fin 1024 → M) :
    ∑ k, F k = ∑ j : Fin 8, ∑ t : Fin 128, F (col j t) := by
  have e : ∀ p : Fin 8 × Fin 128, (finProdFinEquiv p : Fin 1024) = col p.1 p.2 := fun p =>
    Fin.ext (by rw [finProdFinEquiv_apply_val, col_val]; omega)
  calc ∑ k, F k = ∑ p : Fin 8 × Fin 128, F (finProdFinEquiv p) :=
        (Equiv.sum_comp (finProdFinEquiv (m := 8) (n := 128)) F).symm
    _ = ∑ p : Fin 8 × Fin 128, F (col p.1 p.2) := Finset.sum_congr rfl fun p _ => by rw [e]
    _ = ∑ j : Fin 8, ∑ t : Fin 128, F (col j t) := Fintype.sum_prod_type _

/-- The tiles' real denominators, added up, are the sum over all columns. -/
theorem partL_flat (W S : Fin 1024 → ℝ) :
    partL (fun j t => if h : j < 8 then W (col ⟨j, h⟩ t) else 1) (fun j t => if h : j < 8 then S (col ⟨j, h⟩ t) else 0) 8 0
      = ∑ k, W k * Real.exp (S k) := by
  unfold partL
  rw [Finset.sum_range, sum_col]
  refine Finset.sum_congr rfl fun j _ => Finset.sum_congr rfl fun t _ => ?_
  simp only [dif_pos j.isLt, sub_zero, Fin.eta]

/-- The tiles' real numerators, added up, are the sum over all columns. -/
theorem partA_flat (W S V : Fin 1024 → ℝ) :
    partA (fun j t => if h : j < 8 then W (col ⟨j, h⟩ t) else 1) (fun j t => if h : j < 8 then S (col ⟨j, h⟩ t) else 0)
        (fun j t => if h : j < 8 then V (col ⟨j, h⟩ t) else 0) 8 0
      = ∑ k, W k * Real.exp (S k) * V k := by
  unfold partA
  rw [Finset.sum_range, sum_col]
  refine Finset.sum_congr rfl fun j _ => Finset.sum_congr rfl fun t _ => ?_
  simp only [dif_pos j.isLt, sub_zero, Fin.eta]

/-- The gated mean of a row, written with the extended-real operations, is the coercion of the real mean. -/
theorem mean_coe {K : Type*} [Fintype K] [Nonempty K] (W S V : K → ℝ) (hW : ∀ k, 0 < W k) :
    (∑ k, (W k : EReal) * Ideal.exp (S k : EReal) * (V k : EReal)) * Ideal.div 1 (∑ k, (W k : EReal) * Ideal.exp (S k : EReal))
      = (((∑ k, W k * Real.exp (S k) * V k) * (1 / ∑ k, W k * Real.exp (S k)) : ℝ) : EReal) := by
  have hD : 0 < ∑ k, W k * Real.exp (S k) :=
    Finset.sum_pos (fun k _ => mul_pos (hW k) (Real.exp_pos _)) Finset.univ_nonempty
  have e1 : ∑ k, (W k : EReal) * Ideal.exp (S k : EReal) * (V k : EReal) = ((∑ k, W k * Real.exp (S k) * V k : ℝ) : EReal) := by
    rw [coe_finsum]
    exact Finset.sum_congr rfl fun k _ => by rw [Ideal.exp_coe, ← EReal.coe_mul, ← EReal.coe_mul]
  have e2 : ∑ k, (W k : EReal) * Ideal.exp (S k : EReal) = ((∑ k, W k * Real.exp (S k) : ℝ) : EReal) := by
    rw [coe_finsum]
    exact Finset.sum_congr rfl fun k _ => by rw [Ideal.exp_coe, ← EReal.coe_mul]
  rw [e1, e2, div_one_coe hD.ne', ← EReal.coe_mul]

/-- THE TILED WALK IS THE MEAN. Scores `s`, gates `w` and values `v` on the 1024 columns, every one a real and the gates
    positive; running shift, denominator and numerator `m`, `l`, `a` started at `-∞`, `0`, `0` and stepped through the 8 tiles
    of 128 columns, the new shift the larger of the old one and `tm j`, any real. Then `a 8 * (1 / l 8)` is the gated mean. -/
theorem online_row (s w v : Fin 1024 → EReal)
    (hs : ∀ k, ∃ x : ℝ, s k = (x : EReal)) (hw : ∀ k, ∃ x : ℝ, 0 < x ∧ w k = (x : EReal))
    (hv : ∀ k, ∃ x : ℝ, v k = (x : EReal))
    (tm : Fin 8 → EReal) (htm : ∀ j, ∃ x : ℝ, tm j = (x : EReal))
    (m l a : ℕ → EReal) (m0 : m 0 = ⊥) (l0 : l 0 = 0) (a0 : a 0 = 0)
    (hm : ∀ j : Fin 8, m (j.val + 1) = max (m j.val) (tm j))
    (hl : ∀ j : Fin 8, l (j.val + 1) = Ideal.exp (m j.val - m (j.val + 1)) * l j.val
        + ∑ t : Fin 128, w (col j t) * Ideal.exp (s (col j t) - m (j.val + 1)))
    (ha : ∀ j : Fin 8, a (j.val + 1) = Ideal.exp (m j.val - m (j.val + 1)) * a j.val
        + ∑ t : Fin 128, w (col j t) * Ideal.exp (s (col j t) - m (j.val + 1)) * v (col j t)) :
    a 8 * Ideal.div 1 (l 8) = (∑ k, w k * Ideal.exp (s k) * v k) * Ideal.div 1 (∑ k, w k * Ideal.exp (s k)) := by
  choose S hS using hs
  choose W hW0 hW using hw
  choose V hV using hv
  choose τ hτ using htm
  have key := walk_mean (κ := Fin 128) 8 (by norm_num)
    (fun j t => if h : j < 8 then W (col ⟨j, h⟩ t) else 1) (fun j t => if h : j < 8 then S (col ⟨j, h⟩ t) else 0)
    (fun j t => if h : j < 8 then V (col ⟨j, h⟩ t) else 0)
    (fun i t => by split; exacts [hW0 _, one_pos])
    (fun j => if h : j < 8 then τ ⟨j, h⟩ else 0) m l a m0 l0 a0
    (fun j hj => by rw [dif_pos hj, ← hτ]; exact hm ⟨j, hj⟩)
    (fun j hj => by simp only [dif_pos hj, ← hW, ← hS]; exact hl ⟨j, hj⟩)
    (fun j hj => by simp only [dif_pos hj, ← hW, ← hS, ← hV]; exact ha ⟨j, hj⟩)
  rw [key, partA_flat, partL_flat]
  simp only [hW, hS, hV]
  rw [mean_coe W S V hW0]

/-! ## The plain softmax of the logits `log w + s` -/

/-- The mean does not depend on the shift, over one finite set of columns. -/
theorem mean_shift_flat {ι : Type*} (T : Finset ι) (W S V : ι → ℝ) (μ : ℝ) :
    (∑ i ∈ T, W i * Real.exp (S i - μ) * V i) * (1 / ∑ i ∈ T, W i * Real.exp (S i - μ))
      = (∑ i ∈ T, W i * Real.exp (S i) * V i) * (1 / ∑ i ∈ T, W i * Real.exp (S i)) := by
  have h1 := rescaleV T W S V 0 μ
  have h2 := rescale T W S 0 μ
  simp only [sub_zero] at h1 h2
  rw [← h1, ← h2]
  exact cancel_factor _ _ _ (Real.exp_pos _).ne'

/-- THE PLAIN SOFTMAX IS THE MEAN. The logits are `log (w k) + s k`; each is shifted by `M`, any real, exponentiated and
    divided by the total (added onto a zero), and the weights are multiplied into the values and added up. -/
theorem ref_row_gate {K : Type*} [Fintype K] [Nonempty K] (w s v : K → EReal)
    (hw : ∀ k, ∃ x : ℝ, 0 < x ∧ w k = (x : EReal)) (hs : ∀ k, ∃ x : ℝ, s k = (x : EReal))
    (hv : ∀ k, ∃ x : ℝ, v k = (x : EReal)) (M : EReal) (hM : ∃ x : ℝ, M = (x : EReal)) :
    ∑ k, Ideal.div (Ideal.exp (Ideal.log (w k) + s k - M)) (0 + ∑ k', Ideal.exp (Ideal.log (w k') + s k' - M)) * v k
      = (∑ k, w k * Ideal.exp (s k) * v k) * Ideal.div 1 (∑ k, w k * Ideal.exp (s k)) := by
  choose W hW0 hW using hw
  choose S hS using hs
  choose V hV using hv
  obtain ⟨μ, rfl⟩ := hM
  have e1 : ∀ k, Ideal.exp (Ideal.log (w k) + s k - (μ : EReal)) = ((W k * Real.exp (S k - μ) : ℝ) : EReal) := by
    intro k
    rw [hW, hS, Ideal.log_coe, if_neg (not_le.2 (hW0 k)), ← EReal.coe_add, ← EReal.coe_sub, Ideal.exp_coe,
      add_sub_assoc, Real.exp_add, Real.exp_log (hW0 k)]
  have hD : 0 < ∑ k, W k * Real.exp (S k - μ) :=
    Finset.sum_pos (fun k _ => mul_pos (hW0 k) (Real.exp_pos _)) Finset.univ_nonempty
  have e2 : (0 : EReal) + ∑ k', Ideal.exp (Ideal.log (w k') + s k' - (μ : EReal)) = ((∑ k, W k * Real.exp (S k - μ) : ℝ) : EReal) := by
    rw [zero_add, coe_finsum]
    exact Finset.sum_congr rfl fun k _ => e1 k
  rw [e2]
  have e3 : ∀ k, Ideal.div (Ideal.exp (Ideal.log (w k) + s k - (μ : EReal))) ((∑ k, W k * Real.exp (S k - μ) : ℝ) : EReal) * v k
      = ((W k * Real.exp (S k - μ) * V k * (1 / ∑ k, W k * Real.exp (S k - μ)) : ℝ) : EReal) := by
    intro k
    rw [e1, Ideal.div_coe hD.ne', hV, ← EReal.coe_mul, ← EReal.coe_mul]
    congr 1; ring
  rw [Finset.sum_congr rfl fun k _ => e3 k, ← coe_finsum, ← Finset.sum_mul, mean_shift_flat]
  simp only [hW, hS, hV]
  rw [mean_coe W S V hW0]

end Cert.Spec

end
-- ==== Proof.SpecOnline.lean ====
/-
  The tiled walk of one row, relation and feature ends at the specified mean.

  The law on the gated mean, with the scores, gates and values of the specification put in: for real entries of the ten
  argument arrays, a running shift, denominator and numerator stepped through the 8 tiles of 128 columns of row `n` for
  relation `r` (values at feature `d`) end with `a * (1 / l)` equal to `attn r n d`.
-/
import proofs.«150398_j60060822667746_2_alg».proof.Proof.Spec
import proofs.«150398_j60060822667746_2_alg».proof.Proof.OnlineSoftmax

noncomputable section

open Idealize.ShloMosaic Idealize.ShloMosaic.ValueIdx
open scoped BigOperators

namespace Cert.Spec

/-- The tiled walk is the specified mean. `tm j` is any real (the tile's largest score in practice). -/
theorem attn_of_walk (fa : Sfa.Idx → EReal) (pe : Spe.Idx → EReal) (Gw : Srd.Idx → EReal) (Gb : Sr.Idx → EReal)
    (Kw : Srdf.Idx → EReal) (Kb : Srd.Idx → EReal) (Qw : Srdf.Idx → EReal) (Qb : Srd.Idx → EReal)
    (Vw : Srdf.Idx → EReal) (Vb : Srd.Idx → EReal)
    (hfa : ∀ i, ∃ x : ℝ, fa i = (x : EReal)) (hpe : ∀ i, ∃ x : ℝ, pe i = (x : EReal)) (hGw : ∀ i, ∃ x : ℝ, Gw i = (x : EReal))
    (hGb : ∀ i, ∃ x : ℝ, Gb i = (x : EReal)) (hKw : ∀ i, ∃ x : ℝ, Kw i = (x : EReal)) (hKb : ∀ i, ∃ x : ℝ, Kb i = (x : EReal))
    (hQw : ∀ i, ∃ x : ℝ, Qw i = (x : EReal)) (hQb : ∀ i, ∃ x : ℝ, Qb i = (x : EReal)) (hVw : ∀ i, ∃ x : ℝ, Vw i = (x : EReal))
    (hVb : ∀ i, ∃ x : ℝ, Vb i = (x : EReal))
    (r : Fin 16) (n : Fin 1024) (d : Fin 64)
    (tm : Fin 8 → EReal) (htm : ∀ j, ∃ x : ℝ, tm j = (x : EReal))
    (m l a : ℕ → EReal) (m0 : m 0 = ⊥) (l0 : l 0 = 0) (a0 : a 0 = 0)
    (hm : ∀ j : Fin 8, m (j.val + 1) = max (m j.val) (tm j))
    (hl : ∀ j : Fin 8, l (j.val + 1) = Ideal.exp (m j.val - m (j.val + 1)) * l j.val
        + ∑ t : Fin 128, gate pe Gw Gb r n (col j t) * Ideal.exp (score fa Kw Kb Qw Qb r n (col j t) - m (j.val + 1)))
    (ha : ∀ j : Fin 8, a (j.val + 1) = Ideal.exp (m j.val - m (j.val + 1)) * a j.val
        + ∑ t : Fin 128, gate pe Gw Gb r n (col j t) * Ideal.exp (score fa Kw Kb Qw Qb r n (col j t) - m (j.val + 1))
            * proj fa Vw Vb r (col j t) d) :
    a 8 * Ideal.div 1 (l 8) = attn fa pe Gw Gb Kw Kb Qw Qb Vw Vb r n d :=
  online_row (fun k => score fa Kw Kb Qw Qb r n k) (fun k => gate pe Gw Gb r n k) (fun k => proj fa Vw Vb r k d)
    (fun k => score_real fa Kw Kb Qw Qb hfa hKw hKb hQw hQb r n k) (fun k => gate_pos pe Gw Gb hpe hGw hGb r n k)
    (fun k => proj_real fa Vw Vb hfa hVw hVb r k d) tm htm m l a m0 l0 a0 hm hl ha

end Cert.Spec

end
-- ==== Proof.LibRealSoftmax.lean ====
/-
  Real numbers inside the extended reals, for softmax-like kernels.

  * Finite sums and maxima of real numbers, computed in the extended reals, are real numbers (the maximum over a
    nonempty range, folded from `-∞`).
  * An extended real whose absolute value `max a (-a)` is below `+∞` is a real number; so is one that passes the
    entrywise test `|a| < +∞` of a finiteness precondition.
  * A softmax does not change when one number is subtracted from every logit: `exp (a - t) = exp a * exp (-t)`, and the
    common factor cancels between an entry and the total. Multiplying by the reciprocal of the total is dividing by it.
  * The single-precision words of 1, -1, 2, 64, `+∞` and `-∞`, as extended reals.
-/
import Idealize.ShloMosaic.PureOps.Ideal
import Idealize.ShloMosaic.PureOps.Ideal.Laws

noncomputable section

namespace Cert.LibRealSoftmax

open Idealize.ShloMosaic

/-! ## The constants, as real numbers -/

/-- The word `0x3F800000` is 1. -/
theorem word_one : Ideal.ofBits .f32 0x3F800000#32 = ((1 : ℝ) : EReal) := by
  simp [Ideal.ofBits, Ideal.ieee]
  norm_cast
  norm_num
/-- The word `0xBF800000` is -1. -/
theorem word_negOne : Ideal.ofBits .f32 0xBF800000#32 = ((-1 : ℝ) : EReal) := by
  simp [Ideal.ofBits, Ideal.ieee]
  norm_cast
  norm_num
/-- The word `0x40000000` is 2. -/
theorem word_two : Ideal.ofBits .f32 0x40000000#32 = ((2 : ℝ) : EReal) := by
  simp [Ideal.ofBits, Ideal.ieee]
  norm_cast
  norm_num
/-- The word `0x42800000` is 64. -/
theorem word_sixtyFour : Ideal.ofBits .f32 0x42800000#32 = ((64 : ℝ) : EReal) := by
  simp [Ideal.ofBits, Ideal.ieee]
  norm_cast
  norm_num
/-- The word `0xFF800000` is `-∞`. -/
theorem word_negInf : Ideal.ofBits .f32 0xFF800000#32 = (⊥ : EReal) := by
  simp [Ideal.ofBits, Ideal.ieee]
/-- The word `0x7F800000` is `+∞`. -/
theorem word_posInf : Ideal.ofBits .f32 0x7F800000#32 = (⊤ : EReal) := by
  simp [Ideal.ofBits, Ideal.ieee]

/-! ## Finite sums and maxima of real numbers, inside the extended reals -/

/-- A finite sum of real numbers, computed in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, compared in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many real numbers over a nonempty range, folded from `-∞`, is a real number. -/
theorem fold_max_real {ι : Type} (s : Finset ι) (f : ι → ℝ) (hs : s.Nonempty) :
    ∃ μ : ℝ, s.fold max (⊥ : EReal) (fun i => ((f i : ℝ) : EReal)) = (μ : EReal) := by
  classical
  have key : ∀ s : Finset ι, (s.fold max (⊥ : EReal) (fun i => ((f i : ℝ) : EReal)) = ⊥ ∧ s = ∅)
      ∨ ∃ μ : ℝ, s.fold max (⊥ : EReal) (fun i => ((f i : ℝ) : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h]; exact max_eq_left bot_le⟩
      · exact ⟨max (f a) μ, by rw [h, max_coe]⟩
  rcases key s with ⟨-, h⟩ | h
  · exact absurd h hs.ne_empty
  · exact h

/-! ## A finite entry is a real number -/

/-- An extended real with absolute value below `+∞` is a real number. -/
theorem real_of_abs_lt_top (a : EReal) (h : max a (-a) < ⊤) : ∃ r : ℝ, a = (r : EReal) := by
  by_cases ht : a = ⊤
  · subst ht; simp at h
  by_cases hb : a = ⊥
  · subst hb; simp at h
  exact ⟨a.toReal, (EReal.coe_toReal ht hb).symm⟩

/-- The entrywise test `|a| < +∞` of a finiteness precondition, passed: the entry is a real number. -/
theorem real_of_test (a : EReal)
    (h : Ideal.cmp .olt (max a (-a)) (Ideal.ofBits .f32 0x7F800000#32) = 1#1) : ∃ r : ℝ, a = (r : EReal) := by
  rw [word_posInf] at h
  refine real_of_abs_lt_top a ?_
  by_contra hn
  simp [Ideal.cmp, hn] at h

/-! ## Shift invariance of the softmax, on the reals -/

/-- Subtracting `μ` from every logit, or `δ + ν` from every logit, gives the same softmax; and multiplying by the
    reciprocal of the total is dividing by it. -/
theorem softmax_shift_real {N : ℕ} (a : Fin N → ℝ) (δ μ ν : ℝ) (j : Fin N) :
    Real.exp (a j - μ) * (1 / ∑ l, Real.exp (a l - μ)) = Real.exp (a j - δ - ν) / ∑ l, Real.exp (a l - δ - ν) := by
  have hS : 0 < ∑ l, Real.exp (a l) := Finset.sum_pos (fun l _ => Real.exp_pos _) ⟨j, Finset.mem_univ _⟩
  have h1 : ∀ t : ℝ, ∑ l, Real.exp (a l - t) = (∑ l, Real.exp (a l)) * Real.exp (-t) := by
    intro t
    rw [Finset.sum_mul]
    refine Finset.sum_congr rfl fun l _ => ?_
    rw [← Real.exp_add, sub_eq_add_neg]
  have h2 : ∀ l, a l - δ - ν = a l - (δ + ν) := fun l => by ring
  simp only [h2, h1]
  rw [sub_eq_add_neg (a j) μ, sub_eq_add_neg (a j) (δ + ν), Real.exp_add, Real.exp_add]
  have e1 : Real.exp (-μ) ≠ 0 := (Real.exp_pos _).ne'
  have e2 : Real.exp (-(δ + ν)) ≠ 0 := (Real.exp_pos _).ne'
  have e3 : (∑ l, Real.exp (a l)) ≠ 0 := hS.ne'
  field_simp

end Cert.LibRealSoftmax

end
-- ==== Proof.KI.AttnTile.lean ====
/-
  One grid point of the attention kernel, in the terms of the specification.

  Row block `a` and column tile `j` fix which rows `n = a * 128 + x` and columns `col j y = j * 128 + y` the loaded blocks
  hold: the position-embedding block, the key rows, the query and value columns, the gate's weights and bias. Under those
  read hypotheses the body's gate is the specified gate, its scaled score the specified score, its new running maximum the
  old one against the tile's largest score (a real number, for real entries), and its running sum and accumulator the
  rescaled old ones plus the tile's gated terms; the last point's store is accumulator times the reciprocal of the sum, at
  the relation and feature of the result column, plus the residual entry.
-/
import proofs.«150398_j60060822667746_2_alg».proof.Proof.KI.AttnPayloads
import proofs.«150398_j60060822667746_2_alg».proof.Proof.Spec
import proofs.«150398_j60060822667746_2_alg».proof.Proof.SpecOnline
import proofs.«150398_j60060822667746_2_alg».proof.Proof.LibRealSoftmax

noncomputable section

namespace Cert.KernelIdeal.Hand

open Idealize.ShloMosaic Idealize.ShloMosaic.ValueIdx Cert.KernelIdeal Cert.KernelIdeal.Gen
open scoped BigOperators

/-! ## The kernel's words -/

/-- The floor under the gate is the specification's clip. -/
theorem gateFloor_eq : gateFloor = Spec.cmin := rfl
/-- The scale of the scores is `1/8`. -/
theorem scoreScale_eq : scoreScale = ((1 / 8 : ℝ) : EReal) := Spec.word_eighth
/-- The start of the running maximum is `-∞`. -/
theorem maxStart_eq : maxStart = (⊥ : EReal) := Cert.LibRealSoftmax.word_negInf
/-- The literal one is `1`. -/
theorem oneWord_eq : oneWord = (1 : EReal) := Cert.LibRealSoftmax.word_one.trans EReal.coe_one

/-- The running maximum starts at `-∞`. -/
theorem maxInit_apply (i : S16x128x1.Idx) : k1_pay7 (F := Ideal) i = (⊥ : EReal) := (maxStart_apply i).trans maxStart_eq
/-- The running sum starts at `0`. -/
theorem sumInit_apply (i : S16x128x1.Idx) : k1_pay8 (F := Ideal) i = (0 : EReal) := sumStart_apply i
/-- The accumulator starts at `0`. -/
theorem accInit_apply (i : S16x128x64.Idx) : k1_pay9 (F := Ideal) i = (0 : EReal) := accStart_apply i

/-! ## The tile's gate and score -/

/-- The body's gate at row `x`, column `y` of the tile is the specified gate of row `n`, column `col j y`. -/
theorem tile_gate (a j : Fin 8) (B0 : Vec Ideal S128x128x64 .f32) (B4 : Vec Ideal S16x64 .f32) (B5 : Vec Ideal S16x1 .f32)
    (pe : Spec.Spe.Idx → EReal) (Gw : Spec.Srd.Idx → EReal) (Gb : Spec.Sr.Idx → EReal)
    (h0 : ∀ (x y : Fin 128) (g : Fin 64) (n : Fin 1024), n.val = a.val * 128 + x.val → B0 (ix3 x y g) = pe (ix3 n (Spec.col j y) g))
    (h4 : ∀ (r : Fin 16) (g : Fin 64), B4 (ix2 r g) = Gw (ix2 r g)) (h5 : ∀ r : Fin 16, B5 (ix2 r (0 : Fin 1)) = Gb (ix1 r))
    (r : Fin 16) (x y : Fin 128) (n : Fin 1024) (hn : n.val = a.val * 128 + x.val) :
    k1_pay10 (F := Ideal) B0 B4 B5 (ix3 r x y) = Spec.gate pe Gw Gb r n (Spec.col j y) := by
  rw [gate_apply, h5 r]
  have e : ∀ g : Fin 64, B4 (ix2 r g) * B0 (ix3 x y g) = Gw (ix2 r g) * pe (ix3 n (Spec.col j y) g) := fun g => by
    rw [h4, h0 x y g n hn]
  simp only [e]
  rfl

/-- The body's scaled score at row `x`, column `y` of the tile is the specified score of row `n`, column `col j y`. -/
theorem tile_score (a j : Fin 8) (B1 B2 : Vec Ideal S16x128x64 .bf16)
    (fa : Spec.Sfa.Idx → EReal) (Kw : Spec.Srdf.Idx → EReal) (Kb : Spec.Srd.Idx → EReal) (Qw : Spec.Srdf.Idx → EReal) (Qb : Spec.Srd.Idx → EReal)
    (h1 : ∀ (r : Fin 16) (x : Fin 128) (d : Fin 64) (n : Fin 1024), n.val = a.val * 128 + x.val → B1 (ix3 r x d) = Spec.proj fa Kw Kb r n d)
    (h2 : ∀ (r : Fin 16) (y : Fin 128) (d : Fin 64), B2 (ix3 r y d) = Spec.proj fa Qw Qb r (Spec.col j y) d)
    (r : Fin 16) (x y : Fin 128) (n : Fin 1024) (hn : n.val = a.val * 128 + x.val) :
    k1_pay12 (F := Ideal) B1 B2 (ix3 r x y) = Spec.score fa Kw Kb Qw Qb r n (Spec.col j y) := by
  rw [score_apply, scoreScale_eq]
  have e : ∀ d : Fin 64, B1 (ix3 r x d) * B2 (ix3 r y d) = Spec.proj fa Kw Kb r n d * Spec.proj fa Qw Qb r (Spec.col j y) d :=
    fun d => by rw [h1 r x d n hn, h2]
  simp only [e]
  rfl

/-! ## The running maximum -/

/-- The tile's largest score of row `n`: the fold of `max` from the start word over the tile's columns. -/
def tileMax (j : Fin 8) (fa : Spec.Sfa.Idx → EReal) (Kw : Spec.Srdf.Idx → EReal) (Kb : Spec.Srd.Idx → EReal)
    (Qw : Spec.Srdf.Idx → EReal) (Qb : Spec.Srd.Idx → EReal) (r : Fin 16) (n : Fin 1024) : EReal :=
  (Finset.univ : Finset (Fin 128)).fold max maxStart (fun y => Spec.score fa Kw Kb Qw Qb r n (Spec.col j y))

/-- The new running maximum is the old one against the tile's largest score. -/
theorem tile_max (a j : Fin 8) (B1 B2 : Vec Ideal S16x128x64 .bf16)
    (fa : Spec.Sfa.Idx → EReal) (Kw : Spec.Srdf.Idx → EReal) (Kb : Spec.Srd.Idx → EReal) (Qw : Spec.Srdf.Idx → EReal) (Qb : Spec.Srd.Idx → EReal)
    (h1 : ∀ (r : Fin 16) (x : Fin 128) (d : Fin 64) (n : Fin 1024), n.val = a.val * 128 + x.val → B1 (ix3 r x d) = Spec.proj fa Kw Kb r n d)
    (h2 : ∀ (r : Fin 16) (y : Fin 128) (d : Fin 64), B2 (ix3 r y d) = Spec.proj fa Qw Qb r (Spec.col j y) d)
    (M : Vec Ideal S16x128x1 .f32) (r : Fin 16) (x : Fin 128) (n : Fin 1024) (hn : n.val = a.val * 128 + x.val) :
    k1_pay13 (F := Ideal) B1 B2 M (ix3 r x (0 : Fin 1)) = max (M (ix3 r x (0 : Fin 1))) (tileMax j fa Kw Kb Qw Qb r n) := by
  rw [rowmax_apply]
  unfold tileMax
  have e : (fun y : Fin 128 => k1_pay12 (F := Ideal) B1 B2 (ix3 r x y))
      = fun y => Spec.score fa Kw Kb Qw Qb r n (Spec.col j y) :=
    funext fun y => tile_score a j B1 B2 fa Kw Kb Qw Qb h1 h2 r x y n hn
  rw [e]

/-- For real entries the tile's largest score is a real. -/
theorem tile_max_real (j : Fin 8) (fa : Spec.Sfa.Idx → EReal) (Kw : Spec.Srdf.Idx → EReal) (Kb : Spec.Srd.Idx → EReal)
    (Qw : Spec.Srdf.Idx → EReal) (Qb : Spec.Srd.Idx → EReal)
    (hfa : ∀ i, ∃ z : ℝ, fa i = (z : EReal)) (hKw : ∀ i, ∃ z : ℝ, Kw i = (z : EReal)) (hKb : ∀ i, ∃ z : ℝ, Kb i = (z : EReal))
    (hQw : ∀ i, ∃ z : ℝ, Qw i = (z : EReal)) (hQb : ∀ i, ∃ z : ℝ, Qb i = (z : EReal)) (r : Fin 16) (n : Fin 1024) :
    ∃ z : ℝ, tileMax j fa Kw Kb Qw Qb r n = (z : EReal) := by
  unfold tileMax
  rw [maxStart_eq]
  choose g hg using fun y : Fin 128 => Spec.score_real fa Kw Kb Qw Qb hfa hKw hKb hQw hQb r n (Spec.col j y)
  rw [show (fun y : Fin 128 => Spec.score fa Kw Kb Qw Qb r n (Spec.col j y)) = fun y => ((g y : ℝ) : EReal) from funext hg]
  exact Cert.LibRealSoftmax.fold_max_real Finset.univ g Finset.univ_nonempty

/-! ## The running sum and the accumulator -/

/-- The new running sum: the old one rescaled, plus the tile's gated exponentials at the new maximum. -/
theorem tile_sum (a j : Fin 8) (B0 : Vec Ideal S128x128x64 .f32) (B1 B2 : Vec Ideal S16x128x64 .bf16)
    (B4 : Vec Ideal S16x64 .f32) (B5 : Vec Ideal S16x1 .f32)
    (fa : Spec.Sfa.Idx → EReal) (pe : Spec.Spe.Idx → EReal) (Gw : Spec.Srd.Idx → EReal) (Gb : Spec.Sr.Idx → EReal)
    (Kw : Spec.Srdf.Idx → EReal) (Kb : Spec.Srd.Idx → EReal) (Qw : Spec.Srdf.Idx → EReal) (Qb : Spec.Srd.Idx → EReal)
    (h0 : ∀ (x y : Fin 128) (g : Fin 64) (n : Fin 1024), n.val = a.val * 128 + x.val → B0 (ix3 x y g) = pe (ix3 n (Spec.col j y) g))
    (h1 : ∀ (r : Fin 16) (x : Fin 128) (d : Fin 64) (n : Fin 1024), n.val = a.val * 128 + x.val → B1 (ix3 r x d) = Spec.proj fa Kw Kb r n d)
    (h2 : ∀ (r : Fin 16) (y : Fin 128) (d : Fin 64), B2 (ix3 r y d) = Spec.proj fa Qw Qb r (Spec.col j y) d)
    (h4 : ∀ (r : Fin 16) (g : Fin 64), B4 (ix2 r g) = Gw (ix2 r g)) (h5 : ∀ r : Fin 16, B5 (ix2 r (0 : Fin 1)) = Gb (ix1 r))
    (M L : Vec Ideal S16x128x1 .f32) (r : Fin 16) (x : Fin 128) (n : Fin 1024) (hn : n.val = a.val * 128 + x.val) :
    k1_pay3 (F := Ideal) (k1_pay10 (F := Ideal) B0 B4 B5) (k1_pay12 (F := Ideal) B1 B2) (k1_pay13 (F := Ideal) B1 B2 M) M L
        (ix3 r x (0 : Fin 1))
      = Ideal.exp (M (ix3 r x (0 : Fin 1)) - k1_pay13 (F := Ideal) B1 B2 M (ix3 r x (0 : Fin 1))) * L (ix3 r x (0 : Fin 1))
        + ∑ y : Fin 128, Spec.gate pe Gw Gb r n (Spec.col j y)
            * Ideal.exp (Spec.score fa Kw Kb Qw Qb r n (Spec.col j y) - k1_pay13 (F := Ideal) B1 B2 M (ix3 r x (0 : Fin 1))) := by
  rw [runsum_apply]
  refine congrArg (_ + ·) (Finset.sum_congr rfl fun y _ => ?_)
  rw [weight_apply, tile_gate a j B0 B4 B5 pe Gw Gb h0 h4 h5 r x y n hn, tile_score a j B1 B2 fa Kw Kb Qw Qb h1 h2 r x y n hn]

/-- The new accumulator at feature `d`: the old one rescaled, plus the tile's gated exponentials times the values. -/
theorem tile_acc (a j : Fin 8) (B0 : Vec Ideal S128x128x64 .f32) (B1 B2 B3 : Vec Ideal S16x128x64 .bf16)
    (B4 : Vec Ideal S16x64 .f32) (B5 : Vec Ideal S16x1 .f32)
    (fa : Spec.Sfa.Idx → EReal) (pe : Spec.Spe.Idx → EReal) (Gw : Spec.Srd.Idx → EReal) (Gb : Spec.Sr.Idx → EReal)
    (Kw : Spec.Srdf.Idx → EReal) (Kb : Spec.Srd.Idx → EReal) (Qw : Spec.Srdf.Idx → EReal) (Qb : Spec.Srd.Idx → EReal)
    (Vw : Spec.Srdf.Idx → EReal) (Vb : Spec.Srd.Idx → EReal)
    (h0 : ∀ (x y : Fin 128) (g : Fin 64) (n : Fin 1024), n.val = a.val * 128 + x.val → B0 (ix3 x y g) = pe (ix3 n (Spec.col j y) g))
    (h1 : ∀ (r : Fin 16) (x : Fin 128) (d : Fin 64) (n : Fin 1024), n.val = a.val * 128 + x.val → B1 (ix3 r x d) = Spec.proj fa Kw Kb r n d)
    (h2 : ∀ (r : Fin 16) (y : Fin 128) (d : Fin 64), B2 (ix3 r y d) = Spec.proj fa Qw Qb r (Spec.col j y) d)
    (h3 : ∀ (r : Fin 16) (y : Fin 128) (d : Fin 64), B3 (ix3 r y d) = Spec.proj fa Vw Vb r (Spec.col j y) d)
    (h4 : ∀ (r : Fin 16) (g : Fin 64), B4 (ix2 r g) = Gw (ix2 r g)) (h5 : ∀ r : Fin 16, B5 (ix2 r (0 : Fin 1)) = Gb (ix1 r))
    (M : Vec Ideal S16x128x1 .f32) (A : Vec Ideal S16x128x64 .f32) (r : Fin 16) (x : Fin 128) (d : Fin 64) (n : Fin 1024)
    (hn : n.val = a.val * 128 + x.val) :
    k1_pay4 (F := Ideal) (k1_pay10 (F := Ideal) B0 B4 B5) (k1_pay11 (F := Ideal) B3) (k1_pay12 (F := Ideal) B1 B2)
        (k1_pay13 (F := Ideal) B1 B2 M) M A (ix3 r x d)
      = Ideal.exp (M (ix3 r x (0 : Fin 1)) - k1_pay13 (F := Ideal) B1 B2 M (ix3 r x (0 : Fin 1))) * A (ix3 r x d)
        + ∑ y : Fin 128, Spec.gate pe Gw Gb r n (Spec.col j y)
            * Ideal.exp (Spec.score fa Kw Kb Qw Qb r n (Spec.col j y) - k1_pay13 (F := Ideal) B1 B2 M (ix3 r x (0 : Fin 1)))
            * Spec.proj fa Vw Vb r (Spec.col j y) d := by
  rw [accum_apply]
  refine congrArg (_ + ·) (Finset.sum_congr rfl fun y _ => ?_)
  rw [weight_apply, tile_gate a j B0 B4 B5 pe Gw Gb h0 h4 h5 r x y n hn, tile_score a j B1 B2 fa Kw Kb Qw Qb h1 h2 r x y n hn,
    values_eq', h3]

/-! ## The last point's store -/

/-- A result column is its relation times 64 plus its feature. -/
theorem col_split (q : Fin 1024) : q.val = (Spec.relOf q).val * 64 + (Spec.featOf q).val := by
  show q.val = q.val / 64 * 64 + q.val % 64
  omega

/-- The stored entry at row `x`, column `q`: the accumulator times the reciprocal of the sum, at `q`'s relation and feature,
    plus the residual entry. -/
theorem tile_out (a : Fin 8) (A : Vec Ideal S16x128x64 .f32) (L : Vec Ideal S16x128x1 .f32) (B6 : Vec Ideal S128x1024 .f32)
    (fa : Spec.Sfa.Idx → EReal)
    (h6 : ∀ (x : Fin 128) (q n : Fin 1024), n.val = a.val * 128 + x.val → B6 (ix2 x q) = fa (ix2 n q))
    (x : Fin 128) (q n : Fin 1024) (hn : n.val = a.val * 128 + x.val) :
    k1_pay6 (F := Ideal) A L B6 (ix2 x q)
      = A (ix3 (Spec.relOf q) x (Spec.featOf q)) * Ideal.div 1 (L (ix3 (Spec.relOf q) x (0 : Fin 1))) + fa (ix2 n q) := by
  rw [finish_apply A L B6 (Spec.relOf q) x (Spec.featOf q) q (col_split q), oneWord_eq, h6 x q n hn]

end Cert.KernelIdeal.Hand

end
-- ==== Proof.KI.Value1.lean ====
/-
  What the attention call leaves in the result array, at the ideal values and for real inputs. Along one row of
  blocks the body meets the eight column tiles in order; the three scratch buffers hold, after tile j, the running
  maximum, the running sum and the running weighted sum of the values over the columns seen so far, each rescaled
  to the newest maximum. Read at one (relation, row, feature) these are exactly the three sequences of the running
  softmax, so after the eighth tile accumulator · (1 / sum) is the softmax-weighted mean of the values with the
  gate as the weights; the last tile stores it beside the residual row. The eight row blocks tile the result.
-/
import proofs.«150398_j60060822667746_2_alg».proof.Proof.KI.MainRun
import proofs.«150398_j60060822667746_2_alg».proof.Proof.KI.AttnReads
import proofs.«150398_j60060822667746_2_alg».proof.Proof.KI.Glue
import proofs.«150398_j60060822667746_2_alg».proof.Proof.KI.AttnTile
import proofs.«150398_j60060822667746_2_alg».proof.Proof.SpecOnline

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ) (ρ : Dev nD → PrngReg) (c : Dev nD)

/-- Every entry of the ten argument arrays is a real. -/
structure RealArgs : Prop where
  fa : ∀ i, ∃ z : ℝ, aFa m c i = (z : EReal)
  pe : ∀ i, ∃ z : ℝ, aPe m c i = (z : EReal)
  gw : ∀ i, ∃ z : ℝ, aGw m c i = (z : EReal)
  gb : ∀ i, ∃ z : ℝ, aGb m c i = (z : EReal)
  kw : ∀ i, ∃ z : ℝ, aKw m c i = (z : EReal)
  kb : ∀ i, ∃ z : ℝ, aKb m c i = (z : EReal)
  qw : ∀ i, ∃ z : ℝ, aQw m c i = (z : EReal)
  qb : ∀ i, ∃ z : ℝ, aQb m c i = (z : EReal)
  vw : ∀ i, ∃ z : ℝ, aVw m c i = (z : EReal)
  vb : ∀ i, ∃ z : ℝ, aVb m c i = (z : EReal)

theorem linear_eq_proj (fa : FVec Ideal S1024x1024 .f32) (W : FVec Ideal S16x64x1024 .f32) (B : FVec Ideal S16x64 .f32)
    (r : Fin 16) (n : Fin 1024) (d : Fin 64) : linear fa W B r n d = Spec.proj fa W B r n d := rfl

/-! ## The blocks a point loads, in terms of the arguments -/

section Reads
variable (t : Fin cfg1.N) (a j : Fin 8) (ha : a.val = t.val / 8) (hj : j.val = t.val % 8)
include ha hj

theorem rd0 : ∀ (x y : Fin 128) (g : Fin 64) (n : Fin 1024), n.val = a.val * 128 + x.val →
    iblk1 (Vattn m ρ) c 0 t (ix3 x y g) = aPe m c (ix3 n (Spec.col j y) g) :=
  fun x y g n hn => (pairs_read (Vattn m ρ) c t a j ha hj x y g n (Spec.col j y) hn rfl).trans (congrFun (attn_pe m ρ c) _)
theorem rd1 : ∀ (r : Fin 16) (x : Fin 128) (d : Fin 64) (n : Fin 1024), n.val = a.val * 128 + x.val →
    iblk1 (Vattn m ρ) c 1 t (ix3 r x d) = Spec.proj (aFa m c) (aKw m c) (aKb m c) r n d :=
  fun r x d n hn => (rowSide_read (Vattn m ρ) c t a ha r x d n hn).trans (keys_apply m ρ c r n d)
theorem rd2 : ∀ (r : Fin 16) (y : Fin 128) (d : Fin 64),
    iblk1 (Vattn m ρ) c 2 t (ix3 r y d) = Spec.proj (aFa m c) (aQw m c) (aQb m c) r (Spec.col j y) d :=
  fun r y d => (colSide_read (Vattn m ρ) c t j hj r y d (Spec.col j y) rfl).trans (queries_apply m ρ c r _ d)
theorem rd3 : ∀ (r : Fin 16) (y : Fin 128) (d : Fin 64),
    iblk1 (Vattn m ρ) c 3 t (ix3 r y d) = Spec.proj (aFa m c) (aVw m c) (aVb m c) r (Spec.col j y) d :=
  fun r y d => (values_read (Vattn m ρ) c t j hj r y d (Spec.col j y) rfl).trans (values_apply m ρ c r _ d)
theorem rd4 : ∀ (r : Fin 16) (g : Fin 64), iblk1 (Vattn m ρ) c 4 t (ix2 r g) = aGw m c (ix2 r g) :=
  fun r g => (headRows_read (Vattn m ρ) c t r g).trans (congrFun (attn_gw m ρ c) _)
theorem rd5 : ∀ r : Fin 16, iblk1 (Vattn m ρ) c 5 t (ix2 r (0 : Fin 1)) = aGb m c (ix1 r) :=
  fun r => (headCol_read (Vattn m ρ) c t r (0 : Fin 1)).trans (gateBias_apply m ρ c r)
theorem rd6 : ∀ (x : Fin 128) (q n : Fin 1024), n.val = a.val * 128 + x.val →
    iblk1 (Vattn m ρ) c 6 t (ix2 x q) = aFa m c (ix2 n q) :=
  fun x q n hn => (resid_read (Vattn m ρ) c t a ha x q n hn).trans (congrFun (attn_fa m ρ c) _)

end Reads

/-! ## One point's step -/

/-- What the body finds in the three scratch buffers at point `t`: the starting values at a row's first column, else
    what the point before left. -/
def found (t : Fin cfg1.N) : Vec Ideal S16x128x1 .f32 × Vec Ideal S16x128x1 .f32 × Vec Ideal S16x128x64 .f32 :=
  if t.val % 8 = 0 then (k1_pay7 (F := Ideal), k1_pay8 (F := Ideal), k1_pay9 (F := Ideal))
  else (carried1 (Vattn m ρ) c (t.val - 1) (Nat.lt_of_le_of_lt (Nat.sub_le _ _) t.isLt)).2

theorem left_max (t : Fin cfg1.N) : (carried1 (Vattn m ρ) c t.val t.isLt).2.1
    = k1_pay5 (k1_pay13 (iblk1 (Vattn m ρ) c 1 t) (iblk1 (Vattn m ρ) c 2 t) (found m ρ c t).1) := by
  unfold found
  by_cases h0 : t.val % 8 = 0
  · rw [if_pos h0]; exact carried1_first_max (Vattn m ρ) c t h0
  · rw [if_neg h0]; exact carried1_later_max (Vattn m ρ) c t h0
theorem left_sum (t : Fin cfg1.N) : (carried1 (Vattn m ρ) c t.val t.isLt).2.2.1
    = k1_pay3 (k1_pay10 (iblk1 (Vattn m ρ) c 0 t) (iblk1 (Vattn m ρ) c 4 t) (iblk1 (Vattn m ρ) c 5 t))
        (k1_pay12 (iblk1 (Vattn m ρ) c 1 t) (iblk1 (Vattn m ρ) c 2 t))
        (k1_pay13 (iblk1 (Vattn m ρ) c 1 t) (iblk1 (Vattn m ρ) c 2 t) (found m ρ c t).1) (found m ρ c t).1 (found m ρ c t).2.1 := by
  unfold found
  by_cases h0 : t.val % 8 = 0
  · rw [if_pos h0]; exact carried1_first_sum (Vattn m ρ) c t h0
  · rw [if_neg h0]; exact carried1_later_sum (Vattn m ρ) c t h0
theorem left_acc (t : Fin cfg1.N) : (carried1 (Vattn m ρ) c t.val t.isLt).2.2.2
    = k1_pay4 (k1_pay10 (iblk1 (Vattn m ρ) c 0 t) (iblk1 (Vattn m ρ) c 4 t) (iblk1 (Vattn m ρ) c 5 t)) (k1_pay11 (iblk1 (Vattn m ρ) c 3 t))
        (k1_pay12 (iblk1 (Vattn m ρ) c 1 t) (iblk1 (Vattn m ρ) c 2 t))
        (k1_pay13 (iblk1 (Vattn m ρ) c 1 t) (iblk1 (Vattn m ρ) c 2 t) (found m ρ c t).1) (found m ρ c t).1 (found m ρ c t).2.2 := by
  unfold found
  by_cases h0 : t.val % 8 = 0
  · rw [if_pos h0]; exact carried1_first_acc (Vattn m ρ) c t h0
  · rw [if_neg h0]; exact carried1_later_acc (Vattn m ρ) c t h0

/-- The same contents at equal positions (the position's bound is a proof, so any two agree). -/
theorem carried1_congr {n n' : ℕ} (h : n = n') (hn : n < cfg1.N) (hn' : n' < cfg1.N) :
    carried1 (Vattn m ρ) c n hn = carried1 (Vattn m ρ) c n' hn' := by subst h; rfl

/-! ## A row of blocks: the three running sequences at one (relation, row, feature) -/

section Row
variable (a : Fin 8) (r : Fin 16) (x : Fin 128) (d : Fin 64)

/-- Point number j of row block a. -/
def ptOf (j : Fin 8) : Fin cfg1.N := ⟨8 * a.val + j.val, by rw [show cfg1.N = 64 from N_1]; omega⟩

/-- The running maximum, sum and weighted sum before column tile k (k = 0: the starting values) at (r, x, d). -/
def seqM : ℕ → EReal
  | 0 => ⊥
  | k + 1 => if h : k < 8 then (carried1 (Vattn m ρ) c (ptOf a ⟨k, h⟩).val (ptOf a ⟨k, h⟩).isLt).2.1 (ix3 r x (0 : Fin 1)) else 0
def seqL : ℕ → EReal
  | 0 => 0
  | k + 1 => if h : k < 8 then (carried1 (Vattn m ρ) c (ptOf a ⟨k, h⟩).val (ptOf a ⟨k, h⟩).isLt).2.2.1 (ix3 r x (0 : Fin 1)) else 0
def seqA : ℕ → EReal
  | 0 => 0
  | k + 1 => if h : k < 8 then (carried1 (Vattn m ρ) c (ptOf a ⟨k, h⟩).val (ptOf a ⟨k, h⟩).isLt).2.2.2 (ix3 r x d) else 0

theorem seqM_succ (j : Fin 8) : seqM m ρ c a r x (j.val + 1)
    = (carried1 (Vattn m ρ) c (ptOf a j).val (ptOf a j).isLt).2.1 (ix3 r x (0 : Fin 1)) := by
  show (if h : j.val < 8 then _ else _) = _
  rw [dif_pos j.isLt]
theorem seqL_succ (j : Fin 8) : seqL m ρ c a r x (j.val + 1)
    = (carried1 (Vattn m ρ) c (ptOf a j).val (ptOf a j).isLt).2.2.1 (ix3 r x (0 : Fin 1)) := by
  show (if h : j.val < 8 then _ else _) = _
  rw [dif_pos j.isLt]
theorem seqA_succ (j : Fin 8) : seqA m ρ c a r x d (j.val + 1)
    = (carried1 (Vattn m ρ) c (ptOf a j).val (ptOf a j).isLt).2.2.2 (ix3 r x d) := by
  show (if h : j.val < 8 then _ else _) = _
  rw [dif_pos j.isLt]

/-- What point j of the row finds in the scratch buffers is the sequences' value before tile j. -/
theorem found_at (j : Fin 8) :
    (found m ρ c (ptOf a j)).1 (ix3 r x (0 : Fin 1)) = seqM m ρ c a r x j.val
    ∧ (found m ρ c (ptOf a j)).2.1 (ix3 r x (0 : Fin 1)) = seqL m ρ c a r x j.val
    ∧ (found m ρ c (ptOf a j)).2.2 (ix3 r x d) = seqA m ρ c a r x d j.val := by
  obtain ⟨jv, hjv⟩ := j
  cases jv with
  | zero =>
    have h0 : (ptOf a ⟨0, hjv⟩).val % 8 = 0 := by show (8 * a.val + 0) % 8 = 0; omega
    unfold found
    rw [if_pos h0]
    exact ⟨maxInit_apply (ix3 r x (0 : Fin 1)), sumInit_apply (ix3 r x (0 : Fin 1)), accInit_apply (ix3 r x d)⟩
  | succ k =>
    have hk : k < 8 := by omega
    have h0 : ¬(ptOf a ⟨k + 1, hjv⟩).val % 8 = 0 := by show ¬(8 * a.val + (k + 1)) % 8 = 0; omega
    have e : carried1 (Vattn m ρ) c ((ptOf a ⟨k + 1, hjv⟩).val - 1) (Nat.lt_of_le_of_lt (Nat.sub_le _ _) (ptOf a ⟨k + 1, hjv⟩).isLt)
        = carried1 (Vattn m ρ) c (ptOf a ⟨k, hk⟩).val (ptOf a ⟨k, hk⟩).isLt :=
      carried1_congr m ρ c (by show 8 * a.val + (k + 1) - 1 = 8 * a.val + k; omega) _ _
    unfold found
    rw [if_neg h0, e]
    refine ⟨?_, ?_, ?_⟩
    · exact (seqM_succ m ρ c a r x ⟨k, hk⟩).symm
    · exact (seqL_succ m ρ c a r x ⟨k, hk⟩).symm
    · exact (seqA_succ m ρ c a r x d ⟨k, hk⟩).symm

variable (hR : RealArgs m c) (n : Fin 1024) (hn : n.val = a.val * 128 + x.val)
include hn

theorem pt_row (j : Fin 8) : a.val = (ptOf a j).val / 8 := by show a.val = (8 * a.val + j.val) / 8; omega
theorem pt_col (j : Fin 8) : j.val = (ptOf a j).val % 8 := by show j.val = (8 * a.val + j.val) % 8; omega

omit hn in
theorem pt_row' (j : Fin 8) : a.val = (ptOf a j).val / 8 := by show a.val = (8 * a.val + j.val) / 8; omega
omit hn in
theorem pt_col' (j : Fin 8) : j.val = (ptOf a j).val % 8 := by show j.val = (8 * a.val + j.val) % 8; omega

/-- The running maximum after tile j. -/
theorem stepM (j : Fin 8) : seqM m ρ c a r x (j.val + 1)
    = max (seqM m ρ c a r x j.val) (tileMax j (aFa m c) (aKw m c) (aKb m c) (aQw m c) (aQb m c) r n) := by
  rw [seqM_succ, left_max, keepMax_eq,
    tile_max a j _ _ (aFa m c) (aKw m c) (aKb m c) (aQw m c) (aQb m c)
      (rd1 m ρ c (ptOf a j) a j (pt_row' a j) (pt_col' a j)) (rd2 m ρ c (ptOf a j) a j (pt_row' a j) (pt_col' a j)) _ r x n hn,
    (found_at m ρ c a r x (0 : Fin 64) j).1]

/-- The running sum after tile j. -/
theorem stepL (j : Fin 8) : seqL m ρ c a r x (j.val + 1)
    = Ideal.exp (seqM m ρ c a r x j.val - seqM m ρ c a r x (j.val + 1)) * seqL m ρ c a r x j.val
      + ∑ y : Fin 128, Spec.gate (aPe m c) (aGw m c) (aGb m c) r n (Spec.col j y)
          * Ideal.exp (Spec.score (aFa m c) (aKw m c) (aKb m c) (aQw m c) (aQb m c) r n (Spec.col j y) - seqM m ρ c a r x (j.val + 1)) := by
  have hM : k1_pay13 (F := Ideal) (iblk1 (Vattn m ρ) c 1 (ptOf a j)) (iblk1 (Vattn m ρ) c 2 (ptOf a j)) (found m ρ c (ptOf a j)).1 (ix3 r x (0 : Fin 1))
      = seqM m ρ c a r x (j.val + 1) := by
    rw [seqM_succ, left_max, keepMax_eq]
  rw [seqL_succ, left_sum,
    tile_sum a j _ _ _ _ _ (aFa m c) (aPe m c) (aGw m c) (aGb m c) (aKw m c) (aKb m c) (aQw m c) (aQb m c)
      (rd0 m ρ c (ptOf a j) a j (pt_row' a j) (pt_col' a j)) (rd1 m ρ c (ptOf a j) a j (pt_row' a j) (pt_col' a j))
      (rd2 m ρ c (ptOf a j) a j (pt_row' a j) (pt_col' a j)) (rd4 m ρ c (ptOf a j) a j (pt_row' a j) (pt_col' a j))
      (rd5 m ρ c (ptOf a j) a j (pt_row' a j) (pt_col' a j)) _ _ r x n hn,
    hM, (found_at m ρ c a r x (0 : Fin 64) j).1, (found_at m ρ c a r x (0 : Fin 64) j).2.1]

/-- The running weighted sum of the values after tile j. -/
theorem stepA (j : Fin 8) : seqA m ρ c a r x d (j.val + 1)
    = Ideal.exp (seqM m ρ c a r x j.val - seqM m ρ c a r x (j.val + 1)) * seqA m ρ c a r x d j.val
      + ∑ y : Fin 128, Spec.gate (aPe m c) (aGw m c) (aGb m c) r n (Spec.col j y)
          * Ideal.exp (Spec.score (aFa m c) (aKw m c) (aKb m c) (aQw m c) (aQb m c) r n (Spec.col j y) - seqM m ρ c a r x (j.val + 1))
          * Spec.proj (aFa m c) (aVw m c) (aVb m c) r (Spec.col j y) d := by
  have hM : k1_pay13 (F := Ideal) (iblk1 (Vattn m ρ) c 1 (ptOf a j)) (iblk1 (Vattn m ρ) c 2 (ptOf a j)) (found m ρ c (ptOf a j)).1 (ix3 r x (0 : Fin 1))
      = seqM m ρ c a r x (j.val + 1) := by
    rw [seqM_succ, left_max, keepMax_eq]
  rw [seqA_succ, left_acc,
    tile_acc a j _ _ _ _ _ _ (aFa m c) (aPe m c) (aGw m c) (aGb m c) (aKw m c) (aKb m c) (aQw m c) (aQb m c) (aVw m c) (aVb m c)
      (rd0 m ρ c (ptOf a j) a j (pt_row' a j) (pt_col' a j)) (rd1 m ρ c (ptOf a j) a j (pt_row' a j) (pt_col' a j))
      (rd2 m ρ c (ptOf a j) a j (pt_row' a j) (pt_col' a j)) (rd3 m ρ c (ptOf a j) a j (pt_row' a j) (pt_col' a j))
      (rd4 m ρ c (ptOf a j) a j (pt_row' a j) (pt_col' a j)) (rd5 m ρ c (ptOf a j) a j (pt_row' a j) (pt_col' a j)) _ _ r x d n hn,
    hM, (found_at m ρ c a r x d j).1, (found_at m ρ c a r x d j).2.2]

include hR in
/-- After the eighth tile: accumulator · (1 / sum) is the gated softmax mean of the values. -/
theorem row_done : seqA m ρ c a r x d 8 * Ideal.div 1 (seqL m ρ c a r x 8)
    = Spec.attn (aFa m c) (aPe m c) (aGw m c) (aGb m c) (aKw m c) (aKb m c) (aQw m c) (aQb m c) (aVw m c) (aVb m c) r n d :=
  Spec.attn_of_walk (aFa m c) (aPe m c) (aGw m c) (aGb m c) (aKw m c) (aKb m c) (aQw m c) (aQb m c) (aVw m c) (aVb m c)
    hR.fa hR.pe hR.gw hR.gb hR.kw hR.kb hR.qw hR.qb hR.vw hR.vb r n d
    (fun j => tileMax j (aFa m c) (aKw m c) (aKb m c) (aQw m c) (aQb m c) r n)
    (fun j => tile_max_real j (aFa m c) (aKw m c) (aKb m c) (aQw m c) (aQb m c) hR.fa hR.kw hR.kb hR.qw hR.qb r n)
    (seqM m ρ c a r x) (seqL m ρ c a r x) (seqA m ρ c a r x d) rfl rfl rfl
    (fun j => stepM m ρ c a r x n hn j) (fun j => stepL m ρ c a r x n hn j) (fun j => stepA m ρ c a r x d n hn j)

end Row

/-! ## The stored block, the cover, the array -/

/-- The function the result array ends holding. -/
abbrev target : S1024x1024.Idx → EReal :=
  Spec.out (aFa m c) (aPe m c) (aGw m c) (aGb m c) (aKw m c) (aKb m c) (aQw m c) (aQb m c) (aVw m c) (aVb m c)

/-- At a row's last column the stored block is the target's block. -/
theorem last_block (hR : RealArgs m c) (t : Fin cfg1.N) (h7 : t.val % 8 = 7) (x : Fin 128) (q n : Fin 1024)
    (hn : n.val = win1_7.index t (0 : Fin 2) * 128 + x.val) :
    (carried1 (Vattn m ρ) c t.val t.isLt).1 (ix2 x q) = target m c (ix2 n q) := by
  have hN : t.val < 64 := lt_of_lt_of_eq t.isLt (show cfg1.N = 64 from N_1)
  obtain ⟨e7, -⟩ := attn_index7 t
  let a : Fin 8 := ⟨t.val / 8, by omega⟩
  have hn' : n.val = a.val * 128 + x.val := by rw [hn, e7]
  have ht : t = ptOf a (7 : Fin 8) := Fin.ext (by show t.val = 8 * (t.val / 8) + 7; omega)
  rw [carried1_last_out (Vattn m ρ) c t h7,
    tile_out a _ _ _ (aFa m c) (rd6 m ρ c t a (7 : Fin 8) rfl (by show 7 = t.val % 8; omega)) x q n hn']
  show _ = Spec.attn _ _ _ _ _ _ _ _ _ _ (Spec.relOf q) n (Spec.featOf q) + aFa m c (ix2 n q)
  refine congrArg (· + aFa m c (ix2 n q)) ?_
  rw [← row_done m ρ c a (Spec.relOf q) x (Spec.featOf q) hR n hn']
  have eA : seqA m ρ c a (Spec.relOf q) x (Spec.featOf q) 8 = (carried1 (Vattn m ρ) c t.val t.isLt).2.2.2 (ix3 (Spec.relOf q) x (Spec.featOf q)) := by
    rw [show (8 : ℕ) = (7 : Fin 8).val + 1 from rfl, seqA_succ]
    exact congrArg (fun p => p.2.2.2 (ix3 (Spec.relOf q) x (Spec.featOf q))) (carried1_congr m ρ c (congrArg Fin.val ht).symm _ _)
  have eL : seqL m ρ c a (Spec.relOf q) x 8 = (carried1 (Vattn m ρ) c t.val t.isLt).2.2.1 (ix3 (Spec.relOf q) x (0 : Fin 1)) := by
    rw [show (8 : ℕ) = (7 : Fin 8).val + 1 from rfl, seqL_succ]
    exact congrArg (fun p => p.2.2.1 (ix3 (Spec.relOf q) x (0 : Fin 1))) (carried1_congr m ρ c (congrArg Fin.val ht).symm _ _)
  rw [eA, eL]

/-- THE RESULT ARRAY after the attention call, for real inputs. -/
theorem attn_final (hR : RealArgs m c) : (dat1 (Vattn m ρ) c).arrAt 7 cfg1.N = target m c :=
  (dat1 (Vattn m ρ) c).arrAt_eq_of_cover 7 _
    (fun t hf => attn_flushed_of (Vattn m ρ) c t (target m c) fun x q n hn =>
      last_block m ρ c hR t ((flush1_7 t).mp hf) x q n hn)
    attn_cover

/-- What the program's result buffer holds at the end. -/
theorem result_at_end (hR : RealArgs m c) : atEnd m ρ c (Proc.devRef .tc main_v21) = target m c :=
  (atEnd_arr m ρ c 7).trans (attn_final m ρ c hR)

end Cert.KernelIdeal.Hand

end
-- ==== Proof.Finite.lean ====
/-
  From the finiteness precondition to real entries.

  The precondition is the conjunction, over the ten argument arrays, of "every entry has absolute value below +∞".
  Each conjunct is a reduction by `and` over all axes; when the whole conjunction is 1 every entrywise test is 1,
  and an extended real whose absolute value is below +∞ is a real number.
-/
import proofs.«150398_j60060822667746_2_alg».proof.Proof.Gen.Pre_finite_inputs
import proofs.«150398_j60060822667746_2_alg».proof.Proof.LibRealSoftmax
import Idealize.ShloMosaic.Lib.ReduceAll
import Idealize.ShloMosaic.Lib.ValueIdx
import Idealize.ShloMosaic.PureOps.Ideal

noncomputable section

namespace Cert.Spec

open Idealize.ShloMosaic Cert.Pre_finite_inputs Cert.Pre_finite_inputs.Facts

/-- The shape with no axes has one index. -/
instance subsingleton_scalar_idx : Subsingleton S_.Idx := ⟨fun a b => funext fun d => d.elim0⟩

/-- One conjunct of the precondition, passed: every entry of the array is a real number. -/
theorem real_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant S_ .f32 0x7F800000#32)))
          (constantI S_ 1 1#1) hr hu j = 1#1) (i : s.Idx) : ∃ x : ℝ, a i = (x : EReal) := by
  have h := Host.reduce_andi_all _ _ hr hu j e i
  dsimp only [cmpf, Host.absf, broadcastInDim, constant] at h
  exact Cert.LibRealSoftmax.real_of_test (a i) h

/-- Under the finiteness precondition every entry of every argument array is a real number. -/
theorem entries_real (a0 : FVec Ideal S1024x1024 .f32) (a1 : FVec Ideal S1024x1024x64 .f32) (a2 : FVec Ideal S16x64 .f32)
    (a3 : FVec Ideal S16 .f32) (a4 : FVec Ideal S16x64x1024 .f32) (a5 : FVec Ideal S16x64 .f32)
    (a6 : FVec Ideal S16x64x1024 .f32) (a7 : FVec Ideal S16x64 .f32) (a8 : FVec Ideal S16x64x1024 .f32)
    (a9 : FVec Ideal S16x64 .f32)
    (h : Cert.Pre_finite_inputs.fn (F := Ideal) a0 a1 a2 a3 a4 a5 a6 a7 a8 a9 = fun _ => 1#1) :
    (∀ i, ∃ x : ℝ, a0 i = (x : EReal)) ∧ (∀ i, ∃ x : ℝ, a1 i = (x : EReal)) ∧ (∀ i, ∃ x : ℝ, a2 i = (x : EReal))
    ∧ (∀ i, ∃ x : ℝ, a3 i = (x : EReal)) ∧ (∀ i, ∃ x : ℝ, a4 i = (x : EReal)) ∧ (∀ i, ∃ x : ℝ, a5 i = (x : EReal))
    ∧ (∀ i, ∃ x : ℝ, a6 i = (x : EReal)) ∧ (∀ i, ∃ x : ℝ, a7 i = (x : EReal)) ∧ (∀ i, ∃ x : ℝ, a8 i = (x : EReal))
    ∧ (∀ i, ∃ x : ℝ, a9 i = (x : EReal)) := by
  have h0 := congrFun h (fun d => d.elim0)
  dsimp only [fn, fn_part1, fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8, real_of_all a9 _ _ _ _ e9⟩

end Cert.Spec

end
-- ==== Proof.RefIsSpec.lean ====
/-
  The reference computes the specified result.

  Stage by stage the reference's operations are read at an index: the three projections, the gate
  (`max c (max geo 0) = max geo c` because `0 ≤ c`), the scores (`x / √64 = x * (1/8)`), the logits `log gate + score`, the
  row maximum (only used as: it is a real number), the exponentials, their total, the quotient, the product with the
  values, and the transpose and reshape that send `(r, n, d)` to row `n`, column `r * 64 + d`. The plain softmax of the
  logits is the gated mean (the law on the gated mean), which is the specification.
-/
import proofs.«150398_j60060822667746_2_alg».proof.Proof.Gen.ReferenceIdeal.Read
import proofs.«150398_j60060822667746_2_alg».proof.Proof.Spec
import proofs.«150398_j60060822667746_2_alg».proof.Proof.OnlineSoftmax
import proofs.«150398_j60060822667746_2_alg».proof.Proof.LibRealSoftmax
import proofs.«150398_j60060822667746_2_alg».proof.Proof.Finite
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S1024x1024, .f32⟩ : BufTy).Contents (Elt Ideal)) (x1 : (⟨S1024x1024x64, .f32⟩ : BufTy).Contents (Elt Ideal))
  (x2 : (⟨S16x64, .f32⟩ : BufTy).Contents (Elt Ideal)) (x3 : (⟨S16, .f32⟩ : BufTy).Contents (Elt Ideal))
  (x4 : (⟨S16x64x1024, .f32⟩ : BufTy).Contents (Elt Ideal)) (x5 : (⟨S16x64, .f32⟩ : BufTy).Contents (Elt Ideal))
  (x6 : (⟨S16x64x1024, .f32⟩ : BufTy).Contents (Elt Ideal)) (x7 : (⟨S16x64, .f32⟩ : BufTy).Contents (Elt Ideal))
  (x8 : (⟨S16x64x1024, .f32⟩ : BufTy).Contents (Elt Ideal)) (x9 : (⟨S16x64, .f32⟩ : BufTy).Contents (Elt Ideal))

/-- The keys: operation 11 at `(r, n, d)`. -/
theorem key_at (r : Fin 16) (n : Fin 1024) (d : Fin 64) :
    val_main_v11 (F := Ideal) x0 x4 x5 (ix3 r n d) = Cert.Spec.proj x0 x4 x5 r n d := by
  rw [val_main_v11_apply, val_main_v8_apply, val_main_v10_apply, val_main_v9_apply, val_main_v7_apply]
  have e1 : ∀ k : Fin 1024, lidx_main_v7 (idx_main_v8 (ix3 r n d)) k = ix3 r d k := fun k =>
    funext fun a => Fin.ext (by match a with | ⟨0, _⟩ => rfl | ⟨1, _⟩ => rfl | ⟨2, _⟩ => rfl)
  have e2 : ∀ k : Fin 1024, ridx_main_v7 (idx_main_v8 (ix3 r n d)) k = ix2 n k := fun k =>
    funext fun a => Fin.ext (by match a with | ⟨0, _⟩ => rfl | ⟨1, _⟩ => rfl)
  have e3 : idx_main_v9 (idx_main_v10 (ix3 r n d)) = ix2 r d :=
    funext fun a => Fin.ext (by match a with | ⟨0, _⟩ => rfl | ⟨1, _⟩ => rfl)
  simp only [e1, e2, e3, Ideal.addf_def]
  unfold Cert.Spec.proj
  exact congrArg (· + x5 (ix2 r d)) (Finset.sum_congr rfl fun f _ => mul_comm _ _)

/-- Column `m` of row `n`, among the `1024 * 1024` pairs. -/
def pcol (n m : Fin 1024) : Fin 1048576 := ⟨n.val * 1024 + m.val, by have := n.isLt; have := m.isLt; omega⟩

/-- Clipping below at `0` and then at a nonnegative `c` is clipping at `c`. -/
theorem clip_clip (G c : EReal) (hc : 0 ≤ c) : max c (max G 0) = max G c := by
  rw [max_left_comm, max_eq_left hc]

/-- The gate: operation 26 at `(r, n, m)`. -/
theorem gate_at (r : Fin 16) (n m : Fin 1024) :
    val_main_v26 (F := Ideal) x1 x2 x3 (ix3 r n m) = Cert.Spec.gate x1 x2 x3 r n m := by
  rw [val_main_v26_apply, val_main_call1_v1_apply, val_main_call1_v0_apply, val_main_cst_0_apply, val_main_v6_apply,
    val_main_v5_apply, val_main_v4_apply, val_main_call0_v0_apply, val_main_call0_cst_apply, val_main_v1_apply,
    val_main_v3_apply, val_main_v2_apply]
  have e6 : idx_main_v6 (ix3 r n m) = ix2 r (pcol n m) := funext fun a => Fin.ext (by
    have := r.isLt; have := n.isLt; have := m.isLt
    match a with
    | ⟨0, _⟩ => show ((r.val * 1024 + n.val) * 1024 + m.val) / 1048576 = r.val; omega
    | ⟨1, _⟩ => show ((r.val * 1024 + n.val) * 1024 + m.val) % 1048576 = n.val * 1024 + m.val; omega)
  rw [e6]
  have e1 : ∀ g : Fin 64, lidx_main_v1 (ix2 r (pcol n m)) g = ix2 r g := fun g =>
    funext fun a => Fin.ext (by match a with | ⟨0, _⟩ => rfl | ⟨1, _⟩ => rfl)
  have e0 : ∀ g : Fin 64, idx_main_v0 (ridx_main_v1 (ix2 r (pcol n m)) g) = ix3 n m g := fun g =>
    funext fun a => Fin.ext (by
      have := n.isLt; have := m.isLt; have := g.isLt
      match a with
      | ⟨0, _⟩ => show ((n.val * 1024 + m.val) * 64 + g.val) / 65536 = n.val; omega
      | ⟨1, _⟩ => show ((n.val * 1024 + m.val) * 64 + g.val) / 64 % 1024 = m.val; omega
      | ⟨2, _⟩ => show ((n.val * 1024 + m.val) * 64 + g.val) % 64 = g.val; omega)
  have e3 : idx_main_v2 (idx_main_v3 (ix2 r (pcol n m))) = ix1 r :=
    funext fun a => Fin.ext (by match a with | ⟨0, _⟩ => rfl)
  simp only [val_main_v0_apply, e1, e0, e3, Ideal.addf_def, Ideal.maximumf_def, Ideal.ofBits_def, Ideal.ofBits_zero_f32]
  obtain ⟨c, hc0, hc⟩ := Cert.Spec.cmin_pos
  unfold Cert.Spec.gate Cert.Spec.geo
  refine clip_clip _ _ ?_
  show (0 : EReal) ≤ Cert.Spec.cmin
  rw [hc]
  exact (EReal.coe_pos.2 hc0).le

/-- The queries: operation 16 at `(r, n, d)`. -/
theorem query_at (r : Fin 16) (n : Fin 1024) (d : Fin 64) :
    val_main_v16 (F := Ideal) x0 x6 x7 (ix3 r n d) = Cert.Spec.proj x0 x6 x7 r n d := by
  rw [val_main_v16_apply, val_main_v13_apply, val_main_v15_apply, val_main_v14_apply, val_main_v12_apply]
  have e1 : ∀ k : Fin 1024, lidx_main_v12 (idx_main_v13 (ix3 r n d)) k = ix3 r d k := fun k =>
    funext fun a => Fin.ext (by match a with | ⟨0, _⟩ => rfl | ⟨1, _⟩ => rfl | ⟨2, _⟩ => rfl)
  have e2 : ∀ k : Fin 1024, ridx_main_v12 (idx_main_v13 (ix3 r n d)) k = ix2 n k := fun k =>
    funext fun a => Fin.ext (by match a with | ⟨0, _⟩ => rfl | ⟨1, _⟩ => rfl)
  have e3 : idx_main_v14 (idx_main_v15 (ix3 r n d)) = ix2 r d :=
    funext fun a => Fin.ext (by match a with | ⟨0, _⟩ => rfl | ⟨1, _⟩ => rfl)
  simp only [e1, e2, e3, Ideal.addf_def]
  unfold Cert.Spec.proj
  exact congrArg (· + x7 (ix2 r d)) (Finset.sum_congr rfl fun f _ => mul_comm _ _)

/-- The values: operation 21 at `(r, n, d)`. -/
theorem value_at (r : Fin 16) (n : Fin 1024) (d : Fin 64) :
    val_main_v21 (F := Ideal) x0 x8 x9 (ix3 r n d) = Cert.Spec.proj x0 x8 x9 r n d := by
  rw [val_main_v21_apply, val_main_v18_apply, val_main_v20_apply, val_main_v19_apply, val_main_v17_apply]
  have e1 : ∀ k : Fin 1024, lidx_main_v17 (idx_main_v18 (ix3 r n d)) k = ix3 r d k := fun k =>
    funext fun a => Fin.ext (by match a with | ⟨0, _⟩ => rfl | ⟨1, _⟩ => rfl | ⟨2, _⟩ => rfl)
  have e2 : ∀ k : Fin 1024, ridx_main_v17 (idx_main_v18 (ix3 r n d)) k = ix2 n k := fun k =>
    funext fun a => Fin.ext (by match a with | ⟨0, _⟩ => rfl | ⟨1, _⟩ => rfl)
  have e3 : idx_main_v19 (idx_main_v20 (ix3 r n d)) = ix2 r d :=
    funext fun a => Fin.ext (by match a with | ⟨0, _⟩ => rfl | ⟨1, _⟩ => rfl)
  simp only [e1, e2, e3, Ideal.addf_def]
  unfold Cert.Spec.proj
  exact congrArg (· + x9 (ix2 r d)) (Finset.sum_congr rfl fun f _ => mul_comm _ _)

/-- The scaled scores: operation 25 at `(r, n, m)`. -/
theorem score_at (r : Fin 16) (n m : Fin 1024) :
    val_main_v25 (F := Ideal) x0 x4 x5 x6 x7 (ix3 r n m) = Cert.Spec.score x0 x4 x5 x6 x7 r n m := by
  rw [val_main_v25_apply, val_main_v22_apply, val_main_v24_apply, val_main_v23_apply, val_main_cst_apply]
  have e1 : ∀ d : Fin 64, lidx_main_v22 (ix3 r n m) d = ix3 r n d := fun d =>
    funext fun a => Fin.ext (by match a with | ⟨0, _⟩ => rfl | ⟨1, _⟩ => rfl | ⟨2, _⟩ => rfl)
  have e2 : ∀ d : Fin 64, ridx_main_v22 (ix3 r n m) d = ix3 r m d := fun d =>
    funext fun a => Fin.ext (by match a with | ⟨0, _⟩ => rfl | ⟨1, _⟩ => rfl | ⟨2, _⟩ => rfl)
  simp only [e1, e2, key_at, query_at, Ideal.hostDivf_def, Ideal.hostUnary_sqrt_def, Ideal.ofBits_def]
  exact Cert.Spec.div_sqrt_64 _

/-- The logits: operation 28 at `(r, n, m)`. -/
theorem logit_at (r : Fin 16) (n m : Fin 1024) :
    val_main_v28 (F := Ideal) x0 x1 x2 x3 x4 x5 x6 x7 (ix3 r n m)
      = Ideal.log (Cert.Spec.gate x1 x2 x3 r n m) + Cert.Spec.score x0 x4 x5 x6 x7 r n m := by
  rw [val_main_v28_apply, val_main_v27_apply, gate_at, score_at]
  simp only [Ideal.addf_def, Ideal.hostUnary_log_def]

/-- The exponentials: operation 35 at `(r, n, m)`, the row's shift left as the reference computes it. -/
theorem exp_at (r : Fin 16) (n m : Fin 1024) :
    val_main_v35 (F := Ideal) x0 x1 x2 x3 x4 x5 x6 x7 (ix3 r n m)
      = Ideal.exp (Ideal.log (Cert.Spec.gate x1 x2 x3 r n m) + Cert.Spec.score x0 x4 x5 x6 x7 r n m
          - val_main_v31 (F := Ideal) x0 x1 x2 x3 x4 x5 x6 x7 (ix2 r n)) := by
  rw [val_main_v35_apply, val_main_v34_apply, val_main_v33_apply, val_main_v32_apply, logit_at]
  have e : idx_main_v32 (idx_main_v33 (ix3 r n m)) = ix2 r n :=
    funext fun a => Fin.ext (by match a with | ⟨0, _⟩ => rfl | ⟨1, _⟩ => rfl)
  rw [e]
  simp only [Ideal.hostUnary_exp_def, Ideal.subf_def]

/-- The softmax weights: operation 39 at `(r, n, m)`. -/
theorem weight_at (r : Fin 16) (n m : Fin 1024) :
    val_main_v39 (F := Ideal) x0 x1 x2 x3 x4 x5 x6 x7 (ix3 r n m)
      = Ideal.div (Ideal.exp (Ideal.log (Cert.Spec.gate x1 x2 x3 r n m) + Cert.Spec.score x0 x4 x5 x6 x7 r n m
            - val_main_v31 (F := Ideal) x0 x1 x2 x3 x4 x5 x6 x7 (ix2 r n)))
          (0 + ∑ k : Fin 1024, Ideal.exp (Ideal.log (Cert.Spec.gate x1 x2 x3 r n k) + Cert.Spec.score x0 x4 x5 x6 x7 r n k
            - val_main_v31 (F := Ideal) x0 x1 x2 x3 x4 x5 x6 x7 (ix2 r n))) := by
  rw [val_main_v39_apply, val_main_v38_apply, val_main_v37_apply, val_main_v36_apply, val_main_cst_3_apply]
  have e : idx_main_v37 (idx_main_v38 (ix3 r n m)) = ix2 r n :=
    funext fun a => Fin.ext (by match a with | ⟨0, _⟩ => rfl | ⟨1, _⟩ => rfl)
  have e' : ∀ k : Fin 1024, idx_main_v36 (ix2 r n) k = ix3 r n k := fun k =>
    funext fun a => Fin.ext (by match a with | ⟨0, _⟩ => rfl | ⟨1, _⟩ => rfl | ⟨2, _⟩ => rfl)
  rw [e]
  simp only [e', exp_at, Ideal.hostDivf_def, Ideal.ofBits_def, Ideal.ofBits_zero_f32]

/-! ## The row's shift is a real -/

/-- The largest of finitely many reals, folded from `-∞` over a nonempty family, is a real. -/
theorem fold_max_real {ι : Type} [Fintype ι] [Nonempty ι] (f : ι → EReal) (hf : ∀ i, ∃ x : ℝ, f i = (x : EReal)) :
    ∃ μ : ℝ, (Finset.univ : Finset ι).fold max (⊥ : EReal) f = (μ : EReal) := by
  choose g hg using hf
  rw [show f = fun i => ((g i : ℝ) : EReal) from funext hg]
  exact Cert.LibRealSoftmax.fold_max_real Finset.univ g Finset.univ_nonempty

/-- Every logit is a real: the logarithm of a positive real plus a real. -/
theorem logit_real (h0 : ∀ i, ∃ x : ℝ, x0 i = (x : EReal)) (h1 : ∀ i, ∃ x : ℝ, x1 i = (x : EReal)) (h2 : ∀ i, ∃ x : ℝ, x2 i = (x : EReal))
    (h3 : ∀ i, ∃ x : ℝ, x3 i = (x : EReal)) (h4 : ∀ i, ∃ x : ℝ, x4 i = (x : EReal)) (h5 : ∀ i, ∃ x : ℝ, x5 i = (x : EReal))
    (h6 : ∀ i, ∃ x : ℝ, x6 i = (x : EReal)) (h7 : ∀ i, ∃ x : ℝ, x7 i = (x : EReal))
    (i : S16x1024x1024.Idx) : ∃ x : ℝ, val_main_v28 (F := Ideal) x0 x1 x2 x3 x4 x5 x6 x7 i = (x : EReal) := by
  obtain ⟨r, n, m, rfl⟩ : ∃ (r : Fin 16) (n m : Fin 1024), i = ix3 r n m := ⟨i 0, i 1, i 2, eq_ix3 i⟩
  rw [logit_at]
  obtain ⟨w, hw0, hw⟩ := Cert.Spec.gate_pos x1 x2 x3 h1 h2 h3 r n m
  obtain ⟨s, hs⟩ := Cert.Spec.score_real x0 x4 x5 x6 x7 h0 h4 h5 h6 h7 r n m
  exact ⟨Real.log w + s, by rw [hw, hs, Ideal.log_coe, if_neg (not_le.2 hw0), EReal.coe_add]⟩

/-- The row's shift — `-∞` against the row's logits folded by `max` from `-∞` — is a real. -/
theorem rowMax_real (h0 : ∀ i, ∃ x : ℝ, x0 i = (x : EReal)) (h1 : ∀ i, ∃ x : ℝ, x1 i = (x : EReal)) (h2 : ∀ i, ∃ x : ℝ, x2 i = (x : EReal))
    (h3 : ∀ i, ∃ x : ℝ, x3 i = (x : EReal)) (h4 : ∀ i, ∃ x : ℝ, x4 i = (x : EReal)) (h5 : ∀ i, ∃ x : ℝ, x5 i = (x : EReal))
    (h6 : ∀ i, ∃ x : ℝ, x6 i = (x : EReal)) (h7 : ∀ i, ∃ x : ℝ, x7 i = (x : EReal))
    (r : Fin 16) (n : Fin 1024) :
    ∃ μ : ℝ, val_main_v31 (F := Ideal) x0 x1 x2 x3 x4 x5 x6 x7 (ix2 r n) = (μ : EReal) := by
  rw [val_main_v31_apply, val_main_v30_apply, val_main_cst_2_apply]
  unfold val_main_v29
  have hred : S16x1024x1024.Reduces [2] S16x1024 := by decide
  rw [Host.reduce_eq_fold_single (FloatOps.maximumf (F := Ideal) (φ := .f32)) (h := hred)]
  haveI : Nonempty (Fin (S16x1024x1024.size 2)) := ⟨⟨0, by decide⟩⟩
  obtain ⟨μ, hμ⟩ := fold_max_real (val_main_v28 (F := Ideal) x0 x1 x2 x3 x4 x5 x6 x7 ∘ hred.lift (ix2 r n))
    (fun k => logit_real x0 x1 x2 x3 x4 x5 x6 x7 h0 h1 h2 h3 h4 h5 h6 h7 _)
  refine ⟨μ, ?_⟩
  rw [val_main_cst_1_apply]
  simp only [Ideal.ofBits_def, Cert.LibRealSoftmax.word_negInf, Ideal.maximumf_def]
  rw [max_eq_right bot_le]
  exact hμ

/-! ## The reference is the specification -/

/-- Under real entries the reference's result is the specified function of the ten argument arrays. -/
theorem ref_is_spec (h0 : ∀ i, ∃ x : ℝ, x0 i = (x : EReal)) (h1 : ∀ i, ∃ x : ℝ, x1 i = (x : EReal)) (h2 : ∀ i, ∃ x : ℝ, x2 i = (x : EReal))
    (h3 : ∀ i, ∃ x : ℝ, x3 i = (x : EReal)) (h4 : ∀ i, ∃ x : ℝ, x4 i = (x : EReal)) (h5 : ∀ i, ∃ x : ℝ, x5 i = (x : EReal))
    (h6 : ∀ i, ∃ x : ℝ, x6 i = (x : EReal)) (h7 : ∀ i, ∃ x : ℝ, x7 i = (x : EReal))
    (h8 : ∀ i, ∃ x : ℝ, x8 i = (x : EReal)) (h9 : ∀ i, ∃ x : ℝ, x9 i = (x : EReal)) :
    val_main_v43 (F := Ideal) x0 x1 x2 x3 x4 x5 x6 x7 x8 x9 = Cert.Spec.out x0 x1 x2 x3 x4 x5 x6 x7 x8 x9 := by
  funext i
  obtain ⟨n, q, rfl⟩ : ∃ n q : Fin 1024, i = ix2 n q := ⟨i 0, i 1, eq_ix2 i⟩
  rw [Cert.Spec.out_ix2, val_main_v43_apply, val_main_v42_apply, val_main_v41_apply, val_main_v40_apply]
  have e : idx_main_v41 (idx_main_v42 (ix2 n q)) = ix3 (Cert.Spec.relOf q) n (Cert.Spec.featOf q) :=
    funext fun a => Fin.ext (by
      have := n.isLt; have := q.isLt
      match a with
      | ⟨0, _⟩ => show (n.val * 1024 + q.val) / 64 % 16 = q.val / 64; omega
      | ⟨1, _⟩ => show (n.val * 1024 + q.val) / 1024 = n.val; omega
      | ⟨2, _⟩ => show (n.val * 1024 + q.val) % 64 = q.val % 64; omega)
  rw [e]
  have el : ∀ k : Fin 1024, lidx_main_v40 (ix3 (Cert.Spec.relOf q) n (Cert.Spec.featOf q)) k = ix3 (Cert.Spec.relOf q) n k :=
    fun k => funext fun a => Fin.ext (by match a with | ⟨0, _⟩ => rfl | ⟨1, _⟩ => rfl | ⟨2, _⟩ => rfl)
  have er : ∀ k : Fin 1024, ridx_main_v40 (ix3 (Cert.Spec.relOf q) n (Cert.Spec.featOf q)) k
      = ix3 (Cert.Spec.relOf q) k (Cert.Spec.featOf q) :=
    fun k => funext fun a => Fin.ext (by match a with | ⟨0, _⟩ => rfl | ⟨1, _⟩ => rfl | ⟨2, _⟩ => rfl)
  simp only [el, er, weight_at, value_at, Ideal.addf_def]
  unfold Cert.Spec.attn
  refine congrArg (· + x0 (ix2 n q)) ?_
  exact Cert.Spec.ref_row_gate (fun m => Cert.Spec.gate x1 x2 x3 (Cert.Spec.relOf q) n m)
    (fun m => Cert.Spec.score x0 x4 x5 x6 x7 (Cert.Spec.relOf q) n m)
    (fun m => Cert.Spec.proj x0 x8 x9 (Cert.Spec.relOf q) m (Cert.Spec.featOf q))
    (fun m => Cert.Spec.gate_pos x1 x2 x3 h1 h2 h3 _ _ m)
    (fun m => Cert.Spec.score_real x0 x4 x5 x6 x7 h0 h4 h5 h6 h7 _ _ m)
    (fun m => Cert.Spec.proj_real x0 x8 x9 h0 h8 h9 _ m _) _
    (rowMax_real x0 x1 x2 x3 x4 x5 x6 x7 h0 h1 h2 h3 h4 h5 h6 h7 _ n)

/-- Under the finiteness precondition the reference's result is the specified function of the ten argument arrays. -/
theorem ref_is_spec_of_pre
    (h : Cert.Pre_finite_inputs.fn (F := Ideal) x0 x1 x2 x3 x4 x5 x6 x7 x8 x9 = fun _ => 1#1) :
    val_main_v43 (F := Ideal) x0 x1 x2 x3 x4 x5 x6 x7 x8 x9 = Cert.Spec.out x0 x1 x2 x3 x4 x5 x6 x7 x8 x9 := by
  obtain ⟨h0, h1, h2, h3, h4, h5, h6, h7, h8, h9⟩ := Cert.Spec.entries_real x0 x1 x2 x3 x4 x5 x6 x7 x8 x9 h
  exact ref_is_spec x0 x1 x2 x3 x4 x5 x6 x7 x8 x9 h0 h1 h2 h3 h4 h5 h6 h7 h8 h9

end Cert.ReferenceIdeal.RefValue

end
-- ==== Proof.lean ====
/-
  The claim for the relation-attention kernel. Both programs compute, for every proposal n and every relation r, the
  mean of the value rows V(r, m, ·) over all proposals m with the weights gate(r, n, m) · exp(score(r, n, m)), normalised
  by their sum, and add the proposal's own appearance row: the reference as a softmax of log(gate) + score, the kernel
  as a projection call followed by a tiled attention call that keeps a running maximum, sum and weighted sum over eight
  column tiles. For real inputs the two are one function of the ten argument arrays (Spec.out): the kernel's side is
  read off the run of its two calls, the reference's off its run of host operations. The three frame claims are the
  runs with the results dropped; the idealization rewrote nothing.
-/
import proofs.«150398_j60060822667746_2_alg».proof.Defs
import proofs.«150398_j60060822667746_2_alg».proof.Proof.Gen.Kernel
import proofs.«150398_j60060822667746_2_alg».proof.Proof.Gen.KernelIdeal
import proofs.«150398_j60060822667746_2_alg».proof.Proof.Gen.ReferenceIdeal
import proofs.«150398_j60060822667746_2_alg».proof.Proof.Gen.Pre_finite_inputs
import proofs.«150398_j60060822667746_2_alg».proof.Proof.K.MainRun
import proofs.«150398_j60060822667746_2_alg».proof.Proof.KI.Value1
import proofs.«150398_j60060822667746_2_alg».proof.Proof.RefIsSpec
import proofs.«150398_j60060822667746_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every entry of the ten argument arrays is a real. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Hand.RealArgs m c := by
  obtain ⟨h0, h1, h2, h3, h4, h5, h6, h7, h8, h9⟩ := Cert.Spec.entries_real _ _ _ _ _ _ _ _ _ _ (hpre c)
  exact ⟨h0, h1, h2, h3, h4, h5, h6, h7, h8, h9⟩

/-- At the ideal values, from memories that agree on the arguments, both programs end with the result array at
    `Spec.out` of the arguments. -/
theorem algebraic : Cert.algebraic_KernelIdeal_ReferenceIdeal := by
  intro m ρ m' ρ' hpre hagree
  refine ⟨fun c => Cert.KernelIdeal.Hand.target m c, ?_, ?_⟩
  · refine (θ_run Cert.KernelIdeal.defs _ _).mono (fun r h c => ⟨?_, ?_, ?_, ?_, ?_, ?_, ?_, ?_, ?_, ?_, ?_⟩) (Cert.KernelIdeal.Hand.run_all m ρ)
    · exact (h c _ (Cert.KernelIdeal.Hand.mem_uc Cert.KernelIdeal.main_v21 (by decide))).trans
        (Cert.KernelIdeal.Hand.result_at_end m ρ c (realArgs m hpre c))
    · exact (h c _ (Cert.KernelIdeal.Hand.mem_uc Cert.KernelIdeal.main_arg0 (by decide))).trans (Cert.KernelIdeal.Hand.atEnd_main_arg0 m ρ c)
    · exact (h c _ (Cert.KernelIdeal.Hand.mem_uc Cert.KernelIdeal.main_arg1 (by decide))).trans (Cert.KernelIdeal.Hand.atEnd_main_arg1 m ρ c)
    · exact (h c _ (Cert.KernelIdeal.Hand.mem_uc Cert.KernelIdeal.main_arg2 (by decide))).trans (Cert.KernelIdeal.Hand.atEnd_main_arg2 m ρ c)
    · exact (h c _ (Cert.KernelIdeal.Hand.mem_uc Cert.KernelIdeal.main_arg3 (by decide))).trans (Cert.KernelIdeal.Hand.atEnd_main_arg3 m ρ c)
    · exact (h c _ (Cert.KernelIdeal.Hand.mem_uc Cert.KernelIdeal.main_arg4 (by decide))).trans (Cert.KernelIdeal.Hand.atEnd_main_arg4 m ρ c)
    · exact (h c _ (Cert.KernelIdeal.Hand.mem_uc Cert.KernelIdeal.main_arg5 (by decide))).trans (Cert.KernelIdeal.Hand.atEnd_main_arg5 m ρ c)
    · exact (h c _ (Cert.KernelIdeal.Hand.mem_uc Cert.KernelIdeal.main_arg6 (by decide))).trans (Cert.KernelIdeal.Hand.atEnd_main_arg6 m ρ c)
    · exact (h c _ (Cert.KernelIdeal.Hand.mem_uc Cert.KernelIdeal.main_arg7 (by decide))).trans (Cert.KernelIdeal.Hand.atEnd_main_arg7 m ρ c)
    · exact (h c _ (Cert.KernelIdeal.Hand.mem_uc Cert.KernelIdeal.main_arg8 (by decide))).trans (Cert.KernelIdeal.Hand.atEnd_main_arg8 m ρ c)
    · exact (h c _ (Cert.KernelIdeal.Hand.mem_uc Cert.KernelIdeal.main_arg9 (by decide))).trans (Cert.KernelIdeal.Hand.atEnd_main_arg9 m ρ c)
  · refine (θ_run Cert.ReferenceIdeal.defs _ _).mono (fun r h c => ⟨?_, (h c).2⟩) (Cert.ReferenceIdeal.Value.run (F := Ideal) m' ρ')
    rw [(h c).1, Cert.ReferenceIdeal.Read.val_main_v43_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact Cert.ReferenceIdeal.RefValue.ref_is_spec_of_pre _ _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
